-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S8x1024x192 : Shape := ⟨3, ![8, 1024, 192]⟩
abbrev S768x768 : Shape := ⟨2, ![768, 768]⟩
abbrev S768 : Shape := ⟨1, ![768]⟩
abbrev S192x192 : Shape := ⟨2, ![192, 192]⟩
abbrev S192 : Shape := ⟨1, ![192]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S8x1024x192 : S_.BroadcastsInDim S8x1024x192 (![] : Fin 0 → Fin S8x1024x192.rank)
  reducesTo_S8x1024x192_S_d0_1_2 : S8x1024x192.ReducesTo [0, 1, 2] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S192 .f32) (main_arg12 : FVec F S192x192 .f32) (main_arg13 : FVec F S192 .f32) (main_v48 : IVec S_ 1) (main_v49 : FVec F S192x192 .f32) (main_v50 : FVec F S192x192 .f32) : IVec S_ 1 :=
  let main_v51 : IVec S192x192 1 := cmpf .olt main_v49 main_v50
  let main_c_19 : IVec S_ 1 := constantI S_ 1 1#1
  let main_v52 : IVec S_ 1 := (fun x v => Host.reduce IntOp.andi x v reducesTo_S192x192_S_d0_1 h_S_) main_v51 main_c_19
  let main_v53 : IVec S_ 1 := andi main_v48 main_v52
  let main_v54 : FVec F S192 .f32 := Host.absf main_arg11
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  let main_v59 : FVec F S192x192 .f32 := Host.absf main_arg12
  let main_cst_22 : FVec F S_ .f32 := constant S_ .f32 0x7F800000#32
  let main_v60 : FVec F S192x192 .f32 := broadcastInDim S192x192 ![] bcast_S_S192x192 main_cst_22
  let main_v61 : IVec S192x192 1 := cmpf .olt main_v59 main_v60
  let main_c_23 : IVec S_ 1 := constantI S_ 1 1#1
  let main_v62 : IVec S_ 1 := (fun x v => Host.reduce IntOp.andi x v reducesTo_S192x192_S_d0_1 h_S_) main_v61 main_c_23
  let main_v63 : IVec S_ 1 := andi main_v58 main_v62
  let main_v64 : FVec F S192 .f32 := Host.absf main_arg13
  let main_cst_24 : FVec F S_ .f32 := constant S_ .f32 0x7F800000#32
  let main_v65 : FVec F S192 .f32 := broadcastInDim S192 ![] bcast_S_S192 main_cst_24
  let main_v66 : IVec S192 1 := cmpf .olt main_v64 main_v65
  let main_c_25 : IVec S_ 1 := constantI S_ 1 1#1
  let main_v67 : IVec S_ 1 := (fun x v => Host.reduce IntOp.andi x v reducesTo_S192_S_d0 h_S_) main_v66 main_c_25
  fn_part4 (F := F) main_v63 main_v67

def fn_part2 {F : FTy → Type} [FloatOps F] (main_arg7 : FVec F S768 .f32) (main_arg8 : FVec F S192x192 .f32) (main_arg9 : FVec F S192 .f32) (main_arg10 : FVec F S192x192 .f32) (main_arg11 : FVec F S192 .f32) (main_arg12 : FVec F S192x192 .f32) (main_arg13 : FVec F S192 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S192x192 .f32 := Host.absf main_arg8
  let main_cst_14 : FVec F S_ .f32 := constant S_ .f32 0x7F800000#32
  let main_v40 : FVec F S192x192 .f32 := broadcastInDim S192x192 ![] bcast_S_S192x192 main_cst_14
  let main_v41 : IVec S192x192 1 := cmpf .olt main_v39 main_v40
  let main_c_15 : IVec S_ 1 := constantI S_ 1 1#1
  let main_v42 : IVec S_ 1 := (fun x v => Host.reduce IntOp.andi x v reducesTo_S192x192_S_d0_1 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S192x192 .f32 := Host.absf main_arg10
  let main_cst_18 : FVec F S_ .f32 := constant S_ .f32 0x7F800000#32
  let main_v50 : FVec F S192x192 .f32 := broadcastInDim S192x192 ![] bcast_S_S192x192 main_cst_18
  fn_part3 (F := F) main_arg11 main_arg12 main_arg13 main_v48 main_v49 main_v50

def fn_part1 {F : FTy → Type} [FloatOps F] (main_arg4 : FVec F S768x768 .f32) (main_arg5 : FVec F S768 .f32) (main_arg6 : FVec F S768x768 .f32) (main_arg7 : FVec F S768 .f32) (main_arg8 : FVec F S192x192 .f32) (main_arg9 : FVec F S192 .f32) (main_arg10 : FVec F S192x192 .f32) (main_arg11 : FVec F S192 .f32) (main_arg12 : FVec F S192x192 .f32) (main_arg13 : FVec F S192 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8x1024x768 .f32) (main_arg1 : FVec F S8x1024x192 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S192x192 .f32) (main_arg9 : FVec F S192 .f32) (main_arg10 : FVec F S192x192 .f32) (main_arg11 : FVec F S192 .f32) (main_arg12 : FVec F S192x192 .f32) (main_arg13 : FVec F S192 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S8x1024x192 .f32 := Host.absf main_arg1
  let main_cst_0 : FVec F S_ .f32 := constant S_ .f32 0x7F800000#32
  let main_v5 : FVec F S8x1024x192 .f32 := broadcastInDim S8x1024x192 ![] bcast_S_S8x1024x192 main_cst_0
  let main_v6 : IVec S8x1024x192 1 := cmpf .olt main_v4 main_v5
  let main_c_1 : IVec S_ 1 := constantI S_ 1 1#1
  let main_v7 : IVec S_ 1 := (fun x v => Host.reduce IntOp.andi x v reducesTo_S8x1024x192_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_arg10 main_arg11 main_arg12 main_arg13 main_v13 main_v16
-- ==== Kernel.lean ====
abbrev S8x1024x768 : Shape := ⟨3, ![8, 1024, 768]⟩
abbrev S8x1024x192 : Shape := ⟨3, ![8, 1024, 192]⟩
abbrev S768x768 : Shape := ⟨2, ![768, 768]⟩
abbrev S768 : Shape := ⟨1, ![768]⟩
abbrev S192x192 : Shape := ⟨2, ![192, 192]⟩
abbrev S192 : Shape := ⟨1, ![192]⟩
abbrev S2304x768 : Shape := ⟨2, ![2304, 768]⟩
abbrev S2304 : Shape := ⟨1, ![2304]⟩
abbrev S576x192 : Shape := ⟨2, ![576, 192]⟩
abbrev S576 : Shape := ⟨1, ![576]⟩
abbrev S8192x768 : Shape := ⟨2, ![8192, 768]⟩
abbrev S8192x192 : Shape := ⟨2, ![8192, 192]⟩
abbrev S1x2304 : Shape := ⟨2, ![1, 2304]⟩
abbrev S8192x2304 : Shape := ⟨2, ![8192, 2304]⟩
abbrev S1024x768 : Shape := ⟨2, ![1024, 768]⟩
abbrev S1024x2304 : Shape := ⟨2, ![1024, 2304]⟩
abbrev S1x576 : Shape := ⟨2, ![1, 576]⟩
abbrev S8192x576 : Shape := ⟨2, ![8192, 576]⟩
abbrev S1024x192 : Shape := ⟨2, ![1024, 192]⟩
abbrev S1024x576 : Shape := ⟨2, ![1024, 576]⟩
abbrev S8x1024x2304 : Shape := ⟨3, ![8, 1024, 2304]⟩
abbrev S8x1024x576 : Shape := ⟨3, ![8, 1024, 576]⟩
abbrev S1x1024x128 : Shape := ⟨3, ![1, 1024, 128]⟩
abbrev S1x1024x576 : Shape := ⟨3, ![1, 1024, 576]⟩
abbrev S1x1024x192 : Shape := ⟨3, ![1, 1024, 192]⟩
abbrev S1x1024x32 : Shape := ⟨3, ![1, 1024, 32]⟩
abbrev S1024x32 : Shape := ⟨2, ![1024, 32]⟩
abbrev S1x1024x64 : Shape := ⟨3, ![1, 1024, 64]⟩
abbrev S1024x64 : Shape := ⟨2, ![1024, 64]⟩
abbrev S1024x16 : Shape := ⟨2, ![1024, 16]⟩
abbrev S1024x1024 : Shape := ⟨2, ![1024, 1024]⟩
abbrev S1024 : Shape := ⟨1, ![1024]⟩
abbrev S1024x1 : Shape := ⟨2, ![1024, 1]⟩
abbrev S1x1024x16 : Shape := ⟨3, ![1, 1024, 16]⟩

abbrev nBuf : Space → Nat
  | .hbm => 28
  | .vmem => 24
  | .smem => 0
  | _ => 0

abbrev bufTy : (tb : Table) → Fin (tcTables nBuf tb) → BufTy
  | .hbm, ⟨0, _⟩ => ⟨S8x1024x768, .f32⟩
  | .hbm, ⟨1, _⟩ => ⟨S8x1024x192, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S192x192, .f32⟩
  | .hbm, ⟨9, _⟩ => ⟨S192, .f32⟩
  | .hbm, ⟨10, _⟩ => ⟨S192x192, .f32⟩
  | .hbm, ⟨11, _⟩ => ⟨S192, .f32⟩
  | .hbm, ⟨12, _⟩ => ⟨S192x192, .f32⟩
  | .hbm, ⟨13, _⟩ => ⟨S192, .f32⟩
  | .hbm, ⟨14, _⟩ => ⟨S2304x768, .f32⟩
  | .hbm, ⟨15, _⟩ => ⟨S2304, .f32⟩
  | .hbm, ⟨16, _⟩ => ⟨S576x192, .f32⟩
  | .hbm, ⟨17, _⟩ => ⟨S576, .f32⟩
  | .hbm, ⟨18, _⟩ => ⟨S8192x768, .f32⟩
  | .hbm, ⟨19, _⟩ => ⟨S8192x192, .f32⟩
  | .hbm, ⟨20, _⟩ => ⟨S1x2304, .f32⟩
  | .hbm, ⟨21, _⟩ => ⟨S8192x2304, .bf16⟩
  | .hbm, ⟨22, _⟩ => ⟨S1x576, .f32⟩
  | .hbm, ⟨23, _⟩ => ⟨S8192x576, .bf16⟩
  | .hbm, ⟨24, _⟩ => ⟨S8x1024x2304, .bf16⟩
  | .hbm, ⟨25, _⟩ => ⟨S8x1024x576, .bf16⟩
  | .hbm, ⟨26, _⟩ => ⟨S8x1024x768, .f32⟩
  | .hbm, ⟨27, _⟩ => ⟨S8x1024x192, .f32⟩
  | .local _ .vmem, ⟨0, _⟩ => ⟨S1024x768, .f32⟩
  | .local _ .vmem, ⟨1, _⟩ => ⟨S1024x768, .f32⟩
  | .local _ .vmem, ⟨2, _⟩ => ⟨S2304x768, .f32⟩
  | .local _ .vmem, ⟨3, _⟩ => ⟨S1x2304, .f32⟩
  | .local _ .vmem, ⟨4, _⟩ => ⟨S1024x2304, .bf16⟩
  | .local _ .vmem, ⟨5, _⟩ => ⟨S1024x2304, .bf16⟩
  | .local _ .vmem, ⟨6, _⟩ => ⟨S1024x192, .f32⟩
  | .local _ .vmem, ⟨7, _⟩ => ⟨S1024x192, .f32⟩
  | .local _ .vmem, ⟨8, _⟩ => ⟨S576x192, .f32⟩
  | .local _ .vmem, ⟨9, _⟩ => ⟨S1x576, .f32⟩
  | .local _ .vmem, ⟨10, _⟩ => ⟨S1024x576, .bf16⟩
  | .local _ .vmem, ⟨11, _⟩ => ⟨S1024x576, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1024x576, .bf16⟩
  | .local _ .vmem, ⟨19, _⟩ => ⟨S1x1024x576, .bf16⟩
  | .local _ .vmem, ⟨20, _⟩ => ⟨S1x1024x128, .f32⟩
  | .local _ .vmem, ⟨21, _⟩ => ⟨S1x1024x128, .f32⟩
  | .local _ .vmem, ⟨22, _⟩ => ⟨S1x1024x192, .f32⟩
  | .local _ .vmem, ⟨23, _⟩ => ⟨S1x1024x192, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x576 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x576 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 6], ![false, false]⟩

def k2_off1 (i : grid2.Coords) : Fin 3 → Nat :=
  let c0 : Index := 0#32
  let c0_0 : Index := 0#32
  let arg1 : BitVec 32 := BitVec.ofNat 32 (i 1).val
  let c32_i32 : BitVec 32 := 32#32
  let v0 : BitVec 32 := Scalar.muli arg1 c32_i32
  let v1 : Index := Scalar.indexCast v0
  ![0, 0, v1.toNat]
def k2_off2 (i : grid2.Coords) (c192_i32 : BitVec 32) : Fin 3 → Nat :=
  let c0_1 : Index := 0#32
  let c0_2 : Index := 0#32
  let arg1 : BitVec 32 := BitVec.ofNat 32 (i 1).val
  let c32_i32 : BitVec 32 := 32#32
  let v0 : BitVec 32 := Scalar.muli arg1 c32_i32
  let v4 : BitVec 32 := Scalar.addi c192_i32 v0
  let v5 : Index := Scalar.indexCast v4
  ![0, 0, v5.toNat]
def k2_off3 (i : grid2.Coords) (c0_i32 : BitVec 32) : Fin 3 → Nat :=
  let c0_24 : Index := 0#32
  let c0_25 : Index := 0#32
  let arg1 : BitVec 32 := BitVec.ofNat 32 (i 1).val
  let c32_i32 : BitVec 32 := 32#32
  let v0 : BitVec 32 := Scalar.muli arg1 c32_i32
  let v43 : BitVec 32 := Scalar.addi v0 c0_i32
  let v44 : Index := Scalar.indexCast v43
  ![0, 0, v44.toNat]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc2_transform_2 (i : grid2.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x576 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1024x192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  concatenates_S768x768_S768x768_S768x768_S2304x768_d0 : Shape.Concatenates [S768x768, S768x768, S768x768] S2304x768 0
  concatenates_S768_S768_S768_S2304_d0 : Shape.Concatenates [S768, S768, S768] S2304 0
  concatenates_S192x192_S192x192_S192x192_S576x192_d0 : Shape.Concatenates [S192x192, S192x192, S192x192] S576x192 0
  concatenates_S192_S192_S192_S576_d0 : Shape.Concatenates [S192, S192, S192] S576 0
  shapeCasts_S8x1024x768_S8192x768 : S8x1024x768.ShapeCasts S8192x768
  shapeCasts_S8x1024x192_S8192x192 : S8x1024x192.ShapeCasts S8192x192
  shapeCasts_S2304_S1x2304 : S2304.ShapeCasts S1x2304
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S1024x2304 : S1x2304.Broadcasts S1024x2304
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  shapeCasts_S576_S1x576 : S576.ShapeCasts S1x576
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  inb_S576x192_S576x192_0_0 : ∀ a, (![0, 0] : Fin 2 → Nat) a + S576x192.size a ≤ S576x192.size a
  h_S576x192 : 0 < S576x192.numel
  shapeCasts_S576x192_S576x192 : S576x192.ShapeCasts S576x192
  inb_S1x576_S1x576_0_0 : ∀ a, (![0, 0] : Fin 2 → Nat) a + S1x576.size a ≤ S1x576.size a
  h_S1x576 : 0 < S1x576.numel
  shapeCasts_S1x576_S1x576 : S1x576.ShapeCasts S1x576
  broadcasts_S1x576_S1024x576 : S1x576.Broadcasts S1024x576
  inb_S1024x576_S1024x576_0_0 : ∀ a, (![0, 0] : Fin 2 → Nat) a + S1024x576.size a ≤ S1024x576.size a
  h_S1024x576 : 0 < S1024x576.numel
  packedbf16_S1024x576_S1024x576_0_0 : (Rect.unit (s := S1024x576) ![0, 0] S1024x576.size inb_S1024x576_S1024x576_0_0).PackedRows (EltTy.packing .bf16)
  shapeCasts_S8192x2304_S8x1024x2304 : S8192x2304.ShapeCasts S8x1024x2304
  shapeCasts_S8192x576_S8x1024x576 : S8192x576.ShapeCasts S8x1024x576
  h_S1x1024x32 : 0 < S1x1024x32.numel
  shapeCasts_S1x1024x32_S1024x32 : S1x1024x32.ShapeCasts S1024x32
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  slices_S1024x32_o0_0_S1024x16 : S1024x32.Slices ![0, 0] S1024x16
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  h_S1x1024x16 : 0 < S1x1024x16.numel
  shapeCasts_S1x1024x16_S1024x16 : S1x1024x16.ShapeCasts S1024x16
  shapeCasts_S1024x16_S1x1024x16 : S1024x16.ShapeCasts S1x1024x16
  inb_S1x1024x128_S1x1024x64_0_0_64 : ∀ a, (![0, 0, 64] : Fin 3 → Nat) a + S1x1024x64.size a ≤ S1x1024x128.size a
  slices_S1024x32_o0_16_S1024x16 : S1024x32.Slices ![0, 16] S1024x16
  dot_S1024x768_S2304x768_S1024x2304_1_1_0_0_n_n_wf : DotDims.WF S1024x768 S2304x768 S1024x2304 [1] [1] [0] [0] [] []
  dot_S1024x192_S576x192_S1024x576_1_1_0_0_n_n_wf : DotDims.WF S1024x192 S576x192 S1024x576 [1] [1] [0] [0] [] []
  dot_S1024x64_S1024x64_S1024x1024_1_1_0_0_n_n_wf : DotDims.WF S1024x64 S1024x64 S1024x1024 [1] [1] [0] [0] [] []
  dot_S1024x16_S1024x16_S1024x1024_1_1_0_0_n_n_wf : DotDims.WF S1024x16 S1024x16 S1024x1024 [1] [1] [0] [0] [] []
  dot_S1024x1024_S1024x64_S1024x64_1_0_0_1_n_n_wf : DotDims.WF S1024x1024 S1024x64 S1024x64 [1] [0] [0] [1] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2304.size a ≤ S8192x2304.size a
  hwx0_3 : ∀ i : grid0.Coords, EltTy.bits .bf16 = 32 ∨ (Rect.block (s := S8192x2304) S1024x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x192.size a ≤ S8192x192.size a
  hwx1_0 : ∀ i : grid1.Coords, EltTy.bits .f32 = 32 ∨ (Rect.block (s := S8192x192) S1024x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x192.size a ≤ S576x192.size a
  hwx1_1 : ∀ i : grid1.Coords, EltTy.bits .f32 = 32 ∨ (Rect.block (s := S576x192) S576x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x576.size a ≤ S1x576.size a
  hwx1_2 : ∀ i : grid1.Coords, EltTy.bits .f32 = 32 ∨ (Rect.block (s := S1x576) S1x576.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x576.size a ≤ S8192x576.size a
  hwx1_3 : ∀ i : grid1.Coords, EltTy.bits .bf16 = 32 ∨ (Rect.block (s := S8192x576) S1024x576.size (cc1_transform_3 i) (hinb1_3 i)).WholeWords (EltTy.packing .bf16)
  hrank2 : 0 < grid2.rank
  k2_off1_inb : ∀ i : grid2.Coords, ∀ a, (k2_off1 i) a + S1x1024x32.size a ≤ S1x1024x576.size a
  k2_off2_inb : ∀ i : grid2.Coords, ∀ (r : Fin 2), ∀ a, (k2_off2 i (BitVec.ofNat 32 (192 + 192 * r.val))) a + S1x1024x32.size a ≤ S1x1024x576.size a
  k2_off3_inb : ∀ i : grid2.Coords, ∀ (r : Fin 2), ∀ a, (k2_off3 i (BitVec.ofNat 32 (16 * r.val))) a + S1x1024x16.size a ≤ S1x1024x192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x128.size a ≤ S8x1024x2304.size a
  hwx2_0 : ∀ i : grid2.Coords, EltTy.bits .bf16 = 32 ∨ (Rect.block (s := S8x1024x2304) S1x1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x128.size a ≤ S8x1024x2304.size a
  hwx2_1 : ∀ i : grid2.Coords, EltTy.bits .bf16 = 32 ∨ (Rect.block (s := S8x1024x2304) S1x1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x128.size a ≤ S8x1024x2304.size a
  hwx2_2 : ∀ i : grid2.Coords, EltTy.bits .bf16 = 32 ∨ (Rect.block (s := S8x1024x2304) S1x1024x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x576.size a ≤ S8x1024x576.size a
  hwx2_3 : ∀ i : grid2.Coords, EltTy.bits .bf16 = 32 ∨ (Rect.block (s := S8x1024x576) S1x1024x576.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x128.size a ≤ S8x1024x768.size a
  hwx2_4 : ∀ i : grid2.Coords, EltTy.bits .f32 = 32 ∨ (Rect.block (s := S8x1024x768) S1x1024x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x192.size a ≤ S8x1024x192.size a
  hwx2_5 : ∀ i : grid2.Coords, EltTy.bits .f32 = 32 ∨ (Rect.block (s := S8x1024x192) S1x1024x192.size (cc2_transform_5 i) (hinb2_5 i)).WholeWords (EltTy.packing .f32)

variable [Facts₀]

def dot_S1024x768_S2304x768_S1024x2304_1_1_0_0_n_n : DotDims S1024x768 S2304x768 S1024x2304 where
  lhsContracting := [1]
  rhsContracting := [1]
  lhsNonContracting := [0]
  rhsNonContracting := [0]
  lhsBatch := []
  rhsBatch := []
  wf := dot_S1024x768_S2304x768_S1024x2304_1_1_0_0_n_n_wf
def dot_S1024x192_S576x192_S1024x576_1_1_0_0_n_n : DotDims S1024x192 S576x192 S1024x576 where
  lhsContracting := [1]
  rhsContracting := [1]
  lhsNonContracting := [0]
  rhsNonContracting := [0]
  lhsBatch := []
  rhsBatch := []
  wf := dot_S1024x192_S576x192_S1024x576_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_v4) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S576x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x576.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x576.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1x1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1024x576.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12_0) S1x1024x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12_1) S1x1024x192.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S8x1024x192 : Shape := ⟨3, ![8, 1024, 192]⟩
abbrev S768x768 : Shape := ⟨2, ![768, 768]⟩
abbrev S768 : Shape := ⟨1, ![768]⟩
abbrev S192x192 : Shape := ⟨2, ![192, 192]⟩
abbrev S192 : Shape := ⟨1, ![192]⟩
abbrev S1x1x768 : Shape := ⟨3, ![1, 1, 768]⟩
abbrev S8x1024x12x64 : Shape := ⟨4, ![8, 1024, 12, 64]⟩
abbrev S8x12x1024x64 : Shape := ⟨4, ![8, 12, 1024, 64]⟩
abbrev S1x1x192 : Shape := ⟨3, ![1, 1, 192]⟩
abbrev S8x1024x12x16 : Shape := ⟨4, ![8, 1024, 12, 16]⟩
abbrev S8x12x1024x16 : Shape := ⟨4, ![8, 12, 1024, 16]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩

abbrev nBuf : Space → Nat
  | .hbm => 81
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8x1024x192, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S192x192, .f32⟩
  | .hbm, ⟨9, _⟩ => ⟨S192, .f32⟩
  | .hbm, ⟨10, _⟩ => ⟨S192x192, .f32⟩
  | .hbm, ⟨11, _⟩ => ⟨S192, .f32⟩
  | .hbm, ⟨12, _⟩ => ⟨S192x192, .f32⟩
  | .hbm, ⟨13, _⟩ => ⟨S192, .f32⟩
  | .hbm, ⟨14, _⟩ => ⟨S8x1024x768, .f32⟩
  | .hbm, ⟨15, _⟩ => ⟨S1x1x768, .f32⟩
  | .hbm, ⟨16, _⟩ => ⟨S8x1024x768, .f32⟩
  | .hbm, ⟨17, _⟩ => ⟨S8x1024x768, .f32⟩
  | .hbm, ⟨18, _⟩ => ⟨S8x1024x12x64, .f32⟩
  | .hbm, ⟨19, _⟩ => ⟨S8x12x1024x64, .f32⟩
  | .hbm, ⟨20, _⟩ => ⟨S8x1024x768, .f32⟩
  | .hbm, ⟨21, _⟩ => ⟨S1x1x768, .f32⟩
  | .hbm, ⟨22, _⟩ => ⟨S8x1024x768, .f32⟩
  | .hbm, ⟨23, _⟩ => ⟨S8x1024x768, .f32⟩
  | .hbm, ⟨24, _⟩ => ⟨S8x1024x12x64, .f32⟩
  | .hbm, ⟨25, _⟩ => ⟨S8x12x1024x64, .f32⟩
  | .hbm, ⟨26, _⟩ => ⟨S8x1024x768, .f32⟩
  | .hbm, ⟨27, _⟩ => ⟨S1x1x768, .f32⟩
  | .hbm, ⟨28, _⟩ => ⟨S8x1024x768, .f32⟩
  | .hbm, ⟨29, _⟩ => ⟨S8x1024x768, .f32⟩
  | .hbm, ⟨30, _⟩ => ⟨S8x1024x12x64, .f32⟩
  | .hbm, ⟨31, _⟩ => ⟨S8x12x1024x64, .f32⟩
  | .hbm, ⟨32, _⟩ => ⟨S8x1024x192, .f32⟩
  | .hbm, ⟨33, _⟩ => ⟨S1x1x192, .f32⟩
  | .hbm, ⟨34, _⟩ => ⟨S8x1024x192, .f32⟩
  | .hbm, ⟨35, _⟩ => ⟨S8x1024x192, .f32⟩
  | .hbm, ⟨36, _⟩ => ⟨S8x1024x12x16, .f32⟩
  | .hbm, ⟨37, _⟩ => ⟨S8x12x1024x16, .f32⟩
  | .hbm, ⟨38, _⟩ => ⟨S8x1024x192, .f32⟩
  | .hbm, ⟨39, _⟩ => ⟨S1x1x192, .f32⟩
  | .hbm, ⟨40, _⟩ => ⟨S8x1024x192, .f32⟩
  | .hbm, ⟨41, _⟩ => ⟨S8x1024x192, .f32⟩
  | .hbm, ⟨42, _⟩ => ⟨S8x1024x12x16, .f32⟩
  | .hbm, ⟨43, _⟩ => ⟨S8x12x1024x16, .f32⟩
  | .hbm, ⟨44, _⟩ => ⟨S8x1024x192, .f32⟩
  | .hbm, ⟨45, _⟩ => ⟨S1x1x192, .f32⟩
  | .hbm, ⟨46, _⟩ => ⟨S8x1024x192, .f32⟩
  | .hbm, ⟨47, _⟩ => ⟨S8x1024x192, .f32⟩
  | .hbm, ⟨48, _⟩ => ⟨S8x1024x12x16, .f32⟩
  | .hbm, ⟨49, _⟩ => ⟨S8x12x1024x16, .f32⟩
  | .hbm, ⟨50, _⟩ => ⟨S8x12x1024x1024, .f32⟩
  | .hbm, ⟨51, _⟩ => ⟨S_, .f32⟩
  | .hbm, ⟨52, _⟩ => ⟨S_, .f32⟩
  | .hbm, ⟨53, _⟩ => ⟨S8x12x1024x1024, .f32⟩
  | .hbm, ⟨54, _⟩ => ⟨S8x12x1024x1024, .f32⟩
  | .hbm, ⟨55, _⟩ => ⟨S8x12x1024x1024, .f32⟩
  | .hbm, ⟨56, _⟩ => ⟨S_, .f32⟩
  | .hbm, ⟨57, _⟩ => ⟨S_, .f32⟩
  | .hbm, ⟨58, _⟩ => ⟨S8x12x1024x1024, .f32⟩
  | .hbm, ⟨59, _⟩ => ⟨S8x12x1024x1024, .f32⟩
  | .hbm, ⟨60, _⟩ => ⟨S8x12x1024x1024, .f32⟩
  | .hbm, ⟨61, _⟩ => ⟨S_, .f32⟩
  | .hbm, ⟨62, _⟩ => ⟨S8x12x1024, .f32⟩
  | .hbm, ⟨63, _⟩ => ⟨S_, .f32⟩
  | .hbm, ⟨64, _⟩ => ⟨S8x12x1024, .f32⟩
  | .hbm, ⟨65, _⟩ => ⟨S8x12x1024, .f32⟩
  | .hbm, ⟨66, _⟩ => ⟨S8x12x1024x1, .f32⟩
  | .hbm, ⟨67, _⟩ => ⟨S8x12x1024x1024, .f32⟩
  | .hbm, ⟨68, _⟩ => ⟨S8x12x1024x1024, .f32⟩
  | .hbm, ⟨69, _⟩ => ⟨S8x12x1024x1024, .f32⟩
  | .hbm, ⟨70, _⟩ => ⟨S_, .f32⟩
  | .hbm, ⟨71, _⟩ => ⟨S8x12x1024, .f32⟩
  | .hbm, ⟨72, _⟩ => ⟨S8x12x1024x1, .f32⟩
  | .hbm, ⟨73, _⟩ => ⟨S8x12x1024x1024, .f32⟩
  | .hbm, ⟨74, _⟩ => ⟨S8x12x1024x1024, .f32⟩
  | .hbm, ⟨75, _⟩ => ⟨S8x12x1024x64, .f32⟩
  | .hbm, ⟨76, _⟩ => ⟨S8x12x1024x16, .f32⟩
  | .hbm, ⟨77, _⟩ => ⟨S8x1024x12x64, .f32⟩
  | .hbm, ⟨78, _⟩ => ⟨S8x1024x768, .f32⟩
  | .hbm, ⟨79, _⟩ => ⟨S8x1024x12x16, .f32⟩
  | .hbm, ⟨80, _⟩ => ⟨S8x1024x192, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_1 : Ref sig .tc := ⟨.hbm, 61, rfl⟩
abbrev main_v45 : Ref sig .tc := ⟨.hbm, 62, rfl⟩
abbrev main_cst_2 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  shapeCasts_S8x1024x768_S8x1024x12x64 : S8x1024x768.ShapeCasts S8x1024x12x64
  transposes_S8x1024x12x64_S8x12x1024x64_0_2_1_3 : S8x1024x12x64.Transposes [0, 2, 1, 3] S8x12x1024x64
  bcast_S192_S1x1x192_2 : S192.BroadcastsInDim S1x1x192 (![2] : Fin 1 → Fin S1x1x192.rank)
  bcast_S1x1x192_S8x1024x192_0_1_2 : S1x1x192.BroadcastsInDim S8x1024x192 (![0, 1, 2] : Fin 3 → Fin S8x1024x192.rank)
  shapeCasts_S8x1024x192_S8x1024x12x16 : S8x1024x192.ShapeCasts S8x1024x12x16
  transposes_S8x1024x12x16_S8x12x1024x16_0_2_1_3 : S8x1024x12x16.Transposes [0, 2, 1, 3] S8x12x1024x16
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  transposes_S8x12x1024x16_S8x1024x12x16_0_2_1_3 : S8x12x1024x16.Transposes [0, 2, 1, 3] S8x1024x12x16
  shapeCasts_S8x1024x12x16_S8x1024x192 : S8x1024x12x16.ShapeCasts S8x1024x192
  dot_S8x1024x768_S768x768_S8x1024x768_2_1_01_0_n_n_wf : DotDims.WF S8x1024x768 S768x768 S8x1024x768 [2] [1] [0, 1] [0] [] []
  dot_S8x1024x192_S192x192_S8x1024x192_2_1_01_0_n_n_wf : DotDims.WF S8x1024x192 S192x192 S8x1024x192 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x16_S8x12x1024x16_S8x12x1024x1024_3_3_2_2_01_01_wf : DotDims.WF S8x12x1024x16 S8x12x1024x16 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x12x1024x1024_S8x12x1024x16_S8x12x1024x16_3_2_2_3_01_01_wf : DotDims.WF S8x12x1024x1024 S8x12x1024x16 S8x12x1024x16 [3] [2] [2] [3] [0, 1] [0, 1]

variable [Facts₀]

def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf
def dot_S8x1024x192_S192x192_S8x1024x192_2_1_01_0_n_n : DotDims S8x1024x192 S192x192 S8x1024x192 where
  lhsContracting := [2]
  rhsContracting := [1]
  lhsNonContracting := [0, 1]
  rhsNonContracting := [0]
  lhsBatch := []
  rhsBatch := []
  wf := dot_S8x1024x192_S192x192_S8x1024x192_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x16_S8x12x1024x16_S8x12x1024x1024_3_3_2_2_01_01 : DotDims S8x12x1024x16 S8x12x1024x16 S8x12x1024x1024 where
  lhsContracting := [3]
  rhsContracting := [3]
  lhsNonContracting := [2]
  rhsNonContracting := [2]
  lhsBatch := [0, 1]
  rhsBatch := [0, 1]
  wf := dot_S8x12x1024x16_S8x12x1024x16_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x12x1024x1024_S8x12x1024x16_S8x12x1024x16_3_2_2_3_01_01 : DotDims S8x12x1024x1024 S8x12x1024x16 S8x12x1024x16 where
  lhsContracting := [3]
  rhsContracting := [2]
  lhsNonContracting := [2]
  rhsNonContracting := [3]
  lhsBatch := [0, 1]
  rhsBatch := [0, 1]
  wf := dot_S8x12x1024x1024_S8x12x1024x16_S8x12x1024x16_3_2_2_3_01_01_wf

class Facts : Prop extends Facts₀ where

variable [Facts]
-- ==== Proof.RefFrame.lean ====
/-
  The reference program has no kernel launch: its run is a straight line of host operations, and every weakly
  fair execution of it terminates with each result at the operations' composed term of the arguments while the
  argument arrays stay as launched. Dropping the results from that statement leaves the reference's frame.
-/
import proofs.«153588_j55336358642313_2_alg».proof.Defs
import proofs.«153588_j55336358642313_2_alg».proof.Proof.Gen.ReferenceIdeal.Run
import proofs.«153588_j55336358642313_2_alg».proof.Proof.Gen.ReferenceIdeal.Read

noncomputable section

open Idealize.ShloMosaic Idealize.ShloMosaic.TcCoe Idealize.SL.Sem

namespace Cert.Proof.RefFrame

/-- The reference runs to the end, faults nowhere and leaves its fourteen argument arrays unchanged: its generated
    run with the two results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.Kernel.Lin0.lean ====
import proofs.«153588_j55336358642313_2_alg».proof.Proof.Gen.Kernel.Launch
import proofs.«153588_j55336358642313_2_alg».proof.Proof.Gen.Kernel.Skeleton
import proofs.«153588_j55336358642313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The linear projection of region 0: what one grid point does to its staging buffers

Region 0 computes `o = x · wᵀ + b` for `x : [8192, 768]`, `w : [2304, 768]`, `b : [1, 2304]` in eight
row blocks of 1024 rows.  At grid point `t` the body sees four staging buffers: rows `1024·t … 1024·t+1023`
of `x`, the whole of `w`, the whole of `b`, and the output block of the same rows.  It reads the three
inputs whole, reads the output buffer once without using the value, and overwrites the whole output block
with one store of the payload `k0_pay1` of the three values read.

This file states that as the pipeline's proof data: every input buffer holds its block of the array as the
region found it (the weight and the bias are moved in only once, but their block index never changes, so
the buffer still holds the block at every later point), and the output buffer after the body is the single
store's payload, which covers the block.  The arrays' contents at region entry are a parameter `V`.
-/

-- membership in a rectangle of these extents is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not the block was moved
    in at that point, for any proof data whose array is `V`'s and whose body leaves the block in place: where
    nothing was moved in, the block index is the previous point's, and so is the buffer. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S1024x768 := Rect.unit (s := S1024x768) ![0, 0] S1024x768.size inb_S1024x768_S1024x768_0_0
abbrev rw0 : Rect S2304x768 := Rect.unit (s := S2304x768) ![0, 0] S2304x768.size inb_S2304x768_S2304x768_0_0
abbrev rb0 : Rect S1x2304 := Rect.unit (s := S1x2304) ![0, 0] S1x2304.size inb_S1x2304_S1x2304_0_0
abbrev ro0 : Rect S1024x2304 := Rect.unit (s := S1024x2304) ![0, 0] S1024x2304.size inb_S1024x2304_S1024x2304_0_0

/-! ## What the body leaves in the output window's buffer -/

/-- The output buffer after the body, from the three input blocks: its one store, of the payload of the three
    whole loads, over the whole block. -/
def out0_3 (x0 : Vec F S1024x768 .f32) (x1 : Vec F S2304x768 .f32) (x2 : Vec F S1x2304 .f32) : Vec F S1024x2304 .bf16 :=
  View.canon [⟨ro0, k0_pay1 (View.ld x0 rx0) (View.ld x1 rw0) (View.ld x2 rb0)⟩]

/-- The one store is over the whole block, so it covers it. -/
theorem cover0_3 (p0 : Vec F S1024x2304 .bf16) (y : S1024x2304.Idx) :
    ∃ pc ∈ ([⟨ro0, p0⟩] : List (View.Piece (Elt F) S1024x2304 .bf16)), y ∈ pc.1.set :=
  View.cover_of_tiled [⟨ro0, p0⟩] S1024x2304.size (by rfl) y

/-! ## The body's triple -/

set_option maxHeartbeats 1000000 in
/-- The kernel body on whole staging memrefs, the three inputs' at read contents `x0`, `x1`, `x2` and the output's
    at anything, runs to the continuation holding the inputs' as they were and the output's at `out0_3` of them:
    three whole loads, a load of the output whose value is dropped, and the one store over the whole block. -/
theorem sound_kernel0 (c : Dev nD) (E : Set ℕ) (i : grid0.Coords)
    (arg1 : Memref sig .tc .vmem S1024x768 .f32) (harg1 : arg1.IsWhole) (arg2 : Memref sig .tc .vmem S2304x768 .f32) (harg2 : arg2.IsWhole)
    (arg3 : Memref sig .tc .vmem S1x2304 .f32) (harg3 : arg3.IsWhole) (arg4 : Memref sig .tc .vmem S1024x2304 .bf16) (harg4 : arg4.IsWhole)
    (x0 : Vec F S1024x768 .f32) (x1 : Vec F S2304x768 .f32) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer still at its block and the output's at `out0_3` of the three input blocks; the
    invariant is the rest of the core's memory, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Lin1.lean ====
import proofs.«153588_j55336358642313_2_alg».proof.Proof.Gen.Kernel.Launch
import proofs.«153588_j55336358642313_2_alg».proof.Proof.Gen.Kernel.Skeleton
import proofs.«153588_j55336358642313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The linear projection of region 1: what one grid point does to its staging buffers

Region 1 computes `o = x · wᵀ + b` for `x : [8192, 192]`, `w : [576, 192]`, `b : [1, 576]` in eight
row blocks of 1024 rows.  At grid point `t` the body sees four staging buffers: rows `1024·t … 1024·t+1023`
of `x`, the whole of `w`, the whole of `b`, and the output block of the same rows.  It reads the three
inputs whole, reads the output buffer once without using the value, and overwrites the whole output block
with one store of the payload `k1_pay1` of the three values read.

This file states that as the pipeline's proof data: every input buffer holds its block of the array as the
region found it (the weight and the bias are moved in only once, but their block index never changes, so
the buffer still holds the block at every later point), and the output buffer after the body is the single
store's payload, which covers the block.  The arrays' contents at region entry are a parameter `V`.
-/

-- membership in a rectangle of these extents is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the block was moved
    in at that point, for any proof data whose array is `V`'s and whose body leaves the block in place: where
    nothing was moved in, the block index is the previous point's, and so is the buffer. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rx1 : Rect S1024x192 := Rect.unit (s := S1024x192) ![0, 0] S1024x192.size inb_S1024x192_S1024x192_0_0
abbrev rw1 : Rect S576x192 := Rect.unit (s := S576x192) ![0, 0] S576x192.size inb_S576x192_S576x192_0_0
abbrev rb1 : Rect S1x576 := Rect.unit (s := S1x576) ![0, 0] S1x576.size inb_S1x576_S1x576_0_0
abbrev ro1 : Rect S1024x576 := Rect.unit (s := S1024x576) ![0, 0] S1024x576.size inb_S1024x576_S1024x576_0_0

/-! ## What the body leaves in the output window's buffer -/

/-- The output buffer after the body, from the three input blocks: its one store, of the payload of the three
    whole loads, over the whole block. -/
def out1_3 (x0 : Vec F S1024x192 .f32) (x1 : Vec F S576x192 .f32) (x2 : Vec F S1x576 .f32) : Vec F S1024x576 .bf16 :=
  View.canon [⟨ro1, k1_pay1 (View.ld x0 rx1) (View.ld x1 rw1) (View.ld x2 rb1)⟩]

/-- The one store is over the whole block, so it covers it. -/
theorem cover1_3 (p0 : Vec F S1024x576 .bf16) (y : S1024x576.Idx) :
    ∃ pc ∈ ([⟨ro1, p0⟩] : List (View.Piece (Elt F) S1024x576 .bf16)), y ∈ pc.1.set :=
  View.cover_of_tiled [⟨ro1, p0⟩] S1024x576.size (by rfl) y

/-! ## The body's triple -/

set_option maxHeartbeats 1000000 in
/-- The kernel body on whole staging memrefs, the three inputs' at read contents `x0`, `x1`, `x2` and the output's
    at anything, runs to the continuation holding the inputs' as they were and the output's at `out1_3` of them:
    three whole loads, a load of the output whose value is dropped, and the one store over the whole block. -/
theorem sound_kernel1 (c : Dev nD) (E : Set ℕ) (i : grid1.Coords)
    (arg1 : Memref sig .tc .vmem S1024x192 .f32) (harg1 : arg1.IsWhole) (arg2 : Memref sig .tc .vmem S576x192 .f32) (harg2 : arg2.IsWhole)
    (arg3 : Memref sig .tc .vmem S1x576 .f32) (harg3 : arg3.IsWhole) (arg4 : Memref sig .tc .vmem S1024x576 .bf16) (harg4 : arg4.IsWhole)
    (x0 : Vec F S1024x192 .f32) (x1 : Vec F S576x192 .f32) (x2 : Vec F S1x576 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer still at its block and the output's at `out1_3` of the three input blocks; the
    invariant is the rest of the core's memory, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.AttnBody.lean ====
/-
  The attention region's body, as a function of what it is handed.

  One grid point (n, hp) is one batch entry n and one PAIR of adjacent heads 2·hp, 2·hp+1. The body is handed six
  blocks: the pair's 128 query, key and value columns of the projected text stream (each [1,1024,128]), the whole
  projected layout row block [1,1024,576] of the batch entry (its three sections of 192 columns are the layout
  queries, keys and values), and the two output blocks: the pair's 128 context columns [1,1024,128] and the batch
  entry's whole layout-context block [1,1024,192].

  For each head of the pair it takes that head's 64 text columns and 16 layout columns, forms the combined scores,
  the softmax weights and the two weighted sums, and stores the 64 context columns into its half of the context
  block and the 16 layout-context columns at column 32·hp + 16·j of the layout-context block.

  So the context block is overwritten whole at every point (two stores of 64 columns tile its 128), while the
  layout-context block is only PARTLY overwritten: 32 of its 192 columns per point, the other 160 left as handed.
  What the body leaves there is therefore stated as a relation between what it was handed and what it leaves:
  equal outside the two stored rectangles, the stored values inside.
-/
import proofs.«153588_j55336358642313_2_alg».proof.Proof.Gen.Kernel.Launch
import proofs.«153588_j55336358642313_2_alg».proof.Proof.Gen.Kernel.Skeleton
import proofs.«153588_j55336358642313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-! ## The rectangles the body reads and writes through -/

/-- The pair's layout-query columns, 32·hp … 32·hp+31 of the layout block; -/
abbrev rLq (i : grid2.Coords) : Rect S1x1024x576 := Rect.unit (s := S1x1024x576) (k2_off1 i) S1x1024x32.size (k2_off1_inb i)
/-- its layout-key columns, 192 further; -/
abbrev rLk (i : grid2.Coords) : Rect S1x1024x576 := Rect.unit (s := S1x1024x576) (k2_off2 i 192#32) S1x1024x32.size (k2_off2_inb i 0)
/-- its layout-value columns, 384 further. -/
abbrev rLv (i : grid2.Coords) : Rect S1x1024x576 := Rect.unit (s := S1x1024x576) (k2_off2 i 384#32) S1x1024x32.size (k2_off2_inb i 1)
/-- The first head's 64 columns of a 128-column block, -/
abbrev rH0 : Rect S1x1024x128 := Rect.unit (s := S1x1024x128) ![0, 0, 0] S1x1024x64.size inb_S1x1024x128_S1x1024x64_0_0_0
/-- and the second head's. -/
abbrev rH1 : Rect S1x1024x128 := Rect.unit (s := S1x1024x128) ![0, 0, 64] S1x1024x64.size inb_S1x1024x128_S1x1024x64_0_0_64
/-- The first head's 16 layout-context columns, at column 32·hp, -/
abbrev rO0 (i : grid2.Coords) : Rect S1x1024x192 := Rect.unit (s := S1x1024x192) (k2_off3 i 0#32) S1x1024x16.size (k2_off3_inb i 0)
/-- and the second head's, at column 32·hp + 16. -/
abbrev rO1 (i : grid2.Coords) : Rect S1x1024x192 := Rect.unit (s := S1x1024x192) (k2_off3 i 16#32) S1x1024x16.size (k2_off3_inb i 1)

/-! ## What the body computes, from the blocks it is handed -/

section Payloads

variable (i : grid2.Coords) (yq yk yv : Vec F S1x1024x128 .bf16) (yl : Vec F S1x1024x576 .bf16)

/-- The first head's unnormalised softmax weights exp(s − max s), -/
def wts0 : FVec F S1024x1024 .f32 := k2_pay9 (View.ld yl (rLq i)) (View.ld yl (rLk i)) (View.ld yq rH0) (View.ld yk rH0)
/-- and their row sums. -/
def den0 : FVec F S1024 .f32 := k2_pay10 (View.ld yl (rLq i)) (View.ld yl (rLk i)) (View.ld yq rH0) (View.ld yk rH0)
/-- The second head's unnormalised softmax weights (its row sums are taken where the weights are used). -/
def wts1 : FVec F S1024x1024 .f32 := k2_pay16 (k2_pay4 (View.ld yl (rLq i))) (k2_pay5 (View.ld yl (rLk i))) (View.ld yq rH1) (View.ld yk rH1)
/-- The first head's 64 context columns, -/
def ctx0 : FVec F S1x1024x64 .f32 := k2_pay12 (k2_pay7 (View.ld yv rH0)) (wts0 i yq yk yl) (den0 i yq yk yl)
/-- the second head's, -/
def ctx1 : FVec F S1x1024x64 .f32 := k2_pay2 (k2_pay14 (View.ld yv rH1)) (wts1 i yq yk yl)
/-- the first head's 16 layout-context columns, -/
def lctx0 : FVec F S1x1024x16 .f32 := k2_pay13 (k2_pay8 (View.ld yl (rLv i))) (wts0 i yq yk yl) (den0 i yq yk yl)
/-- and the second head's. -/
def lctx1 : FVec F S1x1024x16 .f32 := k2_pay3 (k2_pay15 (k2_pay6 (View.ld yl (rLv i)))) (wts1 i yq yk yl)

/-- The context block after the body: its two stores, the later first. They tile the block, so nothing of what the
    block held before is left. -/
def ctxOut : Vec F S1x1024x128 .f32 :=
  View.canon [⟨rH1, ctx1 i yq yk yv yl⟩, ⟨rH0, ctx0 i yq yk yv yl⟩]

/-- The layout-context block after the body (`X`) against what the body was handed there (`Y`): the two heads'
    columns hold what was stored, every other column is as handed. -/
structure LctxRel (Y X : Vec F S1x1024x192 .f32) : Prop where
  outside : ∀ y : S1x1024x192.Idx, y ∉ (rO1 i).set → y ∉ (rO0 i).set → X y = Y y
  head0 : ∀ x, X ((rO0 i).emb x) = lctx0 i yq yk yl x
  head1 : ∀ x, X ((rO1 i).emb x) = lctx1 i yq yk yl x

end Payloads

/-- The two stores of 64 columns cover the 128-column context block. -/
theorem cover_ctx (p1 p0 : Vec F S1x1024x64 .f32) (y : S1x1024x128.Idx) :
    ∃ pc ∈ ([⟨rH1, p1⟩, ⟨rH0, p0⟩] : List (View.Piece (Elt F) S1x1024x128 .f32)), y ∈ pc.1.set :=
  View.cover_of_tiled [⟨rH1, p1⟩, ⟨rH0, p0⟩] S1x1024x64.size (by rfl) y

/-- A column of the first head's 16 is none of the second head's: they start 16 columns apart. -/
theorem rO0_emb_not_mem (i : grid2.Coords) (x : (rO0 i).shape.Idx) :
    ((rO0 i).emb x (2 : Fin 3)).val < (![0, 0, 32 * (i 1).val + 16 * 1] : Fin 3 → ℕ) (2 : Fin 3) := by
  have hx : (x (2 : Fin 3)).val < 16 := (x (2 : Fin 3)).isLt
  have e : (k2_off3 i 0#32) (2 : Fin 3) = 32 * (i 1).val + 16 * 0 := congrFun (k2_off3_eq i ⟨0, by decide⟩) 2
  show (k2_off3 i 0#32) (2 : Fin 3) + 1 * (x (2 : Fin 3)).val < 32 * (i 1).val + 16 * 1
  omega

/-! ## The body's triple -/

set_option maxHeartbeats 2000000 in
/-- The kernel body on whole staging memrefs, handed the four input blocks and anything in the two output blocks,
    runs to the continuation with the inputs as handed, the context block at its closed form and the layout-context
    block in the relation above to what was handed. -/
theorem sound_kernel2 (c : Dev nD) (E : Set ℕ) (i : grid2.Coords)
    (arg2 : Memref sig .tc .vmem S1x1024x128 .bf16) (harg2 : arg2.IsWhole) (arg3 : Memref sig .tc .vmem S1x1024x128 .bf16) (harg3 : arg3.IsWhole)
    (arg4 : Memref sig .tc .vmem S1x1024x128 .bf16) (harg4 : arg4.IsWhole) (arg5 : Memref sig .tc .vmem S1x1024x576 .bf16) (harg5 : arg5.IsWhole)
    (arg6 : Memref sig .tc .vmem S1x1024x128 .f32) (harg6 : arg6.IsWhole) (arg7 : Memref sig .tc .vmem S1x1024x192 .f32) (harg7 : arg7.IsWhole)
    (yq yk yv : Vec F S1x1024x128 .bf16) (yl : Vec F S1x1024x576 .bf16) (yc : Vec F S1x1024x128 .f32) (yo : Vec F S1x1024x192 .f32)
    (K : PUnit → sProp 𝕄) :
    iprop(owns (c : Thread nD τ) arg2 fullShare yq ∗ owns (c : Thread nD τ) arg3 fullShare yk ∗ owns (c : Thread nD τ) arg4 fullShare yv
        ∗ owns (c : Thread nD τ) arg5 fullShare yl ∗ owns (c : Thread nD τ) arg6 fullShare yc ∗ owns (c : Thread nD τ) arg7 fullShare yo
        ∗ (iprop(owns (c : Thread nD τ) arg2 fullShare yq ∗ owns (c : Thread nD τ) arg3 fullShare yk ∗ owns (c : Thread nD τ) arg4 fullShare yv
            ∗ owns (c : Thread nD τ) arg5 fullShare yl ∗ owns (c : Thread nD τ) arg6 fullShare (ctxOut i yq yk yv yl)
            ∗ ∃ X, ⌜LctxRel i yq yk yl yo X⌝ ∗ owns (c : Thread nD τ) arg7 fullShare X) -∗ K ⟨⟩))
      ⊢ wp frame (wpE (defs₀ (F := F)) Variants.none c none) E (cc2__attn_kernel i arg2 harg2 arg3 harg3 arg4 harg4 arg5 harg5 arg6 harg6 arg7 harg7) K := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_ctx _ _)
  iexists (arg7.view.read (Elt F) (arg7.view.writes (Elt F) f5
    [⟨rO1 i, lctx1 i (arg2.view.read (Elt F) f0) (arg3.view.read (Elt F) f1) (arg5.view.read (Elt F) f3)⟩,
     ⟨rO0 i, lctx0 i (arg2.view.read (Elt F) f0) (arg3.view.read (Elt F) f1) (arg5.view.read (Elt F) f3)⟩]))
  isplitr
  · ipureintro
    refine ⟨fun y h1 h0 => ?_, fun x => ?_, fun x => ?_⟩
    · exact View.read_writes_apply_of_forall_not_mem _ _ y _ (fun p hp => by
        rcases List.mem_cons.mp hp with rfl | hp
        · exact h1
        · rcases List.mem_cons.mp hp with rfl | hp
          · exact h0
          · exact absurd hp List.not_mem_nil)
    · refine (View.read_writes_cons_unit_of_not_mem (off := k2_off3 i 16#32) (off' := ![0, 0, 32 * (i 1).val + 16 * 1])
        arg7.view f5 (k2_off3_inb i 1) _ _ ((rO0 i).emb x) (k2_off3_eq i ⟨1, by decide⟩) (2 : Fin 3)
        (Or.inl (rO0_emb_not_mem i x))).trans ?_
      exact View.read_writes_cons_emb _ _ _ _ _ x
    · exact View.read_writes_cons_emb _ _ _ _ _ x
  · iexists _; isplitr
    · ipureintro; rfl
    · iexact H5

end Cert.Kernel.Hand

end
-- ==== Proof.Kernel.AttnData.lean ====
/-
  The attention region's proof data and its body obligation.

  The region's six windows: 0, 1, 2 stage the pair's query, key and value columns — three blocks of ONE array, the
  projected text stream, so each of the three holds a third of that array's share —, 3 stages the batch entry's
  projected layout block (fetched when the batch entry changes, every sixth point, and left in place meanwhile),
  4 is the context output (written back at every point) and 5 the layout-context output, whose block is the same
  for the six points of a batch entry and is written back only after the sixth.

  What the body leaves in each window's buffer is stated as a relation to what it was handed: the four inputs are
  left as found; the context block is its closed form over the four input blocks at the point; the layout-context
  block is as handed outside the pair's 32 columns and holds the two heads' results inside them.
-/
import proofs.«153588_j55336358642313_2_alg».proof.Proof.Gen.Kernel.Launch
import proofs.«153588_j55336358642313_2_alg».proof.Proof.Gen.Kernel.Skeleton
import proofs.«153588_j55336358642313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«153588_j55336358642313_2_alg».proof.Proof.Kernel.AttnBody
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

section Region2

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The share each input window holds of its array: the three windows on the projected text stream a third each (a
    half, and the two halves of the other half), the layout window all of its own array. -/
def q2 : Fin cfg2.W → PosShare TreeShare := fun w => match w with
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The proof data of the attention pipeline on core `c`, relational: the arrays as the region finds them; the inputs
    left as found; the context block at its closed form; the layout-context block changed on the pair's columns only;
    the invariant the scoped rest and the generator register, untouched; nothing owed. -/
def rdat2 (c : Dev nD) : RDat τ (Elt F) Unit ℕ (Pipeline.UD sig nD τ) ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = ctxOut (grid2.coords t) (iblk2 V c 0 t) (iblk2 V c 1 t) (iblk2 V c 2 t) (iblk2 V c 3 t)
    | ⟨5, _⟩ => fun Y X => LctxRel (grid2.coords t) (iblk2 V c 0 t) (iblk2 V c 1 t) (iblk2 V c 3 t) Y X
  Φ _ := Pipeline.ΦA spec2 c
  q := q2
  owed _ := 0

theorem A_eq2 (c : Dev nD) (w : Fin cfg2.W) : (rdat2 V c).A w = V c (Pipeline.arrRef spec2 w) := by
  dsimp only [rdat2]

/-- What the body finds in an input window's buffer is the window's block at the point, fetched there or not: the
    relation leaves the buffer as found, and between two fetches the block index does not move. -/
theorem finds2_0 (c : Dev nD) (t : Fin cfg2.N) (Y) (h : (rdat2 V c).Finds 0 t Y) : Y = iblk2 V c 0 t := by
  obtain ⟨d, rfl⟩ := RDat.finds_in_eq_fetched (rdat2 V c) 0 rfl (fun _ _ _ => rfl) (fun t Y X h => by dsimp only [rdat2] at h; exact h) t Y h
  unfold RDat.fetched RDat.blockOf iblk2; rw [A_eq2]; try rfl
theorem finds2_1 (c : Dev nD) (t : Fin cfg2.N) (Y) (h : (rdat2 V c).Finds 1 t Y) : Y = iblk2 V c 1 t := by
  obtain ⟨d, rfl⟩ := RDat.finds_in_eq_fetched (rdat2 V c) 1 rfl (fun _ _ _ => rfl) (fun t Y X h => by dsimp only [rdat2] at h; exact h) t Y h
  unfold RDat.fetched RDat.blockOf iblk2; rw [A_eq2]; try rfl
theorem finds2_2 (c : Dev nD) (t : Fin cfg2.N) (Y) (h : (rdat2 V c).Finds 2 t Y) : Y = iblk2 V c 2 t := by
  obtain ⟨d, rfl⟩ := RDat.finds_in_eq_fetched (rdat2 V c) 2 rfl (fun _ _ _ => rfl) (fun t Y X h => by dsimp only [rdat2] at h; exact h) t Y h
  unfold RDat.fetched RDat.blockOf iblk2; rw [A_eq2]; try rfl
theorem finds2_3 (c : Dev nD) (t : Fin cfg2.N) (Y) (h : (rdat2 V c).Finds 3 t Y) : Y = iblk2 V c 3 t := by
  obtain ⟨d, rfl⟩ := RDat.finds_in_eq_fetched (rdat2 V c) 3 rfl (fun _ _ _ => rfl) (fun t Y X h => by dsimp only [rdat2] at h; exact h) t Y h
  unfold RDat.fetched RDat.blockOf iblk2; rw [A_eq2]; try rfl

/-- The body at any point, handed any contents the windows' buffers may then hold: the inputs' are their blocks, so the
    body's triple applies; the invariant and the core's dues pass through unread. -/
theorem body_obligation2 (c : Dev nD) : (rdat2 (F := F) V c).BodyObligation (defs₀ (F := F)) Variants.none () Set.univ := fun t Y hY => by
  have e0 := finds2_0 V c t (Y 0) (hY 0)
  have e1 := finds2_1 V c t (Y 1) (hY 1)
  have e2 := finds2_2 V c t (Y 2) (hY 2)
  have e3 := finds2_3 V c t (Y 3) (hY 3)
  rw [bigSep_W2, bigSep_W2]
  show _ ⊢ wp frame (wpE (defs₀ (F := F)) Variants.none c none) Set.univ (bodyAt2 t) _
  rw [show (rdat2 V c).Φ t.succ = (rdat2 V c).Φ t.castSucc from rfl,
    show (rdat2 V c).owesAt () t.succ = (rdat2 V c).owesAt () t.castSucc from rfl]
  iintro ⟨HΦ, Ho, H0, H1, H2, H3, H4, H5⟩
  iapply (sound_kernel2 c Set.univ (grid2.coords t) (st2_0 t) _ (st2_1 t) _ (st2_2 t) _ (st2_3 t) _ (st2_4 t) _ (st2_5 t) _
    (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%X, %hX, H5⟩⟩
  isplitl [HΦ]; · iexact HΦ
  isplitl [Ho]; · iexact Ho
  isplitl [H0]
  · iexists (Y 0); isplitr; · ipureintro; dsimp only [rdat2]
    iexact H0
  isplitl [H1]
  · iexists (Y 1); isplitr; · ipureintro; dsimp only [rdat2]
    iexact H1
  isplitl [H2]
  · iexists (Y 2); isplitr; · ipureintro; dsimp only [rdat2]
    iexact H2
  isplitl [H3]
  · iexists (Y 3); isplitr; · ipureintro; dsimp only [rdat2]
    iexact H3
  isplitl [H4]
  · iexists _; isplitr
    swap; · iexact H4
    ipureintro; dsimp only [rdat2]; rw [e0, e1, e2, e3]
  iexists X; isplitr
  · ipureintro; dsimp only [rdat2]; rw [← e0, ← e1, ← e3]; exact hX
  iexact H5

end Region2

end Cert.Kernel.Hand

end
-- ==== Proof.Kernel.Fold.lean ====
/-
  The program's three kernel regions stand between stretches of host operations. Between two of these items every
  unscoped buffer of a core holds known contents: the launch memory, then what each host stretch computes from what
  it finds (a fold of its operations), then, after each projection region, that region's output array at what its
  write-backs leave and every other buffer as before. This module names those contents, item by item, and states the
  two projection regions as segments entered from one such state and left at the next.

  The two projection regions' proof data name what each point leaves exactly; the attention region's constrain it.
  All three are read as relational data, so that one family serves the run over all three.
-/
import proofs.«153588_j55336358642313_2_alg».proof.Proof.Gen.Kernel.Launch
import proofs.«153588_j55336358642313_2_alg».proof.Proof.Gen.Kernel.Skeleton
import proofs.«153588_j55336358642313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«153588_j55336358642313_2_alg».proof.Proof.Gen.Kernel.Regions
import proofs.«153588_j55336358642313_2_alg».proof.Proof.Kernel.Lin0
import proofs.«153588_j55336358642313_2_alg».proof.Proof.Kernel.Lin1
import proofs.«153588_j55336358642313_2_alg».proof.Proof.Kernel.AttnData
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the first host stretch (the fused weights and biases, the inputs as row blocks). -/
abbrev W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- After the text projection: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the layout bias as a row). -/
abbrev W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- After the layout projection. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the third host stretch (the two projections as [8,1024,·] arrays): what the attention region is entered from. -/
abbrev W5 (c : Dev nD) : Valuation τ sig (Elt F) := StableHlo.after hostOps2 (W4 m ρ c)
abbrev V5 : (c : Dev nD) → (b : Ref sig .tc) → Buf (Elt F) ((c : Thread nD τ).loc b) := fun c b => W5 m ρ c b

/-! ## The proof data families -/

/-- No pipeline has a prefetched table. -/
abbrev adm : (p : Fin 3) → (pcfgs (F := F) p).Adm := fun p => (cfgs p).toPCfg_adm

/-- The attention pipeline's arrays and invariant under exact proof data that names nothing of what its body leaves:
    only a place-holder, so that the two projection pipelines' exact data sit in a family over all three pipelines. -/
def datPlace2 (c : Dev nD) : Dat τ (Elt F) Unit ℕ (Pipeline.UD sig nD τ) ℕ cfg2 c where
  A w := V5 m ρ c (Pipeline.arrRef spec2 w)
  after w t := Dat.unnamed (cfg := cfg2) w t
  Φ _ := Pipeline.ΦA spec2 c
  q := q2
  owed _ := 0

/-- The exact family (the third entry the place-holder). -/
def pdatsD : (p : Fin 3) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => datPlace2 m ρ c

/-- Every pipeline's proof data as relational data, each at its region's entry contents. -/
def rdats : (p : Fin 3) → (c : Dev nD) → RDat τ (Elt F) Unit ℕ (Pipeline.UD sig nD τ) ℕ (Pipeline.pin (pcfgs (F := F)) adm p) c
  | ⟨0, _⟩ => fun c => (dat0 (V1 m ρ) c).toR
  | ⟨1, _⟩ => fun c => (dat1 (V3 m ρ) c).toR
  | ⟨2, _⟩ => fun c => rdat2 (V5 m ρ) c

abbrev 𝒱₀ : Variants := Variants.none
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The projection regions as segments -/

set_option backward.isDefEq.respectTransparency.types false in
/-- The text projection: entered from every unscoped buffer at `W1`, left at `W2`. Its arrays split out of the unscoped
    buffers and put back at the exit contents; the generator register into the invariant and out; nothing owed. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((rdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdatsD m ρ) ((pdatsD m ρ 0 c).share_full fun _ => rfl)
      (V1 m ρ c) (V2 m ρ c) ((pdatsD m ρ 0 c).arrAt · cfg0.N) (hF0 m ρ c) (hrest0 m ρ c)
    rw [Pipeline.unscopedBufs_held] at hjoin
    rw [show (rdats m ρ 0 c).arraysAt (Pipeline.pin (pcfgs (F := F)) adm 0).N
        = ((pdatsD m ρ 0 c).arrays ((pdatsD m ρ 0 c).arrAt · cfg0.N) : sProp 𝕄) from (dat0 (V1 m ρ) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The layout projection: entered from every unscoped buffer at `W3`, left at `W4`. Its arrays split out of the unscoped
    buffers and put back at the exit contents; the generator register into the invariant and out; nothing owed. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toR
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((rdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdatsD m ρ) ((pdatsD m ρ 1 c).share_full fun _ => rfl)
      (V3 m ρ c) (V4 m ρ c) ((pdatsD m ρ 1 c).arrAt · cfg1.N) (hF1 m ρ c) (hrest1 m ρ c)
    rw [Pipeline.unscopedBufs_held] at hjoin
    rw [show (rdats m ρ 1 c).arraysAt (Pipeline.pin (pcfgs (F := F)) adm 1).N
        = ((pdatsD m ρ 1 c).arrays ((pdatsD m ρ 1 c).arrAt · cfg1.N) : sProp 𝕄) from (dat1 (V3 m ρ) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.Kernel.Hand

end
-- ==== Proof.Kernel.Run.lean ====
/-
  The attention region as a segment, and the run over all three regions.

  The attention region's four array buffers are the projected text stream (read through three windows: a third of
  its share each), the projected layout stream, and the two results. On entry the text stream's buffer is split three
  ways; on exit the thirds are joined again (an input array is never written), and each result buffer holds SOME
  contents its write-backs may have left: contents in the relation the proof data state, point after point.

  The run: the six items of the program in order, every unscoped buffer followed through them; at the end every
  unscoped buffer is read off the last contents, the two results at such contents.
-/
import proofs.«153588_j55336358642313_2_alg».proof.Proof.Gen.Kernel.Launch
import proofs.«153588_j55336358642313_2_alg».proof.Proof.Gen.Kernel.Skeleton
import proofs.«153588_j55336358642313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«153588_j55336358642313_2_alg».proof.Proof.Kernel.Fold
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The attention region's arrays in and out of the unscoped buffers -/

section Arrays

variable (V : (c : Dev nD) → (b : Ref sig .tc) → Buf (Elt F) ((c : Thread nD τ).loc b))

theorem set2_univ (w : Fin cfg2.W) : (cfg2.win w).arr.view.set = Finset.univ := (arr_whole2 w).set_eq_univ

/-- ENTRY: the four distinct buffers behind the six windows, each whole at the full share, are the windows' arrays at
    their shares: the text stream's buffer split in three. -/
theorem arrays2_entry (c : Dev nD) :
    (Pipeline.arrBufs (Ix := Unit) (Name := ℕ) (U := Pipeline.UD sig nD τ) (Lvl := ℕ) spec2 c (V c) : sProp 𝕄)
      ⊢ (rdat2 V c).arrays (rdat2 V c).A := by
  unfold RDat.arrays Pipeline.arrBufs
  rw [bigSep_W2, bigSep_eq_bigSepL_of_eq [main_v10, main_v11, main_v12_0, main_v12_1] (by decide) (by decide)]
  rw [set2_univ 0, set2_univ 3, set2_univ 4, set2_univ 5]
  show (iprop(((c : Thread nD τ).loc main_v10 ↦{fullShare} V c main_v10) ∗ ((c : Thread nD τ).loc main_v11 ↦{fullShare} V c main_v11)
        ∗ ((c : Thread nD τ).loc main_v12_0 ↦{fullShare} V c main_v12_0) ∗ ((c : Thread nD τ).loc main_v12_1 ↦{fullShare} V c main_v12_1)) : sProp 𝕄)
      ⊢ iprop(((c : Thread nD τ).loc main_v10 ↦{fullShare.left} V c main_v10) ∗ ((c : Thread nD τ).loc main_v10 ↦{fullShare.right.left} V c main_v10)
        ∗ ((c : Thread nD τ).loc main_v10 ↦{fullShare.right.right} V c main_v10) ∗ ((c : Thread nD τ).loc main_v11 ↦{fullShare} V c main_v11)
        ∗ ((c : Thread nD τ).loc main_v12_0 ↦{fullShare} V c main_v12_0) ∗ ((c : Thread nD τ).loc main_v12_1 ↦{fullShare} V c main_v12_1))
  iintro ⟨H10, H11, H120, H121⟩
  ihave H := (pointsTo_share (PosShare.mem_left_op_right fullShare)).1 $$ H10
  icases H with ⟨Ha, Hbc⟩
  ihave H := (pointsTo_share (PosShare.mem_left_op_right fullShare.right)).1 $$ Hbc
  icases H with ⟨Hb, Hc⟩
  isplitl [Ha]; · iexact Ha
  isplitl [Hb]; · iexact Hb
  isplitl [Hc]; · iexact Hc
  isplitl [H11]; · iexact H11
  isplitl [H120]; · iexact H120
  iexact H121

set_option maxHeartbeats 1000000 in
/-- EXIT: the windows' arrays after every write-back are the two input buffers whole as entered and the two result
    buffers whole at some contents the write-backs may have left. -/
theorem arrays2_exit (c : Dev nD) :
    ((rdat2 V c).arraysAt cfg2.N : sProp 𝕄) ⊢ iprop(∃ (F4 : Buf (Elt F) ((c : Thread nD τ).loc main_v12_0)) (F5 : Buf (Elt F) ((c : Thread nD τ).loc main_v12_1)),
        ⌜(rdat2 V c).ArrAt 4 cfg2.N F4 ∧ (rdat2 V c).ArrAt 5 cfg2.N F5⌝
        ∗ ((c : Thread nD τ).loc main_v10 ↦{fullShare} V c main_v10) ∗ ((c : Thread nD τ).loc main_v11 ↦{fullShare} V c main_v11)
        ∗ ((c : Thread nD τ).loc main_v12_0 ↦{fullShare} F4) ∗ ((c : Thread nD τ).loc main_v12_1 ↦{fullShare} F5)) := by
  unfold RDat.arraysAt
  rw [bigSep_W2]
  rw [set2_univ 0, set2_univ 3, set2_univ 4, set2_univ 5]
  show (iprop((∃ F : Buf (Elt F) ((c : Thread nD τ).loc main_v10), ⌜(rdat2 V c).ArrAt 0 cfg2.N F⌝ ∗ (c : Thread nD τ).loc main_v10 ↦{fullShare.left} F)
        ∗ (∃ F : Buf (Elt F) ((c : Thread nD τ).loc main_v10), ⌜(rdat2 V c).ArrAt 1 cfg2.N F⌝ ∗ (c : Thread nD τ).loc main_v10 ↦{fullShare.right.left} F)
        ∗ (∃ F : Buf (Elt F) ((c : Thread nD τ).loc main_v10), ⌜(rdat2 V c).ArrAt 2 cfg2.N F⌝ ∗ (c : Thread nD τ).loc main_v10 ↦{fullShare.right.right} F)
        ∗ (∃ F : Buf (Elt F) ((c : Thread nD τ).loc main_v11), ⌜(rdat2 V c).ArrAt 3 cfg2.N F⌝ ∗ (c : Thread nD τ).loc main_v11 ↦{fullShare} F)
        ∗ (∃ F : Buf (Elt F) ((c : Thread nD τ).loc main_v12_0), ⌜(rdat2 V c).ArrAt 4 cfg2.N F⌝ ∗ (c : Thread nD τ).loc main_v12_0 ↦{fullShare} F)
        ∗ (∃ F : Buf (Elt F) ((c : Thread nD τ).loc main_v12_1), ⌜(rdat2 V c).ArrAt 5 cfg2.N F⌝ ∗ (c : Thread nD τ).loc main_v12_1 ↦{fullShare} F)) : sProp 𝕄) ⊢ _
  iintro ⟨⟨%F0, %h0, P0⟩, ⟨%F1, %h1, P1⟩, ⟨%F2, %h2, P2⟩, ⟨%F3, %h3, P3⟩, ⟨%F4, %h4, P4⟩, ⟨%F5, %h5, P5⟩⟩
  have e0 : F0 = V c main_v10 := by rw [RDat.ArrAt_in (rdat2 V c) 0 rfl] at h0; exact h0.trans (A_eq2 V c 0)
  have e1 : F1 = V c main_v10 := by rw [RDat.ArrAt_in (rdat2 V c) 1 rfl] at h1; exact h1.trans (A_eq2 V c 1)
  have e2 : F2 = V c main_v10 := by rw [RDat.ArrAt_in (rdat2 V c) 2 rfl] at h2; exact h2.trans (A_eq2 V c 2)
  have e3 : F3 = V c main_v11 := by rw [RDat.ArrAt_in (rdat2 V c) 3 rfl] at h3; exact h3.trans (A_eq2 V c 3)
  subst e0 e1 e2 e3
  iexists F4, F5
  isplitr; · ipureintro; exact ⟨h4, h5⟩
  ihave H12 := (pointsTo_share (ℓ := (c : Thread nD τ).loc main_v10) (f := V c main_v10) (PosShare.mem_left_op_right fullShare.right)).2 $$ [P1 P2]
  · isplitl [P1]; · iexact P1
    iexact P2
  ihave H := (pointsTo_share (ℓ := (c : Thread nD τ).loc main_v10) (f := V c main_v10) (PosShare.mem_left_op_right fullShare)).2 $$ [P0 H12]
  · isplitl [P0]; · iexact P0
    iexact H12
  isplitl [H]; · iexact H
  isplitl [P3]; · iexact P3
  isplitl [P4]; · iexact P4
  iexact P5

end Arrays

/-! ## The last contents, and the attention region's buffers back among the unscoped ones -/

section Last

/-- The contents after the attention region: as it found them, the two results at `F4`, `F5`. -/
def W6 (c : Dev nD) (F4 : Buf (Elt F) ((c : Thread nD τ).loc main_v12_0)) (F5 : Buf (Elt F) ((c : Thread nD τ).loc main_v12_1)) :
    Valuation τ sig (Elt F) :=
  Function.update (Function.update (W5 m ρ c) (Proc.devRef .tc main_v12_0) F4) (Proc.devRef .tc main_v12_1) F5

theorem W6_v12_1 (c : Dev nD) (F4 F5) : W6 m ρ c F4 F5 (Proc.devRef .tc main_v12_1) = F5 := Function.update_self ..
theorem W6_v12_0 (c : Dev nD) (F4 F5) : W6 m ρ c F4 F5 (Proc.devRef .tc main_v12_0) = F4 := by
  unfold W6; rw [Function.update_of_ne (by decide), Function.update_self]
theorem W6_of_ne (c : Dev nD) (F4 F5) (b : Ref sig .tc) (h0 : b ≠ main_v12_0) (h1 : b ≠ main_v12_1) :
    W6 m ρ c F4 F5 (Proc.devRef .tc b) = W5 m ρ c (Proc.devRef .tc b) := by
  unfold W6
  rw [Function.update_of_ne (StableHlo.devRef_ne_of_ne h1), Function.update_of_ne (StableHlo.devRef_ne_of_ne h0)]

/-- The attention region's four buffers, the inputs as entered and the results at `F4`, `F5`, beside every other
    unscoped buffer as entered, are all the unscoped buffers at the last contents. -/
theorem held6 (c : Dev nD) (F4 : Buf (Elt F) ((c : Thread nD τ).loc main_v12_0)) (F5 : Buf (Elt F) ((c : Thread nD τ).loc main_v12_1)) :
    (iprop(((c : Thread nD τ).loc main_v10 ↦{fullShare} V5 m ρ c main_v10) ∗ ((c : Thread nD τ).loc main_v11 ↦{fullShare} V5 m ρ c main_v11)
        ∗ ((c : Thread nD τ).loc main_v12_0 ↦{fullShare} F4) ∗ ((c : Thread nD τ).loc main_v12_1 ↦{fullShare} F5)
        ∗ Pipeline.unscopedRest (Ix := Unit) (Name := ℕ) (U := Pipeline.UD sig nD τ) (Lvl := ℕ) spec2 c (V5 m ρ c)) : sProp 𝕄)
      ⊢ StableHlo.held (c : Thread nD τ) (Pipeline.ucRefs τ sig) (W6 m ρ c F4 F5) := by
  rw [← Pipeline.unscopedBufs_held c (W6 m ρ c F4 F5),
    Pipeline.unscopedBufs_split₀ (Val := Elt F) (Ix := Unit) (Name := ℕ) (U := Pipeline.UD sig nD τ) (Lvl := ℕ) cfgs (2 : Fin 3) winFacts₀2.arr_unscoped c _]
  unfold Pipeline.arrBufs
  rw [bigSep_eq_bigSepL_of_eq [main_v10, main_v11, main_v12_0, main_v12_1] (by decide) (by decide)]
  have hrest : (Pipeline.unscopedRest (Ix := Unit) (Name := ℕ) (U := Pipeline.UD sig nD τ) (Lvl := ℕ) spec2 c (fun b => W6 m ρ c F4 F5 (Proc.devRef .tc b)) : sProp 𝕄)
      = Pipeline.unscopedRest spec2 c (V5 m ρ c) := by
    unfold Pipeline.unscopedRest
    exact bigSep_congr fun b hb => by
      have hb' := (Finset.mem_sdiff.mp hb).2
      beta_reduce
      rw [W6_of_ne m ρ c F4 F5 b
        (fun e => hb' (Finset.mem_image.mpr ⟨(4 : Fin 6), Finset.mem_univ _, e.symm⟩))
        (fun e => hb' (Finset.mem_image.mpr ⟨(5 : Fin 6), Finset.mem_univ _, e.symm⟩))]
  show _ ⊢ iprop((((c : Thread nD τ).loc main_v10 ↦{fullShare} W6 m ρ c F4 F5 (Proc.devRef .tc main_v10))
      ∗ ((c : Thread nD τ).loc main_v11 ↦{fullShare} W6 m ρ c F4 F5 (Proc.devRef .tc main_v11))
      ∗ ((c : Thread nD τ).loc main_v12_0 ↦{fullShare} W6 m ρ c F4 F5 (Proc.devRef .tc main_v12_0))
      ∗ ((c : Thread nD τ).loc main_v12_1 ↦{fullShare} W6 m ρ c F4 F5 (Proc.devRef .tc main_v12_1)))
      ∗ Pipeline.unscopedRest spec2 c (fun b => W6 m ρ c F4 F5 (Proc.devRef .tc b)))
  rw [hrest, W6_v12_0, W6_v12_1, W6_of_ne m ρ c F4 F5 main_v10 (by decide) (by decide), W6_of_ne m ρ c F4 F5 main_v11 (by decide) (by decide)]
  iintro ⟨H10, H11, H120, H121, Hrest⟩
  isplitr [Hrest]
  · isplitl [H10]; · iexact H10
    isplitl [H11]; · iexact H11
    isplitl [H120]; · iexact H120
    iexact H121
  iexact Hrest

end Last

/-! ## The attention region as a segment -/

section Region2Seg

/-- What the attention region leaves: for SOME contents of the two results that its write-backs may have left, every
    unscoped buffer at the last contents. -/
abbrev Last (c : Dev nD) : sProp 𝕄 :=
  iprop(∃ (F4 : Buf (Elt F) ((c : Thread nD τ).loc main_v12_0)) (F5 : Buf (Elt F) ((c : Thread nD τ).loc main_v12_1)),
    ⌜(rdat2 (V5 m ρ) c).ArrAt 4 cfg2.N F4 ∧ (rdat2 (V5 m ρ) c).ArrAt 5 cfg2.N F5⌝
    ∗ StableHlo.held (c : Thread nD τ) (Pipeline.ucRefs τ sig) (W6 m ρ c F4 F5))

set_option backward.isDefEq.respectTransparency.types false in
set_option maxHeartbeats 1000000 in
/-- The attention region: entered from every unscoped buffer at `W5`; its four array buffers split out (the text stream's
    in three) and put back at the exit; the generator register into the invariant and out; nothing owed. -/
def reg2 : Pipeline.RDat.RegionSeg (pcfgs (F := F)) adm (rdats m ρ) () defs₀ 𝒱₀ L lv 2 where
  win := winFacts₀2
  block_pos := block_pos2
  stage_whole := stage_whole2
  K := PEmpty
  osem k := k.elim
  ho := Pipeline.OwnSemFacts.none _
  hbody c := body_obligation2 (V5 m ρ) c
  hwaits := Pipeline.RDat.hwaits_of_owed_zero _ _ _ _ L lv 2 fun _ _ => rfl
  pre c := iprop(StableHlo.held (c : Thread nD τ) (Pipeline.ucRefs τ sig) (W5 m ρ c) ∗ R c)
  post c := iprop(Last m ρ c ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit : (StableHlo.held (c : Thread nD τ) (Pipeline.ucRefs τ sig) (W5 m ρ c) : sProp 𝕄)
        ⊢ iprop((rdats m ρ 2 c).arrays (rdats m ρ 2 c).A ∗ Pipeline.unscopedRest spec2 c (V5 m ρ c)) := by
      rw [← Pipeline.unscopedBufs_held c (W5 m ρ c),
        Pipeline.unscopedBufs_split₀ (Val := Elt F) (Ix := Unit) (Name := ℕ) (U := Pipeline.UD sig nD τ) (Lvl := ℕ) cfgs (2 : Fin 3) winFacts₀2.arr_unscoped c _]
      exact sep_mono (arrays2_entry (V5 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hx : ((rdats m ρ 2 c).arraysAt (Pipeline.pin (pcfgs (F := F)) adm 2).N : sProp 𝕄) ⊢ _ := arrays2_exit (V5 m ρ) c
    iintro ⟨Ha, HO, HY, Hrest⟩
    ihave H := hx $$ Ha
    icases H with ⟨%F4, %F5, %hF, H10, H11, H120, H121⟩
    imodintro
    isplitl [H10 H11 H120 H121 Hrest]
    · iexists F4, F5
      isplitr; · ipureintro; exact hF
      iapply (held6 m ρ c F4 F5)
      isplitl [H10]; · iexact H10
      isplitl [H11]; · iexact H11
      isplitl [H120]; · iexact H120
      isplitl [H121]; · iexact H121
      iexact Hrest
    isplitl [HY]; · iexact HY
    unfold Pipeline.RDat.owesAt Pipeline.owesWithin
    icases HO with ⟨%W, -, HO⟩; iexists W; iexact HO

end Region2Seg

/-! ## The run -/

section TheRun

/-- The program's six items in order: a host segment per stretch from the contents before it, a region per kernel. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- The program IS the run of these items. -/
theorem main_run (c : Dev nD) : main (F := F) c = Pipeline.RDat.Seg.run (segs m ρ) := (main_chain c).trans (by chain_rfl)

/-- What the run ends with, on core `c`, in a final memory `s`: every unscoped buffer at the last contents, the two results
    at some contents their write-backs may have left. -/
def Final (c : Dev nD) (s : MemSt nD τ sig (Elt F)) : Prop :=
  ∃ (F4 : Buf (Elt F) ((c : Thread nD τ).loc main_v12_0)) (F5 : Buf (Elt F) ((c : Thread nD τ).loc main_v12_1)),
    (rdat2 (V5 m ρ) c).ArrAt 4 cfg2.N F4 ∧ (rdat2 (V5 m ρ) c).ArrAt 5 cfg2.N F5
    ∧ ∀ b ∈ Pipeline.ucRefs τ sig, s.mem (((c : Thread nD τ)).1, b) = W6 m ρ c F4 F5 b

set_option backward.isDefEq.respectTransparency.types false in
set_option maxHeartbeats 2000000 in
/-- From any memory with zero counters every weakly fair execution of the program terminates, nothing faulting, and
    every final memory is as `Final` says on every core. -/
theorem run_all : θ_run defs (onTc (τ := τ) (main (F := F))) ⟨m, fun _ => 0, ρ⟩ (fun r => ∀ c : Dev nD, Final m ρ c r.2) :=
  Pipeline.RDat.θ_run_regions_kit (pcfgs (F := F)) adm (rdats m ρ) () cellOf_inj embL defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(Last m ρ c ∗ ∃ r, prngReg c r))
    (hch := ⟨fun _ => .rfl, fun _ => .rfl, fun _ => .rfl, fun _ => .rfl, fun _ => .rfl, fun _ => .rfl, fun c => by
      show (iprop(Last m ρ c ∗ R c) : sProp 𝕄) ⊢ _
      iintro ⟨HL, Hp, HO⟩
      isplitr [HO]
      · isplitl [HL]; · iexact HL
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := Final m ρ)
    (hfin := fun c s' => by
      unfold Final Last StableHlo.held
      iintro ⟨⟨⟨%F4, %F5, %hF, Hh⟩, -⟩, HSI⟩
      ihave Hr := (pointsTo_read_all (Pipeline.ucRefs τ sig) (fun b => (((c : Thread nD τ)).1, b)) (W6 m ρ c F4 F5) s') $$ [Hh HSI]
      · isplitl [Hh] <;> iassumption
      icases Hr with ⟨%h, HSI⟩
      imodintro
      isplitr
      · ipureintro; exact ⟨F4, F5, hF.1, hF.2, h⟩
      · iexact HSI)
    (hQ := fun s h c => h c)

end TheRun

end Cert.Kernel.Hand

end
-- ==== Proof.Kernel.Frame.lean ====
/-
  The frame: the program runs to the end, faults nowhere, and its fourteen argument arrays end as launched.

  No host stretch writes an argument (each writes only its own results), the two projection regions change only their
  output arrays, and the attention region only the two results; so each argument's buffer is followed unchanged
  through the six items and read off the last contents.
-/
import proofs.«153588_j55336358642313_2_alg».proof.Proof.Gen.Kernel.Launch
import proofs.«153588_j55336358642313_2_alg».proof.Proof.Gen.Kernel.Skeleton
import proofs.«153588_j55336358642313_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«153588_j55336358642313_2_alg».proof.Proof.Kernel.Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer that no host stretch writes and that is no array of a projection region holds, when the attention region
    is entered, what it held at launch. -/
theorem W5_of_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  (StableHlo.after_of_writes_sub hostOps2 _ hostOps2_writes h2).trans <|
  (W4_of_ne m ρ c r ha1).trans <|
  (StableHlo.after_of_writes_sub hostOps1 _ hostOps1_writes h1).trans <|
  (W2_of_ne m ρ c r ha0).trans <|
  (StableHlo.after_of_writes_sub hostOps0 _ hostOps0_writes h0)

/-- So it does at the end, if it is neither of the two results. -/
theorem final_kept (c : Dev nD) (s : MemSt nD τ sig (Elt F)) (hs : Final m ρ c s) (r : Ref sig .tc)
    (hu : ¬ (Proc.devRef .tc r : DevRef τ sig).isScoped)
    (h0 : r ∉ hostOps0_W) (h1 : r ∉ hostOps1_W) (h2 : r ∉ hostOps2_W)
    (ha0 : ∀ w, Pipeline.arrRef spec0 w ≠ r) (ha1 : ∀ w, Pipeline.arrRef spec1 w ≠ r)
    (hr0 : r ≠ main_v12_0) (hr1 : r ≠ main_v12_1) :
    s.mem ((c.tc : Thread nD τ).loc r) = m ((c.tc : Thread nD τ).loc r) := by
  obtain ⟨F4, F5, -, -, hb⟩ := hs
  exact (hb (Proc.devRef .tc r) (mem_uc r hu)).trans
    ((W6_of_ne m ρ c F4 F5 r hr0 hr1).trans (W5_of_kept m ρ c r h0 h1 h2 ha0 ha1))

/-- Every argument array ends as launched. -/
theorem final_args (c : Dev nD) (s : MemSt nD τ sig (Elt F)) (hs : Final m ρ c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13) :=
  ⟨final_kept m ρ c s hs main_arg0 (by decide) (by decide) (by decide) (by decide) (by decide) (by decide) (by decide) (by decide),
   final_kept m ρ c s hs main_arg1 (by decide) (by decide) (by decide) (by decide) (by decide) (by decide) (by decide) (by decide),
   final_kept m ρ c s hs main_arg2 (by decide) (by decide) (by decide) (by decide) (by decide) (by decide) (by decide) (by decide),
   final_kept m ρ c s hs main_arg3 (by decide) (by decide) (by decide) (by decide) (by decide) (by decide) (by decide) (by decide),
   final_kept m ρ c s hs main_arg4 (by decide) (by decide) (by decide) (by decide) (by decide) (by decide) (by decide) (by decide),
   final_kept m ρ c s hs main_arg5 (by decide) (by decide) (by decide) (by decide) (by decide) (by decide) (by decide) (by decide),
   final_kept m ρ c s hs main_arg6 (by decide) (by decide) (by decide) (by decide) (by decide) (by decide) (by decide) (by decide),
   final_kept m ρ c s hs main_arg7 (by decide) (by decide) (by decide) (by decide) (by decide) (by decide) (by decide) (by decide),
   final_kept m ρ c s hs main_arg8 (by decide) (by decide) (by decide) (by decide) (by decide) (by decide) (by decide) (by decide),
   final_kept m ρ c s hs main_arg9 (by decide) (by decide) (by decide) (by decide) (by decide) (by decide) (by decide) (by decide),
   final_kept m ρ c s hs main_arg10 (by decide) (by decide) (by decide) (by decide) (by decide) (by decide) (by decide) (by decide),
   final_kept m ρ c s hs main_arg11 (by decide) (by decide) (by decide) (by decide) (by decide) (by decide) (by decide) (by decide),
   final_kept m ρ c s hs main_arg12 (by decide) (by decide) (by decide) (by decide) (by decide) (by decide) (by decide) (by decide),
   final_kept m ρ c s hs main_arg13 (by decide) (by decide) (by decide) (by decide) (by decide) (by decide) (by decide) (by decide)⟩

/-- The frame, at any instance. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => final_args m ρ c r.2 (h c)) (run_all m ρ)

end Cert.Kernel.Hand

end
-- ==== Proof.KernelIdeal.Lin0.lean ====
import proofs.«153588_j55336358642313_2_alg».proof.Proof.Gen.KernelIdeal.Launch
import proofs.«153588_j55336358642313_2_alg».proof.Proof.Gen.KernelIdeal.Skeleton
import proofs.«153588_j55336358642313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The linear projection of region 0: what one grid point does to its staging buffers

Region 0 computes `o = x · wᵀ + b` for `x : [8192, 768]`, `w : [2304, 768]`, `b : [1, 2304]` in eight
row blocks of 1024 rows.  At grid point `t` the body sees four staging buffers: rows `1024·t … 1024·t+1023`
of `x`, the whole of `w`, the whole of `b`, and the output block of the same rows.  It reads the three
inputs whole, reads the output buffer once without using the value, and overwrites the whole output block
with one store of the payload `k0_pay1` of the three values read.

This file states that as the pipeline's proof data: every input buffer holds its block of the array as the
region found it (the weight and the bias are moved in only once, but their block index never changes, so
the buffer still holds the block at every later point), and the output buffer after the body is the single
store's payload, which covers the block.  The arrays' contents at region entry are a parameter `V`.
-/

-- membership in a rectangle of these extents is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not the block was moved
    in at that point, for any proof data whose array is `V`'s and whose body leaves the block in place: where
    nothing was moved in, the block index is the previous point's, and so is the buffer. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S1024x768 := Rect.unit (s := S1024x768) ![0, 0] S1024x768.size inb_S1024x768_S1024x768_0_0
abbrev rw0 : Rect S2304x768 := Rect.unit (s := S2304x768) ![0, 0] S2304x768.size inb_S2304x768_S2304x768_0_0
abbrev rb0 : Rect S1x2304 := Rect.unit (s := S1x2304) ![0, 0] S1x2304.size inb_S1x2304_S1x2304_0_0
abbrev ro0 : Rect S1024x2304 := Rect.unit (s := S1024x2304) ![0, 0] S1024x2304.size inb_S1024x2304_S1024x2304_0_0

/-! ## What the body leaves in the output window's buffer -/

/-- The output buffer after the body, from the three input blocks: its one store, of the payload of the three
    whole loads, over the whole block. -/
def out0_3 (x0 : Vec F S1024x768 .f32) (x1 : Vec F S2304x768 .f32) (x2 : Vec F S1x2304 .f32) : Vec F S1024x2304 .bf16 :=
  View.canon [⟨ro0, k0_pay1 (View.ld x0 rx0) (View.ld x1 rw0) (View.ld x2 rb0)⟩]

/-- The one store is over the whole block, so it covers it. -/
theorem cover0_3 (p0 : Vec F S1024x2304 .bf16) (y : S1024x2304.Idx) :
    ∃ pc ∈ ([⟨ro0, p0⟩] : List (View.Piece (Elt F) S1024x2304 .bf16)), y ∈ pc.1.set :=
  View.cover_of_tiled [⟨ro0, p0⟩] S1024x2304.size (by rfl) y

/-! ## The body's triple -/

set_option maxHeartbeats 1000000 in
/-- The kernel body on whole staging memrefs, the three inputs' at read contents `x0`, `x1`, `x2` and the output's
    at anything, runs to the continuation holding the inputs' as they were and the output's at `out0_3` of them:
    three whole loads, a load of the output whose value is dropped, and the one store over the whole block. -/
theorem sound_kernel0 (c : Dev nD) (E : Set ℕ) (i : grid0.Coords)
    (arg1 : Memref sig .tc .vmem S1024x768 .f32) (harg1 : arg1.IsWhole) (arg2 : Memref sig .tc .vmem S2304x768 .f32) (harg2 : arg2.IsWhole)
    (arg3 : Memref sig .tc .vmem S1x2304 .f32) (harg3 : arg3.IsWhole) (arg4 : Memref sig .tc .vmem S1024x2304 .bf16) (harg4 : arg4.IsWhole)
    (x0 : Vec F S1024x768 .f32) (x1 : Vec F S2304x768 .f32) (x2 : Vec F S1x2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer still at its block and the output's at `out0_3` of the three input blocks; the
    invariant is the rest of the core's memory, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Lin1.lean ====
import proofs.«153588_j55336358642313_2_alg».proof.Proof.Gen.KernelIdeal.Launch
import proofs.«153588_j55336358642313_2_alg».proof.Proof.Gen.KernelIdeal.Skeleton
import proofs.«153588_j55336358642313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The linear projection of region 1: what one grid point does to its staging buffers

Region 1 computes `o = x · wᵀ + b` for `x : [8192, 192]`, `w : [576, 192]`, `b : [1, 576]` in eight
row blocks of 1024 rows.  At grid point `t` the body sees four staging buffers: rows `1024·t … 1024·t+1023`
of `x`, the whole of `w`, the whole of `b`, and the output block of the same rows.  It reads the three
inputs whole, reads the output buffer once without using the value, and overwrites the whole output block
with one store of the payload `k1_pay1` of the three values read.

This file states that as the pipeline's proof data: every input buffer holds its block of the array as the
region found it (the weight and the bias are moved in only once, but their block index never changes, so
the buffer still holds the block at every later point), and the output buffer after the body is the single
store's payload, which covers the block.  The arrays' contents at region entry are a parameter `V`.
-/

-- membership in a rectangle of these extents is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not the block was moved
    in at that point, for any proof data whose array is `V`'s and whose body leaves the block in place: where
    nothing was moved in, the block index is the previous point's, and so is the buffer. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rx1 : Rect S1024x192 := Rect.unit (s := S1024x192) ![0, 0] S1024x192.size inb_S1024x192_S1024x192_0_0
abbrev rw1 : Rect S576x192 := Rect.unit (s := S576x192) ![0, 0] S576x192.size inb_S576x192_S576x192_0_0
abbrev rb1 : Rect S1x576 := Rect.unit (s := S1x576) ![0, 0] S1x576.size inb_S1x576_S1x576_0_0
abbrev ro1 : Rect S1024x576 := Rect.unit (s := S1024x576) ![0, 0] S1024x576.size inb_S1024x576_S1024x576_0_0

/-! ## What the body leaves in the output window's buffer -/

/-- The output buffer after the body, from the three input blocks: its one store, of the payload of the three
    whole loads, over the whole block. -/
def out1_3 (x0 : Vec F S1024x192 .f32) (x1 : Vec F S576x192 .f32) (x2 : Vec F S1x576 .f32) : Vec F S1024x576 .bf16 :=
  View.canon [⟨ro1, k1_pay1 (View.ld x0 rx1) (View.ld x1 rw1) (View.ld x2 rb1)⟩]

/-- The one store is over the whole block, so it covers it. -/
theorem cover1_3 (p0 : Vec F S1024x576 .bf16) (y : S1024x576.Idx) :
    ∃ pc ∈ ([⟨ro1, p0⟩] : List (View.Piece (Elt F) S1024x576 .bf16)), y ∈ pc.1.set :=
  View.cover_of_tiled [⟨ro1, p0⟩] S1024x576.size (by rfl) y

/-! ## The body's triple -/

set_option maxHeartbeats 1000000 in
/-- The kernel body on whole staging memrefs, the three inputs' at read contents `x0`, `x1`, `x2` and the output's
    at anything, runs to the continuation holding the inputs' as they were and the output's at `out1_3` of them:
    three whole loads, a load of the output whose value is dropped, and the one store over the whole block. -/
theorem sound_kernel1 (c : Dev nD) (E : Set ℕ) (i : grid1.Coords)
    (arg1 : Memref sig .tc .vmem S1024x192 .f32) (harg1 : arg1.IsWhole) (arg2 : Memref sig .tc .vmem S576x192 .f32) (harg2 : arg2.IsWhole)
    (arg3 : Memref sig .tc .vmem S1x576 .f32) (harg3 : arg3.IsWhole) (arg4 : Memref sig .tc .vmem S1024x576 .bf16) (harg4 : arg4.IsWhole)
    (x0 : Vec F S1024x192 .f32) (x1 : Vec F S576x192 .f32) (x2 : Vec F S1x576 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer still at its block and the output's at `out1_3` of the three input blocks; the
    invariant is the rest of the core's memory, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.AttnBody.lean ====
/-
  The attention region's body, as a function of what it is handed.

  One grid point (n, hp) is one batch entry n and one PAIR of adjacent heads 2·hp, 2·hp+1. The body is handed six
  blocks: the pair's 128 query, key and value columns of the projected text stream (each [1,1024,128]), the whole
  projected layout row block [1,1024,576] of the batch entry (its three sections of 192 columns are the layout
  queries, keys and values), and the two output blocks: the pair's 128 context columns [1,1024,128] and the batch
  entry's whole layout-context block [1,1024,192].

  For each head of the pair it takes that head's 64 text columns and 16 layout columns, forms the combined scores,
  the softmax weights and the two weighted sums, and stores the 64 context columns into its half of the context
  block and the 16 layout-context columns at column 32·hp + 16·j of the layout-context block.

  So the context block is overwritten whole at every point (two stores of 64 columns tile its 128), while the
  layout-context block is only PARTLY overwritten: 32 of its 192 columns per point, the other 160 left as handed.
  What the body leaves there is therefore stated as a relation between what it was handed and what it leaves:
  equal outside the two stored rectangles, the stored values inside.
-/
import proofs.«153588_j55336358642313_2_alg».proof.Proof.Gen.KernelIdeal.Launch
import proofs.«153588_j55336358642313_2_alg».proof.Proof.Gen.KernelIdeal.Skeleton
import proofs.«153588_j55336358642313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-! ## The rectangles the body reads and writes through -/

/-- The pair's layout-query columns, 32·hp … 32·hp+31 of the layout block; -/
abbrev rLq (i : grid2.Coords) : Rect S1x1024x576 := Rect.unit (s := S1x1024x576) (k2_off1 i) S1x1024x32.size (k2_off1_inb i)
/-- its layout-key columns, 192 further; -/
abbrev rLk (i : grid2.Coords) : Rect S1x1024x576 := Rect.unit (s := S1x1024x576) (k2_off2 i 192#32) S1x1024x32.size (k2_off2_inb i 0)
/-- its layout-value columns, 384 further. -/
abbrev rLv (i : grid2.Coords) : Rect S1x1024x576 := Rect.unit (s := S1x1024x576) (k2_off2 i 384#32) S1x1024x32.size (k2_off2_inb i 1)
/-- The first head's 64 columns of a 128-column block, -/
abbrev rH0 : Rect S1x1024x128 := Rect.unit (s := S1x1024x128) ![0, 0, 0] S1x1024x64.size inb_S1x1024x128_S1x1024x64_0_0_0
/-- and the second head's. -/
abbrev rH1 : Rect S1x1024x128 := Rect.unit (s := S1x1024x128) ![0, 0, 64] S1x1024x64.size inb_S1x1024x128_S1x1024x64_0_0_64
/-- The first head's 16 layout-context columns, at column 32·hp, -/
abbrev rO0 (i : grid2.Coords) : Rect S1x1024x192 := Rect.unit (s := S1x1024x192) (k2_off3 i 0#32) S1x1024x16.size (k2_off3_inb i 0)
/-- and the second head's, at column 32·hp + 16. -/
abbrev rO1 (i : grid2.Coords) : Rect S1x1024x192 := Rect.unit (s := S1x1024x192) (k2_off3 i 16#32) S1x1024x16.size (k2_off3_inb i 1)

/-! ## What the body computes, from the blocks it is handed -/

section Payloads

variable (i : grid2.Coords) (yq yk yv : Vec F S1x1024x128 .bf16) (yl : Vec F S1x1024x576 .bf16)

/-- The first head's unnormalised softmax weights exp(s − max s), -/
def wts0 : FVec F S1024x1024 .f32 := k2_pay9 (View.ld yl (rLq i)) (View.ld yl (rLk i)) (View.ld yq rH0) (View.ld yk rH0)
/-- and their row sums. -/
def den0 : FVec F S1024 .f32 := k2_pay10 (View.ld yl (rLq i)) (View.ld yl (rLk i)) (View.ld yq rH0) (View.ld yk rH0)
/-- The second head's unnormalised softmax weights (its row sums are taken where the weights are used). -/
def wts1 : FVec F S1024x1024 .f32 := k2_pay16 (k2_pay4 (View.ld yl (rLq i))) (k2_pay5 (View.ld yl (rLk i))) (View.ld yq rH1) (View.ld yk rH1)
/-- The first head's 64 context columns, -/
def ctx0 : FVec F S1x1024x64 .f32 := k2_pay12 (k2_pay7 (View.ld yv rH0)) (wts0 i yq yk yl) (den0 i yq yk yl)
/-- the second head's, -/
def ctx1 : FVec F S1x1024x64 .f32 := k2_pay2 (k2_pay14 (View.ld yv rH1)) (wts1 i yq yk yl)
/-- the first head's 16 layout-context columns, -/
def lctx0 : FVec F S1x1024x16 .f32 := k2_pay13 (k2_pay8 (View.ld yl (rLv i))) (wts0 i yq yk yl) (den0 i yq yk yl)
/-- and the second head's. -/
def lctx1 : FVec F S1x1024x16 .f32 := k2_pay3 (k2_pay15 (k2_pay6 (View.ld yl (rLv i)))) (wts1 i yq yk yl)

/-- The context block after the body: its two stores, the later first. They tile the block, so nothing of what the
    block held before is left. -/
def ctxOut : Vec F S1x1024x128 .f32 :=
  View.canon [⟨rH1, ctx1 i yq yk yv yl⟩, ⟨rH0, ctx0 i yq yk yv yl⟩]

/-- The layout-context block after the body (`X`) against what the body was handed there (`Y`): the two heads'
    columns hold what was stored, every other column is as handed. -/
structure LctxRel (Y X : Vec F S1x1024x192 .f32) : Prop where
  outside : ∀ y : S1x1024x192.Idx, y ∉ (rO1 i).set → y ∉ (rO0 i).set → X y = Y y
  head0 : ∀ x, X ((rO0 i).emb x) = lctx0 i yq yk yl x
  head1 : ∀ x, X ((rO1 i).emb x) = lctx1 i yq yk yl x

end Payloads

/-- The two stores of 64 columns cover the 128-column context block. -/
theorem cover_ctx (p1 p0 : Vec F S1x1024x64 .f32) (y : S1x1024x128.Idx) :
    ∃ pc ∈ ([⟨rH1, p1⟩, ⟨rH0, p0⟩] : List (View.Piece (Elt F) S1x1024x128 .f32)), y ∈ pc.1.set :=
  View.cover_of_tiled [⟨rH1, p1⟩, ⟨rH0, p0⟩] S1x1024x64.size (by rfl) y

/-- A column of the first head's 16 is none of the second head's: they start 16 columns apart. -/
theorem rO0_emb_not_mem (i : grid2.Coords) (x : (rO0 i).shape.Idx) :
    ((rO0 i).emb x (2 : Fin 3)).val < (![0, 0, 32 * (i 1).val + 16 * 1] : Fin 3 → ℕ) (2 : Fin 3) := by
  have hx : (x (2 : Fin 3)).val < 16 := (x (2 : Fin 3)).isLt
  have e : (k2_off3 i 0#32) (2 : Fin 3) = 32 * (i 1).val + 16 * 0 := congrFun (k2_off3_eq i ⟨0, by decide⟩) 2
  show (k2_off3 i 0#32) (2 : Fin 3) + 1 * (x (2 : Fin 3)).val < 32 * (i 1).val + 16 * 1
  omega

/-! ## The body's triple -/

set_option maxHeartbeats 2000000 in
/-- The kernel body on whole staging memrefs, handed the four input blocks and anything in the two output blocks,
    runs to the continuation with the inputs as handed, the context block at its closed form and the layout-context
    block in the relation above to what was handed. -/
theorem sound_kernel2 (c : Dev nD) (E : Set ℕ) (i : grid2.Coords)
    (arg2 : Memref sig .tc .vmem S1x1024x128 .bf16) (harg2 : arg2.IsWhole) (arg3 : Memref sig .tc .vmem S1x1024x128 .bf16) (harg3 : arg3.IsWhole)
    (arg4 : Memref sig .tc .vmem S1x1024x128 .bf16) (harg4 : arg4.IsWhole) (arg5 : Memref sig .tc .vmem S1x1024x576 .bf16) (harg5 : arg5.IsWhole)
    (arg6 : Memref sig .tc .vmem S1x1024x128 .f32) (harg6 : arg6.IsWhole) (arg7 : Memref sig .tc .vmem S1x1024x192 .f32) (harg7 : arg7.IsWhole)
    (yq yk yv : Vec F S1x1024x128 .bf16) (yl : Vec F S1x1024x576 .bf16) (yc : Vec F S1x1024x128 .f32) (yo : Vec F S1x1024x192 .f32)
    (K : PUnit → sProp 𝕄) :
    iprop(owns (c : Thread nD τ) arg2 fullShare yq ∗ owns (c : Thread nD τ) arg3 fullShare yk ∗ owns (c : Thread nD τ) arg4 fullShare yv
        ∗ owns (c : Thread nD τ) arg5 fullShare yl ∗ owns (c : Thread nD τ) arg6 fullShare yc ∗ owns (c : Thread nD τ) arg7 fullShare yo
        ∗ (iprop(owns (c : Thread nD τ) arg2 fullShare yq ∗ owns (c : Thread nD τ) arg3 fullShare yk ∗ owns (c : Thread nD τ) arg4 fullShare yv
            ∗ owns (c : Thread nD τ) arg5 fullShare yl ∗ owns (c : Thread nD τ) arg6 fullShare (ctxOut i yq yk yv yl)
            ∗ ∃ X, ⌜LctxRel i yq yk yl yo X⌝ ∗ owns (c : Thread nD τ) arg7 fullShare X) -∗ K ⟨⟩))
      ⊢ wp frame (wpE (defs₀ (F := F)) Variants.none c none) E (cc2__attn_kernel i arg2 harg2 arg3 harg3 arg4 harg4 arg5 harg5 arg6 harg6 arg7 harg7) K := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_ctx _ _)
  iexists (arg7.view.read (Elt F) (arg7.view.writes (Elt F) f5
    [⟨rO1 i, lctx1 i (arg2.view.read (Elt F) f0) (arg3.view.read (Elt F) f1) (arg5.view.read (Elt F) f3)⟩,
     ⟨rO0 i, lctx0 i (arg2.view.read (Elt F) f0) (arg3.view.read (Elt F) f1) (arg5.view.read (Elt F) f3)⟩]))
  isplitr
  · ipureintro
    refine ⟨fun y h1 h0 => ?_, fun x => ?_, fun x => ?_⟩
    · exact View.read_writes_apply_of_forall_not_mem _ _ y _ (fun p hp => by
        rcases List.mem_cons.mp hp with rfl | hp
        · exact h1
        · rcases List.mem_cons.mp hp with rfl | hp
          · exact h0
          · exact absurd hp List.not_mem_nil)
    · refine (View.read_writes_cons_unit_of_not_mem (off := k2_off3 i 16#32) (off' := ![0, 0, 32 * (i 1).val + 16 * 1])
        arg7.view f5 (k2_off3_inb i 1) _ _ ((rO0 i).emb x) (k2_off3_eq i ⟨1, by decide⟩) (2 : Fin 3)
        (Or.inl (rO0_emb_not_mem i x))).trans ?_
      exact View.read_writes_cons_emb _ _ _ _ _ x
    · exact View.read_writes_cons_emb _ _ _ _ _ x
  · iexists _; isplitr
    · ipureintro; rfl
    · iexact H5

end Cert.KernelIdeal.Hand

end
-- ==== Proof.KernelIdeal.AttnData.lean ====
/-
  The attention region's proof data and its body obligation.

  The region's six windows: 0, 1, 2 stage the pair's query, key and value columns — three blocks of ONE array, the
  projected text stream, so each of the three holds a third of that array's share —, 3 stages the batch entry's
  projected layout block (fetched when the batch entry changes, every sixth point, and left in place meanwhile),
  4 is the context output (written back at every point) and 5 the layout-context output, whose block is the same
  for the six points of a batch entry and is written back only after the sixth.

  What the body leaves in each window's buffer is stated as a relation to what it was handed: the four inputs are
  left as found; the context block is its closed form over the four input blocks at the point; the layout-context
  block is as handed outside the pair's 32 columns and holds the two heads' results inside them.
-/
import proofs.«153588_j55336358642313_2_alg».proof.Proof.Gen.KernelIdeal.Launch
import proofs.«153588_j55336358642313_2_alg».proof.Proof.Gen.KernelIdeal.Skeleton
import proofs.«153588_j55336358642313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«153588_j55336358642313_2_alg».proof.Proof.KernelIdeal.AttnBody
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

section Region2

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The share each input window holds of its array: the three windows on the projected text stream a third each (a
    half, and the two halves of the other half), the layout window all of its own array. -/
def q2 : Fin cfg2.W → PosShare TreeShare := fun w => match w with
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The proof data of the attention pipeline on core `c`, relational: the arrays as the region finds them; the inputs
    left as found; the context block at its closed form; the layout-context block changed on the pair's columns only;
    the invariant the scoped rest and the generator register, untouched; nothing owed. -/
def rdat2 (c : Dev nD) : RDat τ (Elt F) Unit ℕ (Pipeline.UD sig nD τ) ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = ctxOut (grid2.coords t) (iblk2 V c 0 t) (iblk2 V c 1 t) (iblk2 V c 2 t) (iblk2 V c 3 t)
    | ⟨5, _⟩ => fun Y X => LctxRel (grid2.coords t) (iblk2 V c 0 t) (iblk2 V c 1 t) (iblk2 V c 3 t) Y X
  Φ _ := Pipeline.ΦA spec2 c
  q := q2
  owed _ := 0

theorem A_eq2 (c : Dev nD) (w : Fin cfg2.W) : (rdat2 V c).A w = V c (Pipeline.arrRef spec2 w) := by
  dsimp only [rdat2]

/-- What the body finds in an input window's buffer is the window's block at the point, fetched there or not: the
    relation leaves the buffer as found, and between two fetches the block index does not move. -/
theorem finds2_0 (c : Dev nD) (t : Fin cfg2.N) (Y) (h : (rdat2 V c).Finds 0 t Y) : Y = iblk2 V c 0 t := by
  obtain ⟨d, rfl⟩ := RDat.finds_in_eq_fetched (rdat2 V c) 0 rfl (fun _ _ _ => rfl) (fun t Y X h => by dsimp only [rdat2] at h; exact h) t Y h
  unfold RDat.fetched RDat.blockOf iblk2; rw [A_eq2]; try rfl
theorem finds2_1 (c : Dev nD) (t : Fin cfg2.N) (Y) (h : (rdat2 V c).Finds 1 t Y) : Y = iblk2 V c 1 t := by
  obtain ⟨d, rfl⟩ := RDat.finds_in_eq_fetched (rdat2 V c) 1 rfl (fun _ _ _ => rfl) (fun t Y X h => by dsimp only [rdat2] at h; exact h) t Y h
  unfold RDat.fetched RDat.blockOf iblk2; rw [A_eq2]; try rfl
theorem finds2_2 (c : Dev nD) (t : Fin cfg2.N) (Y) (h : (rdat2 V c).Finds 2 t Y) : Y = iblk2 V c 2 t := by
  obtain ⟨d, rfl⟩ := RDat.finds_in_eq_fetched (rdat2 V c) 2 rfl (fun _ _ _ => rfl) (fun t Y X h => by dsimp only [rdat2] at h; exact h) t Y h
  unfold RDat.fetched RDat.blockOf iblk2; rw [A_eq2]; try rfl
theorem finds2_3 (c : Dev nD) (t : Fin cfg2.N) (Y) (h : (rdat2 V c).Finds 3 t Y) : Y = iblk2 V c 3 t := by
  obtain ⟨d, rfl⟩ := RDat.finds_in_eq_fetched (rdat2 V c) 3 rfl (fun _ _ _ => rfl) (fun t Y X h => by dsimp only [rdat2] at h; exact h) t Y h
  unfold RDat.fetched RDat.blockOf iblk2; rw [A_eq2]; try rfl

/-- The body at any point, handed any contents the windows' buffers may then hold: the inputs' are their blocks, so the
    body's triple applies; the invariant and the core's dues pass through unread. -/
theorem body_obligation2 (c : Dev nD) : (rdat2 (F := F) V c).BodyObligation (defs₀ (F := F)) Variants.none () Set.univ := fun t Y hY => by
  have e0 := finds2_0 V c t (Y 0) (hY 0)
  have e1 := finds2_1 V c t (Y 1) (hY 1)
  have e2 := finds2_2 V c t (Y 2) (hY 2)
  have e3 := finds2_3 V c t (Y 3) (hY 3)
  rw [bigSep_W2, bigSep_W2]
  show _ ⊢ wp frame (wpE (defs₀ (F := F)) Variants.none c none) Set.univ (bodyAt2 t) _
  rw [show (rdat2 V c).Φ t.succ = (rdat2 V c).Φ t.castSucc from rfl,
    show (rdat2 V c).owesAt () t.succ = (rdat2 V c).owesAt () t.castSucc from rfl]
  iintro ⟨HΦ, Ho, H0, H1, H2, H3, H4, H5⟩
  iapply (sound_kernel2 c Set.univ (grid2.coords t) (st2_0 t) _ (st2_1 t) _ (st2_2 t) _ (st2_3 t) _ (st2_4 t) _ (st2_5 t) _
    (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%X, %hX, H5⟩⟩
  isplitl [HΦ]; · iexact HΦ
  isplitl [Ho]; · iexact Ho
  isplitl [H0]
  · iexists (Y 0); isplitr; · ipureintro; dsimp only [rdat2]
    iexact H0
  isplitl [H1]
  · iexists (Y 1); isplitr; · ipureintro; dsimp only [rdat2]
    iexact H1
  isplitl [H2]
  · iexists (Y 2); isplitr; · ipureintro; dsimp only [rdat2]
    iexact H2
  isplitl [H3]
  · iexists (Y 3); isplitr; · ipureintro; dsimp only [rdat2]
    iexact H3
  isplitl [H4]
  · iexists _; isplitr
    swap; · iexact H4
    ipureintro; dsimp only [rdat2]; rw [e0, e1, e2, e3]
  iexists X; isplitr
  · ipureintro; dsimp only [rdat2]; rw [← e0, ← e1, ← e3]; exact hX
  iexact H5

end Region2

end Cert.KernelIdeal.Hand

end
-- ==== Proof.KernelIdeal.Fold.lean ====
/-
  The program's three kernel regions stand between stretches of host operations. Between two of these items every
  unscoped buffer of a core holds known contents: the launch memory, then what each host stretch computes from what
  it finds (a fold of its operations), then, after each projection region, that region's output array at what its
  write-backs leave and every other buffer as before. This module names those contents, item by item, and states the
  two projection regions as segments entered from one such state and left at the next.

  The two projection regions' proof data name what each point leaves exactly; the attention region's constrain it.
  All three are read as relational data, so that one family serves the run over all three.
-/
import proofs.«153588_j55336358642313_2_alg».proof.Proof.Gen.KernelIdeal.Launch
import proofs.«153588_j55336358642313_2_alg».proof.Proof.Gen.KernelIdeal.Skeleton
import proofs.«153588_j55336358642313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«153588_j55336358642313_2_alg».proof.Proof.Gen.KernelIdeal.Regions
import proofs.«153588_j55336358642313_2_alg».proof.Proof.KernelIdeal.Lin0
import proofs.«153588_j55336358642313_2_alg».proof.Proof.KernelIdeal.Lin1
import proofs.«153588_j55336358642313_2_alg».proof.Proof.KernelIdeal.AttnData
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the first host stretch (the fused weights and biases, the inputs as row blocks). -/
abbrev W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- After the text projection: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (the layout bias as a row). -/
abbrev W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- After the layout projection. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the third host stretch (the two projections as [8,1024,·] arrays): what the attention region is entered from. -/
abbrev W5 (c : Dev nD) : Valuation τ sig (Elt F) := StableHlo.after hostOps2 (W4 m ρ c)
abbrev V5 : (c : Dev nD) → (b : Ref sig .tc) → Buf (Elt F) ((c : Thread nD τ).loc b) := fun c b => W5 m ρ c b

/-! ## The proof data families -/

/-- No pipeline has a prefetched table. -/
abbrev adm : (p : Fin 3) → (pcfgs (F := F) p).Adm := fun p => (cfgs p).toPCfg_adm

/-- The attention pipeline's arrays and invariant under exact proof data that names nothing of what its body leaves:
    only a place-holder, so that the two projection pipelines' exact data sit in a family over all three pipelines. -/
def datPlace2 (c : Dev nD) : Dat τ (Elt F) Unit ℕ (Pipeline.UD sig nD τ) ℕ cfg2 c where
  A w := V5 m ρ c (Pipeline.arrRef spec2 w)
  after w t := Dat.unnamed (cfg := cfg2) w t
  Φ _ := Pipeline.ΦA spec2 c
  q := q2
  owed _ := 0

/-- The exact family (the third entry the place-holder). -/
def pdatsD : (p : Fin 3) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => datPlace2 m ρ c

/-- Every pipeline's proof data as relational data, each at its region's entry contents. -/
def rdats : (p : Fin 3) → (c : Dev nD) → RDat τ (Elt F) Unit ℕ (Pipeline.UD sig nD τ) ℕ (Pipeline.pin (pcfgs (F := F)) adm p) c
  | ⟨0, _⟩ => fun c => (dat0 (V1 m ρ) c).toR
  | ⟨1, _⟩ => fun c => (dat1 (V3 m ρ) c).toR
  | ⟨2, _⟩ => fun c => rdat2 (V5 m ρ) c

abbrev 𝒱₀ : Variants := Variants.none
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The projection regions as segments -/

set_option backward.isDefEq.respectTransparency.types false in
/-- The text projection: entered from every unscoped buffer at `W1`, left at `W2`. Its arrays split out of the unscoped
    buffers and put back at the exit contents; the generator register into the invariant and out; nothing owed. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((rdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdatsD m ρ) ((pdatsD m ρ 0 c).share_full fun _ => rfl)
      (V1 m ρ c) (V2 m ρ c) ((pdatsD m ρ 0 c).arrAt · cfg0.N) (hF0 m ρ c) (hrest0 m ρ c)
    rw [Pipeline.unscopedBufs_held] at hjoin
    rw [show (rdats m ρ 0 c).arraysAt (Pipeline.pin (pcfgs (F := F)) adm 0).N
        = ((pdatsD m ρ 0 c).arrays ((pdatsD m ρ 0 c).arrAt · cfg0.N) : sProp 𝕄) from (dat0 (V1 m ρ) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The layout projection: entered from every unscoped buffer at `W3`, left at `W4`. Its arrays split out of the unscoped
    buffers and put back at the exit contents; the generator register into the invariant and out; nothing owed. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toR
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((rdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdatsD m ρ) ((pdatsD m ρ 1 c).share_full fun _ => rfl)
      (V3 m ρ c) (V4 m ρ c) ((pdatsD m ρ 1 c).arrAt · cfg1.N) (hF1 m ρ c) (hrest1 m ρ c)
    rw [Pipeline.unscopedBufs_held] at hjoin
    rw [show (rdats m ρ 1 c).arraysAt (Pipeline.pin (pcfgs (F := F)) adm 1).N
        = ((pdatsD m ρ 1 c).arrays ((pdatsD m ρ 1 c).arrAt · cfg1.N) : sProp 𝕄) from (dat1 (V3 m ρ) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.KernelIdeal.Hand

end
-- ==== Proof.KernelIdeal.Run.lean ====
/-
  The attention region as a segment, and the run over all three regions.

  The attention region's four array buffers are the projected text stream (read through three windows: a third of
  its share each), the projected layout stream, and the two results. On entry the text stream's buffer is split three
  ways; on exit the thirds are joined again (an input array is never written), and each result buffer holds SOME
  contents its write-backs may have left: contents in the relation the proof data state, point after point.

  The run: the six items of the program in order, every unscoped buffer followed through them; at the end every
  unscoped buffer is read off the last contents, the two results at such contents.
-/
import proofs.«153588_j55336358642313_2_alg».proof.Proof.Gen.KernelIdeal.Launch
import proofs.«153588_j55336358642313_2_alg».proof.Proof.Gen.KernelIdeal.Skeleton
import proofs.«153588_j55336358642313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«153588_j55336358642313_2_alg».proof.Proof.KernelIdeal.Fold
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The attention region's arrays in and out of the unscoped buffers -/

section Arrays

variable (V : (c : Dev nD) → (b : Ref sig .tc) → Buf (Elt F) ((c : Thread nD τ).loc b))

theorem set2_univ (w : Fin cfg2.W) : (cfg2.win w).arr.view.set = Finset.univ := (arr_whole2 w).set_eq_univ

/-- ENTRY: the four distinct buffers behind the six windows, each whole at the full share, are the windows' arrays at
    their shares: the text stream's buffer split in three. -/
theorem arrays2_entry (c : Dev nD) :
    (Pipeline.arrBufs (Ix := Unit) (Name := ℕ) (U := Pipeline.UD sig nD τ) (Lvl := ℕ) spec2 c (V c) : sProp 𝕄)
      ⊢ (rdat2 V c).arrays (rdat2 V c).A := by
  unfold RDat.arrays Pipeline.arrBufs
  rw [bigSep_W2, bigSep_eq_bigSepL_of_eq [main_v10, main_v11, main_v12_0, main_v12_1] (by decide) (by decide)]
  rw [set2_univ 0, set2_univ 3, set2_univ 4, set2_univ 5]
  show (iprop(((c : Thread nD τ).loc main_v10 ↦{fullShare} V c main_v10) ∗ ((c : Thread nD τ).loc main_v11 ↦{fullShare} V c main_v11)
        ∗ ((c : Thread nD τ).loc main_v12_0 ↦{fullShare} V c main_v12_0) ∗ ((c : Thread nD τ).loc main_v12_1 ↦{fullShare} V c main_v12_1)) : sProp 𝕄)
      ⊢ iprop(((c : Thread nD τ).loc main_v10 ↦{fullShare.left} V c main_v10) ∗ ((c : Thread nD τ).loc main_v10 ↦{fullShare.right.left} V c main_v10)
        ∗ ((c : Thread nD τ).loc main_v10 ↦{fullShare.right.right} V c main_v10) ∗ ((c : Thread nD τ).loc main_v11 ↦{fullShare} V c main_v11)
        ∗ ((c : Thread nD τ).loc main_v12_0 ↦{fullShare} V c main_v12_0) ∗ ((c : Thread nD τ).loc main_v12_1 ↦{fullShare} V c main_v12_1))
  iintro ⟨H10, H11, H120, H121⟩
  ihave H := (pointsTo_share (PosShare.mem_left_op_right fullShare)).1 $$ H10
  icases H with ⟨Ha, Hbc⟩
  ihave H := (pointsTo_share (PosShare.mem_left_op_right fullShare.right)).1 $$ Hbc
  icases H with ⟨Hb, Hc⟩
  isplitl [Ha]; · iexact Ha
  isplitl [Hb]; · iexact Hb
  isplitl [Hc]; · iexact Hc
  isplitl [H11]; · iexact H11
  isplitl [H120]; · iexact H120
  iexact H121

set_option maxHeartbeats 1000000 in
/-- EXIT: the windows' arrays after every write-back are the two input buffers whole as entered and the two result
    buffers whole at some contents the write-backs may have left. -/
theorem arrays2_exit (c : Dev nD) :
    ((rdat2 V c).arraysAt cfg2.N : sProp 𝕄) ⊢ iprop(∃ (F4 : Buf (Elt F) ((c : Thread nD τ).loc main_v12_0)) (F5 : Buf (Elt F) ((c : Thread nD τ).loc main_v12_1)),
        ⌜(rdat2 V c).ArrAt 4 cfg2.N F4 ∧ (rdat2 V c).ArrAt 5 cfg2.N F5⌝
        ∗ ((c : Thread nD τ).loc main_v10 ↦{fullShare} V c main_v10) ∗ ((c : Thread nD τ).loc main_v11 ↦{fullShare} V c main_v11)
        ∗ ((c : Thread nD τ).loc main_v12_0 ↦{fullShare} F4) ∗ ((c : Thread nD τ).loc main_v12_1 ↦{fullShare} F5)) := by
  unfold RDat.arraysAt
  rw [bigSep_W2]
  rw [set2_univ 0, set2_univ 3, set2_univ 4, set2_univ 5]
  show (iprop((∃ F : Buf (Elt F) ((c : Thread nD τ).loc main_v10), ⌜(rdat2 V c).ArrAt 0 cfg2.N F⌝ ∗ (c : Thread nD τ).loc main_v10 ↦{fullShare.left} F)
        ∗ (∃ F : Buf (Elt F) ((c : Thread nD τ).loc main_v10), ⌜(rdat2 V c).ArrAt 1 cfg2.N F⌝ ∗ (c : Thread nD τ).loc main_v10 ↦{fullShare.right.left} F)
        ∗ (∃ F : Buf (Elt F) ((c : Thread nD τ).loc main_v10), ⌜(rdat2 V c).ArrAt 2 cfg2.N F⌝ ∗ (c : Thread nD τ).loc main_v10 ↦{fullShare.right.right} F)
        ∗ (∃ F : Buf (Elt F) ((c : Thread nD τ).loc main_v11), ⌜(rdat2 V c).ArrAt 3 cfg2.N F⌝ ∗ (c : Thread nD τ).loc main_v11 ↦{fullShare} F)
        ∗ (∃ F : Buf (Elt F) ((c : Thread nD τ).loc main_v12_0), ⌜(rdat2 V c).ArrAt 4 cfg2.N F⌝ ∗ (c : Thread nD τ).loc main_v12_0 ↦{fullShare} F)
        ∗ (∃ F : Buf (Elt F) ((c : Thread nD τ).loc main_v12_1), ⌜(rdat2 V c).ArrAt 5 cfg2.N F⌝ ∗ (c : Thread nD τ).loc main_v12_1 ↦{fullShare} F)) : sProp 𝕄) ⊢ _
  iintro ⟨⟨%F0, %h0, P0⟩, ⟨%F1, %h1, P1⟩, ⟨%F2, %h2, P2⟩, ⟨%F3, %h3, P3⟩, ⟨%F4, %h4, P4⟩, ⟨%F5, %h5, P5⟩⟩
  have e0 : F0 = V c main_v10 := by rw [RDat.ArrAt_in (rdat2 V c) 0 rfl] at h0; exact h0.trans (A_eq2 V c 0)
  have e1 : F1 = V c main_v10 := by rw [RDat.ArrAt_in (rdat2 V c) 1 rfl] at h1; exact h1.trans (A_eq2 V c 1)
  have e2 : F2 = V c main_v10 := by rw [RDat.ArrAt_in (rdat2 V c) 2 rfl] at h2; exact h2.trans (A_eq2 V c 2)
  have e3 : F3 = V c main_v11 := by rw [RDat.ArrAt_in (rdat2 V c) 3 rfl] at h3; exact h3.trans (A_eq2 V c 3)
  subst e0 e1 e2 e3
  iexists F4, F5
  isplitr; · ipureintro; exact ⟨h4, h5⟩
  ihave H12 := (pointsTo_share (ℓ := (c : Thread nD τ).loc main_v10) (f := V c main_v10) (PosShare.mem_left_op_right fullShare.right)).2 $$ [P1 P2]
  · isplitl [P1]; · iexact P1
    iexact P2
  ihave H := (pointsTo_share (ℓ := (c : Thread nD τ).loc main_v10) (f := V c main_v10) (PosShare.mem_left_op_right fullShare)).2 $$ [P0 H12]
  · isplitl [P0]; · iexact P0
    iexact H12
  isplitl [H]; · iexact H
  isplitl [P3]; · iexact P3
  isplitl [P4]; · iexact P4
  iexact P5

end Arrays

/-! ## The last contents, and the attention region's buffers back among the unscoped ones -/

section Last

/-- The contents after the attention region: as it found them, the two results at `F4`, `F5`. -/
def W6 (c : Dev nD) (F4 : Buf (Elt F) ((c : Thread nD τ).loc main_v12_0)) (F5 : Buf (Elt F) ((c : Thread nD τ).loc main_v12_1)) :
    Valuation τ sig (Elt F) :=
  Function.update (Function.update (W5 m ρ c) (Proc.devRef .tc main_v12_0) F4) (Proc.devRef .tc main_v12_1) F5

theorem W6_v12_1 (c : Dev nD) (F4 F5) : W6 m ρ c F4 F5 (Proc.devRef .tc main_v12_1) = F5 := Function.update_self ..
theorem W6_v12_0 (c : Dev nD) (F4 F5) : W6 m ρ c F4 F5 (Proc.devRef .tc main_v12_0) = F4 := by
  unfold W6; rw [Function.update_of_ne (by decide), Function.update_self]
theorem W6_of_ne (c : Dev nD) (F4 F5) (b : Ref sig .tc) (h0 : b ≠ main_v12_0) (h1 : b ≠ main_v12_1) :
    W6 m ρ c F4 F5 (Proc.devRef .tc b) = W5 m ρ c (Proc.devRef .tc b) := by
  unfold W6
  rw [Function.update_of_ne (StableHlo.devRef_ne_of_ne h1), Function.update_of_ne (StableHlo.devRef_ne_of_ne h0)]

/-- The attention region's four buffers, the inputs as entered and the results at `F4`, `F5`, beside every other
    unscoped buffer as entered, are all the unscoped buffers at the last contents. -/
theorem held6 (c : Dev nD) (F4 : Buf (Elt F) ((c : Thread nD τ).loc main_v12_0)) (F5 : Buf (Elt F) ((c : Thread nD τ).loc main_v12_1)) :
    (iprop(((c : Thread nD τ).loc main_v10 ↦{fullShare} V5 m ρ c main_v10) ∗ ((c : Thread nD τ).loc main_v11 ↦{fullShare} V5 m ρ c main_v11)
        ∗ ((c : Thread nD τ).loc main_v12_0 ↦{fullShare} F4) ∗ ((c : Thread nD τ).loc main_v12_1 ↦{fullShare} F5)
        ∗ Pipeline.unscopedRest (Ix := Unit) (Name := ℕ) (U := Pipeline.UD sig nD τ) (Lvl := ℕ) spec2 c (V5 m ρ c)) : sProp 𝕄)
      ⊢ StableHlo.held (c : Thread nD τ) (Pipeline.ucRefs τ sig) (W6 m ρ c F4 F5) := by
  rw [← Pipeline.unscopedBufs_held c (W6 m ρ c F4 F5),
    Pipeline.unscopedBufs_split₀ (Val := Elt F) (Ix := Unit) (Name := ℕ) (U := Pipeline.UD sig nD τ) (Lvl := ℕ) cfgs (2 : Fin 3) winFacts₀2.arr_unscoped c _]
  unfold Pipeline.arrBufs
  rw [bigSep_eq_bigSepL_of_eq [main_v10, main_v11, main_v12_0, main_v12_1] (by decide) (by decide)]
  have hrest : (Pipeline.unscopedRest (Ix := Unit) (Name := ℕ) (U := Pipeline.UD sig nD τ) (Lvl := ℕ) spec2 c (fun b => W6 m ρ c F4 F5 (Proc.devRef .tc b)) : sProp 𝕄)
      = Pipeline.unscopedRest spec2 c (V5 m ρ c) := by
    unfold Pipeline.unscopedRest
    exact bigSep_congr fun b hb => by
      have hb' := (Finset.mem_sdiff.mp hb).2
      beta_reduce
      rw [W6_of_ne m ρ c F4 F5 b
        (fun e => hb' (Finset.mem_image.mpr ⟨(4 : Fin 6), Finset.mem_univ _, e.symm⟩))
        (fun e => hb' (Finset.mem_image.mpr ⟨(5 : Fin 6), Finset.mem_univ _, e.symm⟩))]
  show _ ⊢ iprop((((c : Thread nD τ).loc main_v10 ↦{fullShare} W6 m ρ c F4 F5 (Proc.devRef .tc main_v10))
      ∗ ((c : Thread nD τ).loc main_v11 ↦{fullShare} W6 m ρ c F4 F5 (Proc.devRef .tc main_v11))
      ∗ ((c : Thread nD τ).loc main_v12_0 ↦{fullShare} W6 m ρ c F4 F5 (Proc.devRef .tc main_v12_0))
      ∗ ((c : Thread nD τ).loc main_v12_1 ↦{fullShare} W6 m ρ c F4 F5 (Proc.devRef .tc main_v12_1)))
      ∗ Pipeline.unscopedRest spec2 c (fun b => W6 m ρ c F4 F5 (Proc.devRef .tc b)))
  rw [hrest, W6_v12_0, W6_v12_1, W6_of_ne m ρ c F4 F5 main_v10 (by decide) (by decide), W6_of_ne m ρ c F4 F5 main_v11 (by decide) (by decide)]
  iintro ⟨H10, H11, H120, H121, Hrest⟩
  isplitr [Hrest]
  · isplitl [H10]; · iexact H10
    isplitl [H11]; · iexact H11
    isplitl [H120]; · iexact H120
    iexact H121
  iexact Hrest

end Last

/-! ## The attention region as a segment -/

section Region2Seg

/-- What the attention region leaves: for SOME contents of the two results that its write-backs may have left, every
    unscoped buffer at the last contents. -/
abbrev Last (c : Dev nD) : sProp 𝕄 :=
  iprop(∃ (F4 : Buf (Elt F) ((c : Thread nD τ).loc main_v12_0)) (F5 : Buf (Elt F) ((c : Thread nD τ).loc main_v12_1)),
    ⌜(rdat2 (V5 m ρ) c).ArrAt 4 cfg2.N F4 ∧ (rdat2 (V5 m ρ) c).ArrAt 5 cfg2.N F5⌝
    ∗ StableHlo.held (c : Thread nD τ) (Pipeline.ucRefs τ sig) (W6 m ρ c F4 F5))

set_option backward.isDefEq.respectTransparency.types false in
set_option maxHeartbeats 1000000 in
/-- The attention region: entered from every unscoped buffer at `W5`; its four array buffers split out (the text stream's
    in three) and put back at the exit; the generator register into the invariant and out; nothing owed. -/
def reg2 : Pipeline.RDat.RegionSeg (pcfgs (F := F)) adm (rdats m ρ) () defs₀ 𝒱₀ L lv 2 where
  win := winFacts₀2
  block_pos := block_pos2
  stage_whole := stage_whole2
  K := PEmpty
  osem k := k.elim
  ho := Pipeline.OwnSemFacts.none _
  hbody c := body_obligation2 (V5 m ρ) c
  hwaits := Pipeline.RDat.hwaits_of_owed_zero _ _ _ _ L lv 2 fun _ _ => rfl
  pre c := iprop(StableHlo.held (c : Thread nD τ) (Pipeline.ucRefs τ sig) (W5 m ρ c) ∗ R c)
  post c := iprop(Last m ρ c ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit : (StableHlo.held (c : Thread nD τ) (Pipeline.ucRefs τ sig) (W5 m ρ c) : sProp 𝕄)
        ⊢ iprop((rdats m ρ 2 c).arrays (rdats m ρ 2 c).A ∗ Pipeline.unscopedRest spec2 c (V5 m ρ c)) := by
      rw [← Pipeline.unscopedBufs_held c (W5 m ρ c),
        Pipeline.unscopedBufs_split₀ (Val := Elt F) (Ix := Unit) (Name := ℕ) (U := Pipeline.UD sig nD τ) (Lvl := ℕ) cfgs (2 : Fin 3) winFacts₀2.arr_unscoped c _]
      exact sep_mono (arrays2_entry (V5 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hx : ((rdats m ρ 2 c).arraysAt (Pipeline.pin (pcfgs (F := F)) adm 2).N : sProp 𝕄) ⊢ _ := arrays2_exit (V5 m ρ) c
    iintro ⟨Ha, HO, HY, Hrest⟩
    ihave H := hx $$ Ha
    icases H with ⟨%F4, %F5, %hF, H10, H11, H120, H121⟩
    imodintro
    isplitl [H10 H11 H120 H121 Hrest]
    · iexists F4, F5
      isplitr; · ipureintro; exact hF
      iapply (held6 m ρ c F4 F5)
      isplitl [H10]; · iexact H10
      isplitl [H11]; · iexact H11
      isplitl [H120]; · iexact H120
      isplitl [H121]; · iexact H121
      iexact Hrest
    isplitl [HY]; · iexact HY
    unfold Pipeline.RDat.owesAt Pipeline.owesWithin
    icases HO with ⟨%W, -, HO⟩; iexists W; iexact HO

end Region2Seg

/-! ## The run -/

section TheRun

/-- The program's six items in order: a host segment per stretch from the contents before it, a region per kernel. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- The program IS the run of these items. -/
theorem main_run (c : Dev nD) : main (F := F) c = Pipeline.RDat.Seg.run (segs m ρ) := (main_chain c).trans (by chain_rfl)

/-- What the run ends with, on core `c`, in a final memory `s`: every unscoped buffer at the last contents, the two results
    at some contents their write-backs may have left. -/
def Final (c : Dev nD) (s : MemSt nD τ sig (Elt F)) : Prop :=
  ∃ (F4 : Buf (Elt F) ((c : Thread nD τ).loc main_v12_0)) (F5 : Buf (Elt F) ((c : Thread nD τ).loc main_v12_1)),
    (rdat2 (V5 m ρ) c).ArrAt 4 cfg2.N F4 ∧ (rdat2 (V5 m ρ) c).ArrAt 5 cfg2.N F5
    ∧ ∀ b ∈ Pipeline.ucRefs τ sig, s.mem (((c : Thread nD τ)).1, b) = W6 m ρ c F4 F5 b

set_option backward.isDefEq.respectTransparency.types false in
set_option maxHeartbeats 2000000 in
/-- From any memory with zero counters every weakly fair execution of the program terminates, nothing faulting, and
    every final memory is as `Final` says on every core. -/
theorem run_all : θ_run defs (onTc (τ := τ) (main (F := F))) ⟨m, fun _ => 0, ρ⟩ (fun r => ∀ c : Dev nD, Final m ρ c r.2) :=
  Pipeline.RDat.θ_run_regions_kit (pcfgs (F := F)) adm (rdats m ρ) () cellOf_inj embL defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(Last m ρ c ∗ ∃ r, prngReg c r))
    (hch := ⟨fun _ => .rfl, fun _ => .rfl, fun _ => .rfl, fun _ => .rfl, fun _ => .rfl, fun _ => .rfl, fun c => by
      show (iprop(Last m ρ c ∗ R c) : sProp 𝕄) ⊢ _
      iintro ⟨HL, Hp, HO⟩
      isplitr [HO]
      · isplitl [HL]; · iexact HL
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := Final m ρ)
    (hfin := fun c s' => by
      unfold Final Last StableHlo.held
      iintro ⟨⟨⟨%F4, %F5, %hF, Hh⟩, -⟩, HSI⟩
      ihave Hr := (pointsTo_read_all (Pipeline.ucRefs τ sig) (fun b => (((c : Thread nD τ)).1, b)) (W6 m ρ c F4 F5) s') $$ [Hh HSI]
      · isplitl [Hh] <;> iassumption
      icases Hr with ⟨%h, HSI⟩
      imodintro
      isplitr
      · ipureintro; exact ⟨F4, F5, hF.1, hF.2, h⟩
      · iexact HSI)
    (hQ := fun s h c => h c)

end TheRun

end Cert.KernelIdeal.Hand

end
-- ==== Proof.KernelIdeal.Frame.lean ====
/-
  The frame: the program runs to the end, faults nowhere, and its fourteen argument arrays end as launched.

  No host stretch writes an argument (each writes only its own results), the two projection regions change only their
  output arrays, and the attention region only the two results; so each argument's buffer is followed unchanged
  through the six items and read off the last contents.
-/
import proofs.«153588_j55336358642313_2_alg».proof.Proof.Gen.KernelIdeal.Launch
import proofs.«153588_j55336358642313_2_alg».proof.Proof.Gen.KernelIdeal.Skeleton
import proofs.«153588_j55336358642313_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«153588_j55336358642313_2_alg».proof.Proof.KernelIdeal.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer that no host stretch writes and that is no array of a projection region holds, when the attention region
    is entered, what it held at launch. -/
theorem W5_of_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  (StableHlo.after_of_writes_sub hostOps2 _ hostOps2_writes h2).trans <|
  (W4_of_ne m ρ c r ha1).trans <|
  (StableHlo.after_of_writes_sub hostOps1 _ hostOps1_writes h1).trans <|
  (W2_of_ne m ρ c r ha0).trans <|
  (StableHlo.after_of_writes_sub hostOps0 _ hostOps0_writes h0)

/-- So it does at the end, if it is neither of the two results. -/
theorem final_kept (c : Dev nD) (s : MemSt nD τ sig (Elt F)) (hs : Final m ρ c s) (r : Ref sig .tc)
    (hu : ¬ (Proc.devRef .tc r : DevRef τ sig).isScoped)
    (h0 : r ∉ hostOps0_W) (h1 : r ∉ hostOps1_W) (h2 : r ∉ hostOps2_W)
    (ha0 : ∀ w, Pipeline.arrRef spec0 w ≠ r) (ha1 : ∀ w, Pipeline.arrRef spec1 w ≠ r)
    (hr0 : r ≠ main_v12_0) (hr1 : r ≠ main_v12_1) :
    s.mem ((c.tc : Thread nD τ).loc r) = m ((c.tc : Thread nD τ).loc r) := by
  obtain ⟨F4, F5, -, -, hb⟩ := hs
  exact (hb (Proc.devRef .tc r) (mem_uc r hu)).trans
    ((W6_of_ne m ρ c F4 F5 r hr0 hr1).trans (W5_of_kept m ρ c r h0 h1 h2 ha0 ha1))

/-- Every argument array ends as launched. -/
theorem final_args (c : Dev nD) (s : MemSt nD τ sig (Elt F)) (hs : Final m ρ c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13) :=
  ⟨final_kept m ρ c s hs main_arg0 (by decide) (by decide) (by decide) (by decide) (by decide) (by decide) (by decide) (by decide),
   final_kept m ρ c s hs main_arg1 (by decide) (by decide) (by decide) (by decide) (by decide) (by decide) (by decide) (by decide),
   final_kept m ρ c s hs main_arg2 (by decide) (by decide) (by decide) (by decide) (by decide) (by decide) (by decide) (by decide),
   final_kept m ρ c s hs main_arg3 (by decide) (by decide) (by decide) (by decide) (by decide) (by decide) (by decide) (by decide),
   final_kept m ρ c s hs main_arg4 (by decide) (by decide) (by decide) (by decide) (by decide) (by decide) (by decide) (by decide),
   final_kept m ρ c s hs main_arg5 (by decide) (by decide) (by decide) (by decide) (by decide) (by decide) (by decide) (by decide),
   final_kept m ρ c s hs main_arg6 (by decide) (by decide) (by decide) (by decide) (by decide) (by decide) (by decide) (by decide),
   final_kept m ρ c s hs main_arg7 (by decide) (by decide) (by decide) (by decide) (by decide) (by decide) (by decide) (by decide),
   final_kept m ρ c s hs main_arg8 (by decide) (by decide) (by decide) (by decide) (by decide) (by decide) (by decide) (by decide),
   final_kept m ρ c s hs main_arg9 (by decide) (by decide) (by decide) (by decide) (by decide) (by decide) (by decide) (by decide),
   final_kept m ρ c s hs main_arg10 (by decide) (by decide) (by decide) (by decide) (by decide) (by decide) (by decide) (by decide),
   final_kept m ρ c s hs main_arg11 (by decide) (by decide) (by decide) (by decide) (by decide) (by decide) (by decide) (by decide),
   final_kept m ρ c s hs main_arg12 (by decide) (by decide) (by decide) (by decide) (by decide) (by decide) (by decide) (by decide),
   final_kept m ρ c s hs main_arg13 (by decide) (by decide) (by decide) (by decide) (by decide) (by decide) (by decide) (by decide)⟩

/-- The frame, at any instance. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => final_args m ρ c r.2 (h c)) (run_all m ρ)

end Cert.KernelIdeal.Hand

end
-- ==== Proof.Spec.lean ====
/-
  The result of the dual-stream attention layer, stated index by index on the extended reals.

  Two streams share one softmax.  A hidden stream X (768 columns, twelve heads of 64) and a layout
  stream L (192 columns, twelve heads of 16) are each projected three times (query, key, value) by
  an affine map  x ↦ x · wᵀ + b.  For a batch entry n, a head h and a query row q the score against
  key row k is the sum of the two streams' scaled inner products,

      comb n h q k = (Σ_d Q[n,q,64h+d] · K[n,k,64h+d]) · (1/8) + (Σ_d LQ[n,q,16h+d] · LK[n,k,16h+d]) · (1/4),

  the row is normalised by the usual shifted softmax (shift by the row maximum, exponentiate, divide
  by the row sum), and both value projections are averaged with these one set of weights:

      ctx [n,q,64h+d] = Σ_k prob n h q k · V [n,k,64h+d],
      lctx[n,q,16h+d] = Σ_k prob n h q k · LV[n,k,16h+d].

  Everything is a small definition over curried literal coordinates; nothing here mentions a program.
  The scales are written as products with the reals 1/8 and 1/4 (= 1/√64 and 1/√16), the row
  maximum as the fold of `max` from ⊥ over the 1024 keys, and the quotient is the extended reals'
  `Ideal.div`.  The second half of the file collects the small numeric facts both sides of a
  comparison need: the four float words involved as reals, √64 = 8 and √16 = 4, division by those
  roots as multiplication by 1/8 and 1/4 on every extended real, and ⊥ as the unit of `max`.
-/
import Mathlib
import Idealize.ShloMosaic.PureOps.Ideal
import Idealize.ShloMosaic.PureOps.Ideal.Laws
import Idealize.ShloMosaic.Lib.ValueIdx

noncomputable section

namespace Cert.Spec

open Idealize.ShloMosaic

/-! ## Columns and heads -/

/-- Column `64·h + d` of the hidden stream: coordinate `d` of head `h`. -/
def headCol64 (h : Fin 12) (d : Fin 64) : Fin 768 := ⟨64 * h.val + d.val, by omega⟩

/-- Column `16·h + d` of the layout stream: coordinate `d` of head `h`. -/
def headCol16 (h : Fin 12) (d : Fin 16) : Fin 192 := ⟨16 * h.val + d.val, by omega⟩

/-- The head a hidden column belongs to. -/
def headOf64 (o : Fin 768) : Fin 12 := ⟨o.val / 64, by omega⟩

/-- The head a layout column belongs to. -/
def headOf16 (o : Fin 192) : Fin 12 := ⟨o.val / 16, by omega⟩

/-- A hidden column's coordinate inside its head. -/
def dimOf64 (o : Fin 768) : Fin 64 := ⟨o.val % 64, by omega⟩

/-- A layout column's coordinate inside its head. -/
def dimOf16 (o : Fin 192) : Fin 16 := ⟨o.val % 16, by omega⟩

@[simp] theorem headCol64_val (h : Fin 12) (d : Fin 64) : (headCol64 h d).val = 64 * h.val + d.val := rfl
@[simp] theorem headCol16_val (h : Fin 12) (d : Fin 16) : (headCol16 h d).val = 16 * h.val + d.val := rfl
@[simp] theorem headOf64_val (o : Fin 768) : (headOf64 o).val = o.val / 64 := rfl
@[simp] theorem headOf16_val (o : Fin 192) : (headOf16 o).val = o.val / 16 := rfl
@[simp] theorem dimOf64_val (o : Fin 768) : (dimOf64 o).val = o.val % 64 := rfl
@[simp] theorem dimOf16_val (o : Fin 192) : (dimOf16 o).val = o.val % 16 := rfl

theorem headOf64_headCol64 (h : Fin 12) (d : Fin 64) : headOf64 (headCol64 h d) = h :=
  Fin.ext (by have := d.isLt; simp only [headOf64_val, headCol64_val]; omega)

theorem headOf16_headCol16 (h : Fin 12) (d : Fin 16) : headOf16 (headCol16 h d) = h :=
  Fin.ext (by have := d.isLt; simp only [headOf16_val, headCol16_val]; omega)

theorem dimOf64_headCol64 (h : Fin 12) (d : Fin 64) : dimOf64 (headCol64 h d) = d :=
  Fin.ext (by have := d.isLt; simp only [dimOf64_val, headCol64_val]; omega)

theorem dimOf16_headCol16 (h : Fin 12) (d : Fin 16) : dimOf16 (headCol16 h d) = d :=
  Fin.ext (by have := d.isLt; simp only [dimOf16_val, headCol16_val]; omega)

theorem headCol64_headOf_dimOf (o : Fin 768) : headCol64 (headOf64 o) (dimOf64 o) = o :=
  Fin.ext (by simp only [headCol64_val, headOf64_val, dimOf64_val]; omega)

theorem headCol16_headOf_dimOf (o : Fin 192) : headCol16 (headOf16 o) (dimOf16 o) = o :=
  Fin.ext (by simp only [headCol16_val, headOf16_val, dimOf16_val]; omega)

/-! ## The layer, one small definition at a time -/

/-- An affine projection of the hidden stream: `(Σ_i X[n,s,i] · w[o,i]) + b[o]` (the weight is stored
    output-major). -/
def lin768 (X : Fin 8 → Fin 1024 → Fin 768 → EReal) (w : Fin 768 → Fin 768 → EReal) (b : Fin 768 → EReal)
    (n : Fin 8) (s : Fin 1024) (o : Fin 768) : EReal :=
  (∑ i : Fin 768, X n s i * w o i) + b o

/-- An affine projection of the layout stream: `(Σ_i L[n,s,i] · w[o,i]) + b[o]`. -/
def lin192 (L : Fin 8 → Fin 1024 → Fin 192 → EReal) (w : Fin 192 → Fin 192 → EReal) (b : Fin 192 → EReal)
    (n : Fin 8) (s : Fin 1024) (o : Fin 192) : EReal :=
  (∑ i : Fin 192, L n s i * w o i) + b o

/-- The combined score of query row `q` against key row `k` in head `h`: the hidden stream's inner
    product over the head's 64 columns times 1/8, plus the layout stream's over its 16 columns times 1/4. -/
def comb (Q K : Fin 8 → Fin 1024 → Fin 768 → EReal) (LQ LK : Fin 8 → Fin 1024 → Fin 192 → EReal)
    (n : Fin 8) (h : Fin 12) (q k : Fin 1024) : EReal :=
  (∑ d : Fin 64, Q n q (headCol64 h d) * K n k (headCol64 h d)) * ((1 / 8 : ℝ) : EReal)
    + (∑ d : Fin 16, LQ n q (headCol16 h d) * LK n k (headCol16 h d)) * ((1 / 4 : ℝ) : EReal)

/-- A row's maximum over the 1024 keys, as the fold of `max` from `⊥`. -/
def rowMax (c : Fin 8 → Fin 12 → Fin 1024 → Fin 1024 → EReal) (n : Fin 8) (h : Fin 12) (q : Fin 1024) : EReal :=
  (Finset.univ : Finset (Fin 1024)).fold max ⊥ (fun k => c n h q k)

/-- The shifted exponential `exp (c − rowMax)`. -/
def pexp (c : Fin 8 → Fin 12 → Fin 1024 → Fin 1024 → EReal) (n : Fin 8) (h : Fin 12) (q k : Fin 1024) : EReal :=
  Ideal.exp (c n h q k - rowMax c n h q)

/-- The row sum of the shifted exponentials. -/
def den (c : Fin 8 → Fin 12 → Fin 1024 → Fin 1024 → EReal) (n : Fin 8) (h : Fin 12) (q : Fin 1024) : EReal :=
  ∑ k : Fin 1024, pexp c n h q k

/-- The softmax weight `pexp / den`. -/
def prob (c : Fin 8 → Fin 12 → Fin 1024 → Fin 1024 → EReal) (n : Fin 8) (h : Fin 12) (q k : Fin 1024) : EReal :=
  Ideal.div (pexp c n h q k) (den c n h q)

/-- The weights averaging a hidden-stream value array: column `o` uses the weights of `o`'s head. -/
def mix768 (P : Fin 8 → Fin 12 → Fin 1024 → Fin 1024 → EReal) (V : Fin 8 → Fin 1024 → Fin 768 → EReal)
    (n : Fin 8) (q : Fin 1024) (o : Fin 768) : EReal :=
  ∑ k : Fin 1024, P n (headOf64 o) q k * V n k o

/-- The weights averaging a layout-stream value array. -/
def mix192 (P : Fin 8 → Fin 12 → Fin 1024 → Fin 1024 → EReal) (LV : Fin 8 → Fin 1024 → Fin 192 → EReal)
    (n : Fin 8) (q : Fin 1024) (o : Fin 192) : EReal :=
  ∑ k : Fin 1024, P n (headOf16 o) q k * LV n k o

section Results

variable (X : Fin 8 → Fin 1024 → Fin 768 → EReal) (L : Fin 8 → Fin 1024 → Fin 192 → EReal)
  (qw : Fin 768 → Fin 768 → EReal) (qb : Fin 768 → EReal)
  (kw : Fin 768 → Fin 768 → EReal) (kb : Fin 768 → EReal)
  (vw : Fin 768 → Fin 768 → EReal) (vb : Fin 768 → EReal)
  (lqw : Fin 192 → Fin 192 → EReal) (lqb : Fin 192 → EReal)
  (lkw : Fin 192 → Fin 192 → EReal) (lkb : Fin 192 → EReal)
  (lvw : Fin 192 → Fin 192 → EReal) (lvb : Fin 192 → EReal)

/-- The layer's combined scores, from its inputs. -/
def combSpec : Fin 8 → Fin 12 → Fin 1024 → Fin 1024 → EReal :=
  comb (lin768 X qw qb) (lin768 X kw kb) (lin192 L lqw lqb) (lin192 L lkw lkb)

/-- The layer's softmax weights, from its inputs. -/
def probSpec : Fin 8 → Fin 12 → Fin 1024 → Fin 1024 → EReal :=
  prob (combSpec X L qw qb kw kb lqw lqb lkw lkb)

/-- The hidden-stream result. -/
def ctxSpec : Fin 8 → Fin 1024 → Fin 768 → EReal :=
  mix768 (probSpec X L qw qb kw kb lqw lqb lkw lkb) (lin768 X vw vb)

/-- The layout-stream result. -/
def lctxSpec : Fin 8 → Fin 1024 → Fin 192 → EReal :=
  mix192 (probSpec X L qw qb kw kb lqw lqb lkw lkb) (lin192 L lvw lvb)

/-- The hidden-stream result at coordinate `d` of head `h`. -/
theorem ctxSpec_headCol (n : Fin 8) (q : Fin 1024) (h : Fin 12) (d : Fin 64) :
    ctxSpec X L qw qb kw kb vw vb lqw lqb lkw lkb n q (headCol64 h d)
      = ∑ k : Fin 1024, probSpec X L qw qb kw kb lqw lqb lkw lkb n h q k * lin768 X vw vb n k (headCol64 h d) := by
  unfold ctxSpec mix768
  rw [headOf64_headCol64]

/-- The layout-stream result at coordinate `d` of head `h`. -/
theorem lctxSpec_headCol (n : Fin 8) (q : Fin 1024) (h : Fin 12) (d : Fin 16) :
    lctxSpec X L qw qb kw kb lqw lqb lkw lkb lvw lvb n q (headCol16 h d)
      = ∑ k : Fin 1024, probSpec X L qw qb kw kb lqw lqb lkw lkb n h q k * lin192 L lvw lvb n k (headCol16 h d) := by
  unfold lctxSpec mix192
  rw [headOf16_headCol16]

end Results

/-! ## The row maximum's universal property -/

/-- The fold of `max` from `⊥` is the supremum. -/
theorem rowMax_eq_sup (c : Fin 8 → Fin 12 → Fin 1024 → Fin 1024 → EReal) (n : Fin 8) (h : Fin 12) (q : Fin 1024) :
    rowMax c n h q = (Finset.univ : Finset (Fin 1024)).sup (fun k => c n h q k) := rfl

theorem le_rowMax (c : Fin 8 → Fin 12 → Fin 1024 → Fin 1024 → EReal) (n : Fin 8) (h : Fin 12) (q k : Fin 1024) :
    c n h q k ≤ rowMax c n h q := by
  rw [rowMax_eq_sup]; exact Finset.le_sup (f := fun k => c n h q k) (Finset.mem_univ k)

theorem rowMax_le_iff (c : Fin 8 → Fin 12 → Fin 1024 → Fin 1024 → EReal) (n : Fin 8) (h : Fin 12) (q : Fin 1024) (a : EReal) :
    rowMax c n h q ≤ a ↔ ∀ k, c n h q k ≤ a := by
  rw [rowMax_eq_sup, Finset.sup_le_iff]; exact ⟨fun H k => H k (Finset.mem_univ k), fun H k _ => H k⟩

/-! ## Numeric facts -/

/-- The word `0x3E000000` is the real 1/8. -/
theorem ofBits_eighth : Ideal.ofBits .f32 0x3E000000#32 = ((1 / 8 : ℝ) : EReal) := by
  simp [Ideal.ofBits, Ideal.ieee, -EReal.coe_mul]; norm_num

/-- The word `0x3E800000` is the real 1/4. -/
theorem ofBits_quarter : Ideal.ofBits .f32 0x3E800000#32 = ((1 / 4 : ℝ) : EReal) := by
  simp [Ideal.ofBits, Ideal.ieee, -EReal.coe_mul]; norm_num

/-- The word `0x42800000` is the real 64. -/
theorem ofBits_64 : Ideal.ofBits .f32 0x42800000#32 = ((64 : ℝ) : EReal) := by
  simp [Ideal.ofBits, Ideal.ieee, -EReal.coe_mul]; norm_num

/-- The word `0x41800000` is the real 16. -/
theorem ofBits_16 : Ideal.ofBits .f32 0x41800000#32 = ((16 : ℝ) : EReal) := by
  simp [Ideal.ofBits, Ideal.ieee, -EReal.coe_mul]; norm_num

/-- The word `0xFF800000` is `-∞`. -/
theorem ofBits_neg_inf : Ideal.ofBits .f32 0xFF800000#32 = ⊥ := by
  simp [Ideal.ofBits, Ideal.ieee]

/-- √64 = 8 on the extended reals. -/
theorem sqrt_64 : Ideal.sqrt (Ideal.ofBits .f32 0x42800000#32) = ((8 : ℝ) : EReal) := by
  rw [ofBits_64, Ideal.sqrt_coe, if_neg (by norm_num)]
  exact congrArg _ (by rw [show (64 : ℝ) = 8 ^ 2 by norm_num]; exact Real.sqrt_sq (by norm_num))

/-- √16 = 4 on the extended reals. -/
theorem sqrt_16 : Ideal.sqrt (Ideal.ofBits .f32 0x41800000#32) = ((4 : ℝ) : EReal) := by
  rw [ofBits_16, Ideal.sqrt_coe, if_neg (by norm_num)]
  exact congrArg _ (by rw [show (16 : ℝ) = 4 ^ 2 by norm_num]; exact Real.sqrt_sq (by norm_num))

/-- Dividing by √64 is multiplying by 1/8, at the infinities too. -/
theorem div_sqrt_64 (x : EReal) :
    Ideal.div x (Ideal.sqrt (Ideal.ofBits .f32 0x42800000#32)) = x * ((1 / 8 : ℝ) : EReal) := by
  rw [sqrt_64]; exact Ideal.div_coe (by norm_num) x

/-- Dividing by √16 is multiplying by 1/4, at the infinities too. -/
theorem div_sqrt_16 (x : EReal) :
    Ideal.div x (Ideal.sqrt (Ideal.ofBits .f32 0x41800000#32)) = x * ((1 / 4 : ℝ) : EReal) := by
  rw [sqrt_16]; exact Ideal.div_coe (by norm_num) x

/-- The same two facts in the spelling a host program's quotient by the host square root of a constant has. -/
theorem hostDivf_hostSqrt_64 (x : Ideal .f32) :
    FloatOps.hostDivf x (FloatOps.hostUnary .sqrt (FloatOps.ofBits (F := Ideal) .f32 0x42800000#32))
      = x * ((1 / 8 : ℝ) : EReal) := div_sqrt_64 x

theorem hostDivf_hostSqrt_16 (x : Ideal .f32) :
    FloatOps.hostDivf x (FloatOps.hostUnary .sqrt (FloatOps.ofBits (F := Ideal) .f32 0x41800000#32))
      = x * ((1 / 4 : ℝ) : EReal) := div_sqrt_16 x

/-- Multiplying by the word `0x3E000000` is multiplying by 1/8. -/
theorem mulf_eighth (x : Ideal .f32) :
    FloatOps.mulf x (FloatOps.ofBits (F := Ideal) .f32 0x3E000000#32) = x * ((1 / 8 : ℝ) : EReal) :=
  congrArg (x * ·) ofBits_eighth

/-- Multiplying by the word `0x3E800000` is multiplying by 1/4. -/
theorem mulf_quarter (x : Ideal .f32) :
    FloatOps.mulf x (FloatOps.ofBits (F := Ideal) .f32 0x3E800000#32) = x * ((1 / 4 : ℝ) : EReal) :=
  congrArg (x * ·) ofBits_quarter

/-- `-∞` is the unit of `max`: the guard `max(-∞, s)` is `s`. -/
theorem max_neg_inf (s : EReal) : max (Ideal.ofBits .f32 0xFF800000#32) s = s := by
  rw [ofBits_neg_inf]; exact max_bot_left s

/-- The same in a host program's spelling. -/
theorem maximumf_neg_inf (s : Ideal .f32) :
    FloatOps.maximumf (FloatOps.ofBits (F := Ideal) .f32 0xFF800000#32) s = s := max_neg_inf s

/-- The zero word is `0`, so a sum started from it is the sum. -/
theorem zero_word_add (s : EReal) : Ideal.ofBits .f32 0x00000000#32 + s = s := by
  rw [Ideal.ofBits_zero_f32, zero_add]

end Cert.Spec

end
-- ==== Proof.SpecHead.lean ====
/-
  The specification, one head at a time.

  Inside one batch entry and one head nothing of the layer is left but four plain matrices: the head's
  64 query and key columns and its 16 layout-query and layout-key columns, each over the 1024 sequence
  positions.  This file states the scores, the shifted softmax and its weights over such slices, and
  shows that the layer's definitions at (n, h) are these one-head forms of the (n, h) slices of the
  projections — by unfolding, nothing else.
-/
import proofs.«153588_j55336358642313_2_alg».proof.Proof.Spec

noncomputable section

namespace Cert.Spec

open Idealize.ShloMosaic

/-- One head's combined scores from its query / key slices of the two streams. -/
def comb1 (Q K : Fin 1024 → Fin 64 → EReal) (LQ LK : Fin 1024 → Fin 16 → EReal) (q k : Fin 1024) : EReal :=
  (∑ d : Fin 64, Q q d * K k d) * ((1 / 8 : ℝ) : EReal) + (∑ d : Fin 16, LQ q d * LK k d) * ((1 / 4 : ℝ) : EReal)

/-- A score matrix's row maximum: the fold of `max` from `⊥` over the 1024 keys. -/
def rowMax1 (c : Fin 1024 → Fin 1024 → EReal) (q : Fin 1024) : EReal :=
  (Finset.univ : Finset (Fin 1024)).fold max ⊥ (fun k => c q k)

/-- The shifted exponential of a score matrix. -/
def pexp1 (c : Fin 1024 → Fin 1024 → EReal) (q k : Fin 1024) : EReal := Ideal.exp (c q k - rowMax1 c q)

/-- Its row sums. -/
def den1 (c : Fin 1024 → Fin 1024 → EReal) (q : Fin 1024) : EReal := ∑ k : Fin 1024, pexp1 c q k

/-- The softmax weights of a score matrix. -/
def probOf (c : Fin 1024 → Fin 1024 → EReal) (q k : Fin 1024) : EReal := Ideal.div (pexp1 c q k) (den1 c q)

/-- One head's softmax weights from its slices. -/
def prob1 (Q K : Fin 1024 → Fin 64 → EReal) (LQ LK : Fin 1024 → Fin 16 → EReal) (q k : Fin 1024) : EReal :=
  probOf (comb1 Q K LQ LK) q k

theorem rowMax1_eq_sup (c : Fin 1024 → Fin 1024 → EReal) (q : Fin 1024) :
    rowMax1 c q = (Finset.univ : Finset (Fin 1024)).sup (fun k => c q k) := rfl

section Link

variable (X : Fin 8 → Fin 1024 → Fin 768 → EReal) (L : Fin 8 → Fin 1024 → Fin 192 → EReal)
  (qw : Fin 768 → Fin 768 → EReal) (qb : Fin 768 → EReal)
  (kw : Fin 768 → Fin 768 → EReal) (kb : Fin 768 → EReal)
  (vw : Fin 768 → Fin 768 → EReal) (vb : Fin 768 → EReal)
  (lqw : Fin 192 → Fin 192 → EReal) (lqb : Fin 192 → EReal)
  (lkw : Fin 192 → Fin 192 → EReal) (lkb : Fin 192 → EReal)
  (lvw : Fin 192 → Fin 192 → EReal) (lvb : Fin 192 → EReal)

/-- The layer's scores at (n, h) are the one-head scores of the (n, h) slices of the four projections. -/
theorem combSpec_eq_comb1 (n : Fin 8) (h : Fin 12) (q k : Fin 1024) :
    combSpec X L qw qb kw kb lqw lqb lkw lkb n h q k
      = comb1 (fun s d => lin768 X qw qb n s (headCol64 h d)) (fun s d => lin768 X kw kb n s (headCol64 h d))
          (fun s d => lin192 L lqw lqb n s (headCol16 h d)) (fun s d => lin192 L lkw lkb n s (headCol16 h d)) q k := rfl

/-- The layer's softmax weights at (n, h) are the one-head weights of those slices. -/
theorem probSpec_eq_prob1 (n : Fin 8) (h : Fin 12) (q k : Fin 1024) :
    probSpec X L qw qb kw kb lqw lqb lkw lkb n h q k
      = prob1 (fun s d => lin768 X qw qb n s (headCol64 h d)) (fun s d => lin768 X kw kb n s (headCol64 h d))
          (fun s d => lin192 L lqw lqb n s (headCol16 h d)) (fun s d => lin192 L lkw lkb n s (headCol16 h d)) q k := rfl

/-- The hidden-stream result at coordinate `d` of head `h`, in one-head terms. -/
theorem ctxSpec_headCol1 (n : Fin 8) (q : Fin 1024) (h : Fin 12) (d : Fin 64) :
    ctxSpec X L qw qb kw kb vw vb lqw lqb lkw lkb n q (headCol64 h d)
      = ∑ k : Fin 1024,
          prob1 (fun s d => lin768 X qw qb n s (headCol64 h d)) (fun s d => lin768 X kw kb n s (headCol64 h d))
            (fun s d => lin192 L lqw lqb n s (headCol16 h d)) (fun s d => lin192 L lkw lkb n s (headCol16 h d)) q k
          * lin768 X vw vb n k (headCol64 h d) :=
  ctxSpec_headCol X L qw qb kw kb vw vb lqw lqb lkw lkb n q h d

/-- The layout-stream result at coordinate `d` of head `h`, in one-head terms. -/
theorem lctxSpec_headCol1 (n : Fin 8) (q : Fin 1024) (h : Fin 12) (d : Fin 16) :
    lctxSpec X L qw qb kw kb lqw lqb lkw lkb lvw lvb n q (headCol16 h d)
      = ∑ k : Fin 1024,
          prob1 (fun s d => lin768 X qw qb n s (headCol64 h d)) (fun s d => lin768 X kw kb n s (headCol64 h d))
            (fun s d => lin192 L lqw lqb n s (headCol16 h d)) (fun s d => lin192 L lkw lkb n s (headCol16 h d)) q k
          * lin192 L lvw lvb n k (headCol16 h d) :=
  lctxSpec_headCol X L qw qb kw kb lqw lqb lkw lkb lvw lvb n q h d

end Link

end Cert.Spec

end
-- ==== Proof.KernelIdeal.AttnValue.lean ====
/-
  The attention region's body at an index, over the extended reals.

  At the idealized instance a change of float format is the identity, the matrix unit's product into
  a zero accumulator is the plain sum of products, a lane reduction over the key axis is the fold of
  `max` from `-∞` (resp. the sum) over the 1024 keys, and the two literal scales are the reals 1/8
  and 1/4.  So for each head of the pair the body's values are the one-head specification's of four
  slices of the blocks it was handed: with

      comb q k = (Σ_d qh q d · kh k d) · (1/8) + (Σ_d lqh q d · lkh k d) · (1/4),

  the unnormalised weights are exp (comb − row maximum), their row sums the denominator, and the 64
  context columns and 16 layout-context columns are Σ_k (weight / denominator) · value.  Both heads
  come out in this one form although the printed body divides head 0's weights in one payload and
  head 1's in another.

  The file reads each non-pointwise operation once, over variables of the literal vector types
  (the four matrix products, the two row reductions, the column broadcast, the casts that add or drop
  the leading unit axis, the two 16-column slices of 32, the loads through the body's rectangles),
  then the shared chain scores → shifted exponential → normalised weights, then the seven payload
  compositions, and last the context block as the two stores leave it.
-/
import proofs.«153588_j55336358642313_2_alg».proof.Proof.SpecHead
import proofs.«153588_j55336358642313_2_alg».proof.Proof.KernelIdeal.AttnBody
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.ValueIdx Cert.Spec
open scoped BigOperators

/-! ## The matrix products -/

section Products

/-! ### Query against key: both operands contracted along their columns -/

theorem qk64_lhs_row (j : S1024x1024.Idx) (c : dot_S1024x64_S1024x64_S1024x1024_1_1_0_0_n_n.contr.Idx) :
    (dot_S1024x64_S1024x64_S1024x1024_1_1_0_0_n_n.lhsIdx j c 0).val = (j 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem qk64_lhs_col (j : S1024x1024.Idx) (c : dot_S1024x64_S1024x64_S1024x1024_1_1_0_0_n_n.contr.Idx) :
    (dot_S1024x64_S1024x64_S1024x1024_1_1_0_0_n_n.lhsIdx j c 1).val = (c ⟨0, by decide⟩).val :=
  dot_S1024x64_S1024x64_S1024x1024_1_1_0_0_n_n.lhsIdx_val_of_single rfl j c
theorem qk64_rhs_row (j : S1024x1024.Idx) (c : dot_S1024x64_S1024x64_S1024x1024_1_1_0_0_n_n.contr.Idx) :
    (dot_S1024x64_S1024x64_S1024x1024_1_1_0_0_n_n.rhsIdx j c 0).val = (j 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem qk64_rhs_col (j : S1024x1024.Idx) (c : dot_S1024x64_S1024x64_S1024x1024_1_1_0_0_n_n.contr.Idx) :
    (dot_S1024x64_S1024x64_S1024x1024_1_1_0_0_n_n.rhsIdx j c 1).val = (c ⟨0, by decide⟩).val :=
  dot_S1024x64_S1024x64_S1024x1024_1_1_0_0_n_n.rhsIdx_val_of_single rfl j c

/-- Row `q` of the queries against row `k` of the keys, over the head's 64 columns. -/
theorem qk64_apply (a b : FVec Ideal S1024x64 .bf16) (q k : Fin 1024) :
    FloatOps.matmul dot_S1024x64_S1024x64_S1024x1024_1_1_0_0_n_n none a b (constant (F := Ideal) S1024x1024 .f32 0x00000000#32) (ix2 q k)
      = ∑ d : Fin 64, a (ix2 q d) * b (ix2 k d) := by
  rw [Ideal.matmul_constant_zero_apply, ← Equiv.sum_comp (contrEquiv1 dot_S1024x64_S1024x64_S1024x1024_1_1_0_0_n_n 64 rfl rfl).symm]
  refine Finset.sum_congr rfl fun d _ => ?_
  have hd := contrEquiv1_symm_val dot_S1024x64_S1024x64_S1024x1024_1_1_0_0_n_n 64 rfl rfl d
  have el : dot_S1024x64_S1024x64_S1024x1024_1_1_0_0_n_n.lhsIdx (ix2 q k) ((contrEquiv1 dot_S1024x64_S1024x64_S1024x1024_1_1_0_0_n_n 64 rfl rfl).symm d) = ix2 q d := funext fun a => Fin.ext (by
    match a with
    | ⟨0, _⟩ => exact qk64_lhs_row _ _
    | ⟨1, _⟩ => exact (qk64_lhs_col _ _).trans hd)
  have er : dot_S1024x64_S1024x64_S1024x1024_1_1_0_0_n_n.rhsIdx (ix2 q k) ((contrEquiv1 dot_S1024x64_S1024x64_S1024x1024_1_1_0_0_n_n 64 rfl rfl).symm d) = ix2 k d := funext fun a => Fin.ext (by
    match a with
    | ⟨0, _⟩ => exact qk64_rhs_row _ _
    | ⟨1, _⟩ => exact (qk64_rhs_col _ _).trans hd)
  rw [el, er]

theorem qk16_lhs_row (j : S1024x1024.Idx) (c : dot_S1024x16_S1024x16_S1024x1024_1_1_0_0_n_n.contr.Idx) :
    (dot_S1024x16_S1024x16_S1024x1024_1_1_0_0_n_n.lhsIdx j c 0).val = (j 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem qk16_lhs_col (j : S1024x1024.Idx) (c : dot_S1024x16_S1024x16_S1024x1024_1_1_0_0_n_n.contr.Idx) :
    (dot_S1024x16_S1024x16_S1024x1024_1_1_0_0_n_n.lhsIdx j c 1).val = (c ⟨0, by decide⟩).val :=
  dot_S1024x16_S1024x16_S1024x1024_1_1_0_0_n_n.lhsIdx_val_of_single rfl j c
theorem qk16_rhs_row (j : S1024x1024.Idx) (c : dot_S1024x16_S1024x16_S1024x1024_1_1_0_0_n_n.contr.Idx) :
    (dot_S1024x16_S1024x16_S1024x1024_1_1_0_0_n_n.rhsIdx j c 0).val = (j 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem qk16_rhs_col (j : S1024x1024.Idx) (c : dot_S1024x16_S1024x16_S1024x1024_1_1_0_0_n_n.contr.Idx) :
    (dot_S1024x16_S1024x16_S1024x1024_1_1_0_0_n_n.rhsIdx j c 1).val = (c ⟨0, by decide⟩).val :=
  dot_S1024x16_S1024x16_S1024x1024_1_1_0_0_n_n.rhsIdx_val_of_single rfl j c

/-- The same over the head's 16 layout columns. -/
theorem qk16_apply (a b : FVec Ideal S1024x16 .bf16) (q k : Fin 1024) :
    FloatOps.matmul dot_S1024x16_S1024x16_S1024x1024_1_1_0_0_n_n none a b (constant (F := Ideal) S1024x1024 .f32 0x00000000#32) (ix2 q k)
      = ∑ d : Fin 16, a (ix2 q d) * b (ix2 k d) := by
  rw [Ideal.matmul_constant_zero_apply, ← Equiv.sum_comp (contrEquiv1 dot_S1024x16_S1024x16_S1024x1024_1_1_0_0_n_n 16 rfl rfl).symm]
  refine Finset.sum_congr rfl fun d _ => ?_
  have hd := contrEquiv1_symm_val dot_S1024x16_S1024x16_S1024x1024_1_1_0_0_n_n 16 rfl rfl d
  have el : dot_S1024x16_S1024x16_S1024x1024_1_1_0_0_n_n.lhsIdx (ix2 q k) ((contrEquiv1 dot_S1024x16_S1024x16_S1024x1024_1_1_0_0_n_n 16 rfl rfl).symm d) = ix2 q d := funext fun a => Fin.ext (by
    match a with
    | ⟨0, _⟩ => exact qk16_lhs_row _ _
    | ⟨1, _⟩ => exact (qk16_lhs_col _ _).trans hd)
  have er : dot_S1024x16_S1024x16_S1024x1024_1_1_0_0_n_n.rhsIdx (ix2 q k) ((contrEquiv1 dot_S1024x16_S1024x16_S1024x1024_1_1_0_0_n_n 16 rfl rfl).symm d) = ix2 k d := funext fun a => Fin.ext (by
    match a with
    | ⟨0, _⟩ => exact qk16_rhs_row _ _
    | ⟨1, _⟩ => exact (qk16_rhs_col _ _).trans hd)
  rw [el, er]

/-! ### Weights against values: the weights' key axis against the values' row axis -/

theorem pv64_lhs_row (j : S1024x64.Idx) (c : dot_S1024x1024_S1024x64_S1024x64_1_0_0_1_n_n.contr.Idx) :
    (dot_S1024x1024_S1024x64_S1024x64_1_0_0_1_n_n.lhsIdx j c 0).val = (j 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem pv64_lhs_col (j : S1024x64.Idx) (c : dot_S1024x1024_S1024x64_S1024x64_1_0_0_1_n_n.contr.Idx) :
    (dot_S1024x1024_S1024x64_S1024x64_1_0_0_1_n_n.lhsIdx j c 1).val = (c ⟨0, by decide⟩).val :=
  dot_S1024x1024_S1024x64_S1024x64_1_0_0_1_n_n.lhsIdx_val_of_single rfl j c
theorem pv64_rhs_row (j : S1024x64.Idx) (c : dot_S1024x1024_S1024x64_S1024x64_1_0_0_1_n_n.contr.Idx) :
    (dot_S1024x1024_S1024x64_S1024x64_1_0_0_1_n_n.rhsIdx j c 0).val = (c ⟨0, by decide⟩).val :=
  dot_S1024x1024_S1024x64_S1024x64_1_0_0_1_n_n.rhsIdx_val_of_single rfl j c
theorem pv64_rhs_col (j : S1024x64.Idx) (c : dot_S1024x1024_S1024x64_S1024x64_1_0_0_1_n_n.contr.Idx) :
    (dot_S1024x1024_S1024x64_S1024x64_1_0_0_1_n_n.rhsIdx j c 1).val = (j 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Row `q` of the weights against column `d` of the 64 value columns. -/
theorem pv64_apply (w : FVec Ideal S1024x1024 .bf16) (v : FVec Ideal S1024x64 .bf16) (q : Fin 1024) (d : Fin 64) :
    FloatOps.matmul dot_S1024x1024_S1024x64_S1024x64_1_0_0_1_n_n none w v (constant (F := Ideal) S1024x64 .f32 0x00000000#32) (ix2 q d)
      = ∑ k : Fin 1024, w (ix2 q k) * v (ix2 k d) := by
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 q d) ((contrEquiv1 dot_S1024x1024_S1024x64_S1024x64_1_0_0_1_n_n 1024 rfl rfl).symm k) = ix2 q k := funext fun a => Fin.ext (by
    match a with
    | ⟨0, _⟩ => exact pv64_lhs_row _ _
    | ⟨1, _⟩ => exact (pv64_lhs_col _ _).trans hk)
  have er : dot_S1024x1024_S1024x64_S1024x64_1_0_0_1_n_n.rhsIdx (ix2 q d) ((contrEquiv1 dot_S1024x1024_S1024x64_S1024x64_1_0_0_1_n_n 1024 rfl rfl).symm k) = ix2 k d := funext fun a => Fin.ext (by
    match a with
    | ⟨0, _⟩ => exact (pv64_rhs_row _ _).trans hk
    | ⟨1, _⟩ => exact pv64_rhs_col _ _)
  rw [el, er]

theorem pv16_lhs_row (j : S1024x16.Idx) (c : dot_S1024x1024_S1024x16_S1024x16_1_0_0_1_n_n.contr.Idx) :
    (dot_S1024x1024_S1024x16_S1024x16_1_0_0_1_n_n.lhsIdx j c 0).val = (j 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem pv16_lhs_col (j : S1024x16.Idx) (c : dot_S1024x1024_S1024x16_S1024x16_1_0_0_1_n_n.contr.Idx) :
    (dot_S1024x1024_S1024x16_S1024x16_1_0_0_1_n_n.lhsIdx j c 1).val = (c ⟨0, by decide⟩).val :=
  dot_S1024x1024_S1024x16_S1024x16_1_0_0_1_n_n.lhsIdx_val_of_single rfl j c
theorem pv16_rhs_row (j : S1024x16.Idx) (c : dot_S1024x1024_S1024x16_S1024x16_1_0_0_1_n_n.contr.Idx) :
    (dot_S1024x1024_S1024x16_S1024x16_1_0_0_1_n_n.rhsIdx j c 0).val = (c ⟨0, by decide⟩).val :=
  dot_S1024x1024_S1024x16_S1024x16_1_0_0_1_n_n.rhsIdx_val_of_single rfl j c
theorem pv16_rhs_col (j : S1024x16.Idx) (c : dot_S1024x1024_S1024x16_S1024x16_1_0_0_1_n_n.contr.Idx) :
    (dot_S1024x1024_S1024x16_S1024x16_1_0_0_1_n_n.rhsIdx j c 1).val = (j 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- Row `q` of the weights against column `d` of the 16 layout-value columns. -/
theorem pv16_apply (w : FVec Ideal S1024x1024 .bf16) (v : FVec Ideal S1024x16 .bf16) (q : Fin 1024) (d : Fin 16) :
    FloatOps.matmul dot_S1024x1024_S1024x16_S1024x16_1_0_0_1_n_n none w v (constant (F := Ideal) S1024x16 .f32 0x00000000#32) (ix2 q d)
      = ∑ k : Fin 1024, w (ix2 q k) * v (ix2 k d) := by
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 q d) ((contrEquiv1 dot_S1024x1024_S1024x16_S1024x16_1_0_0_1_n_n 1024 rfl rfl).symm k) = ix2 q k := funext fun a => Fin.ext (by
    match a with
    | ⟨0, _⟩ => exact pv16_lhs_row _ _
    | ⟨1, _⟩ => exact (pv16_lhs_col _ _).trans hk)
  have er : dot_S1024x1024_S1024x16_S1024x16_1_0_0_1_n_n.rhsIdx (ix2 q d) ((contrEquiv1 dot_S1024x1024_S1024x16_S1024x16_1_0_0_1_n_n 1024 rfl rfl).symm k) = ix2 k d := funext fun a => Fin.ext (by
    match a with
    | ⟨0, _⟩ => exact (pv16_rhs_row _ _).trans hk
    | ⟨1, _⟩ => exact pv16_rhs_col _ _)
  rw [el, er]

end Products

/-! ## Reductions over the key axis, the column broadcast, casts and slices -/

section Layout

/-- The reduced index `q` with key `k` put back is (q, k). -/
theorem lift_key (h : S1024x1024.Reduces [1] S1024) (q : Fin 1024) (k : Fin (S1024x1024.size 1)) :
    h.lift (ix1 q) k = ix2 q (⟨k.val, k.isLt⟩ : Fin 1024) := by
  funext c; apply Fin.ext
  fin_cases c <;> rfl

/-- The lane maximum over the key axis from `-∞`: the fold of `max` from `⊥` over the 1024 keys. -/
theorem rowmax_apply (v : FVec Ideal S1024x1024 .f32) (q : Fin 1024) :
    multiReduction .maximumf [1] S1024 v 0xFF800000#32 reduces_S1024x1024_S1024 (.inl rfl) rfl (ix1 q)
      = (Finset.univ : Finset (Fin 1024)).fold max ⊥ (fun k => v (ix2 q k)) := by
  refine (Ideal.multiReduction_maximumf_single v 0xFF800000#32 reduces_S1024x1024_S1024 (.inl rfl) rfl (ix1 q)).trans ?_
  have hf : (v ∘ reduces_S1024x1024_S1024.lift (ix1 q)) = fun k : Fin 1024 => v (ix2 q k) :=
    funext fun k => congrArg v (lift_key reduces_S1024x1024_S1024 q k)
  show Finset.fold max (Ideal.ofBits .f32 0xFF800000#32) (v ∘ reduces_S1024x1024_S1024.lift (ix1 q)) (Finset.univ : Finset (Fin 1024)) = _
  rw [ofBits_neg_inf]
  exact congrArg (fun f => Finset.fold max (⊥ : EReal) f (Finset.univ : Finset (Fin 1024))) hf

/-- The lane sum over the key axis from the zero word: the sum over the 1024 keys. -/
theorem rowsum_apply (v : FVec Ideal S1024x1024 .f32) (q : Fin 1024) :
    multiReduction .add [1] S1024 v 0x00000000#32 reduces_S1024x1024_S1024 (.inl rfl) rfl (ix1 q)
      = ∑ k : Fin 1024, v (ix2 q k) := by
  refine (Ideal.multiReduction_add_single v 0x00000000#32 reduces_S1024x1024_S1024 (.inl rfl) rfl (ix1 q)).trans ?_
  exact Finset.sum_congr rfl fun k _ => congrArg v (lift_key reduces_S1024x1024_S1024 q k)

/-- A per-row value put back at every key: [1024] → [1024,1] → [1024,1024] reads the row's entry. -/
theorem colbcast_apply (s : FVec Ideal S1024 .f32) (q k : Fin 1024) :
    broadcastTo S1024x1024 (shapeCast S1024x1 s shapeCasts_S1024_S1024x1) broadcasts_S1024x1_S1024x1024 (ix2 q k) = s (ix1 q) := by
  refine (broadcastTo_apply _ broadcasts_S1024x1_S1024x1024 (ix2 q k) (ix2 q (0 : Fin 1)) (fun a => by
    match a with
    | ⟨0, _⟩ => rfl
    | ⟨1, _⟩ => rfl)).trans ?_
  exact shapeCast_apply s shapeCasts_S1024_S1024x1 (ix2 q (0 : Fin 1)) (ix1 q) (by
    rw [Shape.rowMajor_val_one, Shape.rowMajor_val_two]
    show q.val = q.val * 1 + 0
    omega)

/-- Dropping the leading unit axis of a 64-column block. -/
theorem drop1_64 (v : Vec Ideal S1x1024x64 .bf16) (s : Fin 1024) (d : Fin 64) :
    shapeCast S1024x64 v shapeCasts_S1x1024x64_S1024x64 (ix2 s d) = v (ix3 (0 : Fin 1) s d) :=
  shapeCast_1ab_ab_apply v shapeCasts_S1x1024x64_S1024x64 s d

/-- Dropping the leading unit axis of a 32-column block. -/
theorem drop1_32 (v : Vec Ideal S1x1024x32 .bf16) (s : Fin 1024) (d : Fin 32) :
    shapeCast S1024x32 v shapeCasts_S1x1024x32_S1024x32 (ix2 s d) = v (ix3 (0 : Fin 1) s d) :=
  shapeCast_1ab_ab_apply v shapeCasts_S1x1024x32_S1024x32 s d

/-- Adding the leading unit axis back to 64 result columns. -/
theorem add1_64 (v : FVec Ideal S1024x64 .f32) (q : Fin 1024) (d : Fin 64) :
    shapeCast S1x1024x64 v shapeCasts_S1024x64_S1x1024x64 (ix3 (0 : Fin 1) q d) = v (ix2 q d) :=
  shapeCast_ab_1ab_apply v shapeCasts_S1024x64_S1x1024x64 0 q d

/-- Adding the leading unit axis back to 16 result columns. -/
theorem add1_16 (v : FVec Ideal S1024x16 .f32) (q : Fin 1024) (d : Fin 16) :
    shapeCast S1x1024x16 v shapeCasts_S1024x16_S1x1024x16 (ix3 (0 : Fin 1) q d) = v (ix2 q d) :=
  shapeCast_ab_1ab_apply v shapeCasts_S1024x16_S1x1024x16 0 q d

/-- Column `d` of the first 16 of 32 columns. -/
def lo16 (d : Fin 16) : Fin 32 := ⟨d.val, by omega⟩
/-- Column `d` of the second 16 of 32 columns. -/
def hi16 (d : Fin 16) : Fin 32 := ⟨16 + d.val, by omega⟩

/-- The first 16 of 32 columns. -/
theorem slice_lo16 (v : FVec Ideal S1024x32 .bf16) (s : Fin 1024) (d : Fin 16) :
    extractStridedSlice S1024x16 ![0, 0] v slices_S1024x32_o0_0_S1024x16 (ix2 s d) = v (ix2 s (lo16 d)) :=
  slice2_axis1_apply 0 v slices_S1024x32_o0_0_S1024x16 s d (lo16 d) (Nat.zero_add _).symm

/-- The second 16 of 32 columns. -/
theorem slice_hi16 (v : FVec Ideal S1024x32 .bf16) (s : Fin 1024) (d : Fin 16) :
    extractStridedSlice S1024x16 ![0, 16] v slices_S1024x32_o0_16_S1024x16 (ix2 s d) = v (ix2 s (hi16 d)) :=
  slice2_axis1_apply 16 v slices_S1024x32_o0_16_S1024x16 s d (hi16 d) rfl

end Layout

/-! ## The slices of the handed blocks, and the loads that read them -/

section Slices

/-- Column `64·j + d` of a 128-column block: coordinate `d` of head `j` of the pair. -/
def pcol (j : Fin 2) (d : Fin 64) : Fin 128 := ⟨64 * j.val + d.val, by omega⟩

/-- Column `192·sec + 32·hp + 16·j + d` of the layout block: coordinate `d` of head `j` of pair `hp` in
    section `sec` (0 the layout queries, 1 the keys, 2 the values). -/
def lcol (i : grid2.Coords) (sec : Fin 3) (j : Fin 2) (d : Fin 16) : Fin 576 :=
  ⟨192 * sec.val + 32 * (i 1).val + 16 * j.val + d.val, by have h6 : (i 1).val < 6 := (i 1).isLt; omega⟩

@[simp] theorem pcol_val (j : Fin 2) (d : Fin 64) : (pcol j d).val = 64 * j.val + d.val := rfl
@[simp] theorem lcol_val (i : grid2.Coords) (sec : Fin 3) (j : Fin 2) (d : Fin 16) :
    (lcol i sec j d).val = 192 * sec.val + 32 * (i 1).val + 16 * j.val + d.val := rfl

/-- Head `j`'s 64 columns of a 128-column block (queries, keys or values of the pair). -/
def hcol (y : Vec Ideal S1x1024x128 .bf16) (j : Fin 2) (s : Fin 1024) (d : Fin 64) : EReal :=
  y (ix3 (0 : Fin 1) s (pcol j d))

/-- Head `j`'s 16 layout-query columns of the batch entry's layout block, -/
def lqh (i : grid2.Coords) (yl : Vec Ideal S1x1024x576 .bf16) (j : Fin 2) (s : Fin 1024) (d : Fin 16) : EReal :=
  yl (ix3 (0 : Fin 1) s (lcol i 0 j d))

/-- its 16 layout-key columns, -/
def lkh (i : grid2.Coords) (yl : Vec Ideal S1x1024x576 .bf16) (j : Fin 2) (s : Fin 1024) (d : Fin 16) : EReal :=
  yl (ix3 (0 : Fin 1) s (lcol i 1 j d))

/-- and its 16 layout-value columns. -/
def lvh (i : grid2.Coords) (yl : Vec Ideal S1x1024x576 .bf16) (j : Fin 2) (s : Fin 1024) (d : Fin 16) : EReal :=
  yl (ix3 (0 : Fin 1) s (lcol i 2 j d))

/-- The first head's rectangle places (0, q, d) at column `d`, -/
theorem rH0_emb (q : Fin 1024) (d : Fin 64) : rH0.emb (ix3 (0 : Fin 1) q d) = ix3 (0 : Fin 1) q (pcol 0 d) :=
  funext fun a => Fin.ext (by
    match a with
    | ⟨0, _⟩ => rfl
    | ⟨1, _⟩ => show 0 + 1 * q.val = q.val; omega
    | ⟨2, _⟩ => show 0 + 1 * d.val = 64 * 0 + d.val; omega)

/-- the second head's at column `64 + d`. -/
theorem rH1_emb (q : Fin 1024) (d : Fin 64) : rH1.emb (ix3 (0 : Fin 1) q d) = ix3 (0 : Fin 1) q (pcol 1 d) :=
  funext fun a => Fin.ext (by
    match a with
    | ⟨0, _⟩ => rfl
    | ⟨1, _⟩ => show 0 + 1 * q.val = q.val; omega
    | ⟨2, _⟩ => show 64 + 1 * d.val = 64 * 1 + d.val; omega)

/-- The load through the first head's rectangle reads head 0's columns. -/
theorem ld_rH0 (y : Vec Ideal S1x1024x128 .bf16) (s : Fin 1024) (d : Fin 64) :
    View.ld y rH0 (ix3 (0 : Fin 1) s d) = hcol y 0 s d := congrArg y (rH0_emb s d)

/-- The load through the second head's rectangle reads head 1's columns. -/
theorem ld_rH1 (y : Vec Ideal S1x1024x128 .bf16) (s : Fin 1024) (d : Fin 64) :
    View.ld y rH1 (ix3 (0 : Fin 1) s d) = hcol y 1 s d := congrArg y (rH1_emb s d)

/-- The pair's 32 layout-query columns start at column 32·hp: its first 16 are head 0's, -/
theorem lq_lo (i : grid2.Coords) (yl : Vec Ideal S1x1024x576 .bf16) (s : Fin 1024) (d : Fin 16) :
    View.ld yl (rLq i) (ix3 (0 : Fin 1) s (lo16 d)) = lqh i yl 0 s d :=
  congrArg yl (funext fun a => Fin.ext (by
    have e0 : (k2_off1 i) (0 : Fin 3) = 0 := congrFun (k2_off1_eq i) 0
    have e1 : (k2_off1 i) (1 : Fin 3) = 0 := congrFun (k2_off1_eq i) 1
    have e2 : (k2_off1 i) (2 : Fin 3) = 32 * (i 1).val := congrFun (k2_off1_eq i) 2
    match a with
    | ⟨0, _⟩ => show (k2_off1 i) (0 : Fin 3) + 1 * 0 = 0; omega
    | ⟨1, _⟩ => show (k2_off1 i) (1 : Fin 3) + 1 * s.val = s.val; omega
    | ⟨2, _⟩ => show (k2_off1 i) (2 : Fin 3) + 1 * d.val = 192 * 0 + 32 * (i 1).val + 16 * 0 + d.val; omega))

/-- its second 16 head 1's. -/
theorem lq_hi (i : grid2.Coords) (yl : Vec Ideal S1x1024x576 .bf16) (s : Fin 1024) (d : Fin 16) :
    View.ld yl (rLq i) (ix3 (0 : Fin 1) s (hi16 d)) = lqh i yl 1 s d :=
  congrArg yl (funext fun a => Fin.ext (by
    have e0 : (k2_off1 i) (0 : Fin 3) = 0 := congrFun (k2_off1_eq i) 0
    have e1 : (k2_off1 i) (1 : Fin 3) = 0 := congrFun (k2_off1_eq i) 1
    have e2 : (k2_off1 i) (2 : Fin 3) = 32 * (i 1).val := congrFun (k2_off1_eq i) 2
    match a with
    | ⟨0, _⟩ => show (k2_off1 i) (0 : Fin 3) + 1 * 0 = 0; omega
    | ⟨1, _⟩ => show (k2_off1 i) (1 : Fin 3) + 1 * s.val = s.val; omega
    | ⟨2, _⟩ => show (k2_off1 i) (2 : Fin 3) + 1 * (16 + d.val) = 192 * 0 + 32 * (i 1).val + 16 * 1 + d.val; omega))

/-- The pair's 32 layout-key columns start at column 192 + 32·hp. -/
theorem lk_lo (i : grid2.Coords) (yl : Vec Ideal S1x1024x576 .bf16) (s : Fin 1024) (d : Fin 16) :
    View.ld yl (rLk i) (ix3 (0 : Fin 1) s (lo16 d)) = lkh i yl 0 s d :=
  congrArg yl (funext fun a => Fin.ext (by
    have e0 : (k2_off2 i 192#32) (0 : Fin 3) = 0 := congrFun (k2_off2_eq i ⟨0, by decide⟩) 0
    have e1 : (k2_off2 i 192#32) (1 : Fin 3) = 0 := congrFun (k2_off2_eq i ⟨0, by decide⟩) 1
    have e2 : (k2_off2 i 192#32) (2 : Fin 3) = 192 * 0 + 32 * (i 1).val + 192 := congrFun (k2_off2_eq i ⟨0, by decide⟩) 2
    match a with
    | ⟨0, _⟩ => show (k2_off2 i 192#32) (0 : Fin 3) + 1 * 0 = 0; omega
    | ⟨1, _⟩ => show (k2_off2 i 192#32) (1 : Fin 3) + 1 * s.val = s.val; omega
    | ⟨2, _⟩ => show (k2_off2 i 192#32) (2 : Fin 3) + 1 * d.val = 192 * 1 + 32 * (i 1).val + 16 * 0 + d.val; omega))

theorem lk_hi (i : grid2.Coords) (yl : Vec Ideal S1x1024x576 .bf16) (s : Fin 1024) (d : Fin 16) :
    View.ld yl (rLk i) (ix3 (0 : Fin 1) s (hi16 d)) = lkh i yl 1 s d :=
  congrArg yl (funext fun a => Fin.ext (by
    have e0 : (k2_off2 i 192#32) (0 : Fin 3) = 0 := congrFun (k2_off2_eq i ⟨0, by decide⟩) 0
    have e1 : (k2_off2 i 192#32) (1 : Fin 3) = 0 := congrFun (k2_off2_eq i ⟨0, by decide⟩) 1
    have e2 : (k2_off2 i 192#32) (2 : Fin 3) = 192 * 0 + 32 * (i 1).val + 192 := congrFun (k2_off2_eq i ⟨0, by decide⟩) 2
    match a with
    | ⟨0, _⟩ => show (k2_off2 i 192#32) (0 : Fin 3) + 1 * 0 = 0; omega
    | ⟨1, _⟩ => show (k2_off2 i 192#32) (1 : Fin 3) + 1 * s.val = s.val; omega
    | ⟨2, _⟩ => show (k2_off2 i 192#32) (2 : Fin 3) + 1 * (16 + d.val) = 192 * 1 + 32 * (i 1).val + 16 * 1 + d.val; omega))

/-- The pair's 32 layout-value columns start at column 384 + 32·hp. -/
theorem lv_lo (i : grid2.Coords) (yl : Vec Ideal S1x1024x576 .bf16) (s : Fin 1024) (d : Fin 16) :
    View.ld yl (rLv i) (ix3 (0 : Fin 1) s (lo16 d)) = lvh i yl 0 s d :=
  congrArg yl (funext fun a => Fin.ext (by
    have e0 : (k2_off2 i 384#32) (0 : Fin 3) = 0 := congrFun (k2_off2_eq i ⟨1, by decide⟩) 0
    have e1 : (k2_off2 i 384#32) (1 : Fin 3) = 0 := congrFun (k2_off2_eq i ⟨1, by decide⟩) 1
    have e2 : (k2_off2 i 384#32) (2 : Fin 3) = 192 * 1 + 32 * (i 1).val + 192 := congrFun (k2_off2_eq i ⟨1, by decide⟩) 2
    match a with
    | ⟨0, _⟩ => show (k2_off2 i 384#32) (0 : Fin 3) + 1 * 0 = 0; omega
    | ⟨1, _⟩ => show (k2_off2 i 384#32) (1 : Fin 3) + 1 * s.val = s.val; omega
    | ⟨2, _⟩ => show (k2_off2 i 384#32) (2 : Fin 3) + 1 * d.val = 192 * 2 + 32 * (i 1).val + 16 * 0 + d.val; omega))

theorem lv_hi (i : grid2.Coords) (yl : Vec Ideal S1x1024x576 .bf16) (s : Fin 1024) (d : Fin 16) :
    View.ld yl (rLv i) (ix3 (0 : Fin 1) s (hi16 d)) = lvh i yl 1 s d :=
  congrArg yl (funext fun a => Fin.ext (by
    have e0 : (k2_off2 i 384#32) (0 : Fin 3) = 0 := congrFun (k2_off2_eq i ⟨1, by decide⟩) 0
    have e1 : (k2_off2 i 384#32) (1 : Fin 3) = 0 := congrFun (k2_off2_eq i ⟨1, by decide⟩) 1
    have e2 : (k2_off2 i 384#32) (2 : Fin 3) = 192 * 1 + 32 * (i 1).val + 192 := congrFun (k2_off2_eq i ⟨1, by decide⟩) 2
    match a with
    | ⟨0, _⟩ => show (k2_off2 i 384#32) (0 : Fin 3) + 1 * 0 = 0; omega
    | ⟨1, _⟩ => show (k2_off2 i 384#32) (1 : Fin 3) + 1 * s.val = s.val; omega
    | ⟨2, _⟩ => show (k2_off2 i 384#32) (2 : Fin 3) + 1 * (16 + d.val) = 192 * 2 + 32 * (i 1).val + 16 * 1 + d.val; omega))

end Slices

/-! ## The shared chain: scores, shifted exponential, normalised weights -/

section Chain

/-- The one-head scores depend only on the entries of the four slices. -/
theorem comb1_congr {Q Q' K K' : Fin 1024 → Fin 64 → EReal} {LQ LQ' LK LK' : Fin 1024 → Fin 16 → EReal}
    (hQ : ∀ s e, Q s e = Q' s e) (hK : ∀ s e, K s e = K' s e) (hLQ : ∀ s e, LQ s e = LQ' s e)
    (hLK : ∀ s e, LK s e = LK' s e) : comb1 Q K LQ LK = comb1 Q' K' LQ' LK' := by
  have e1 : Q = Q' := funext fun s => funext fun e => hQ s e
  have e2 : K = K' := funext fun s => funext fun e => hK s e
  have e3 : LQ = LQ' := funext fun s => funext fun e => hLQ s e
  have e4 : LK = LK' := funext fun s => funext fun e => hLK s e
  rw [e1, e2, e3, e4]

/-- The two score products, each scaled by its literal, added. -/
def scores (a b : FVec Ideal S1024x64 .bf16) (c d : FVec Ideal S1024x16 .bf16) : FVec Ideal S1024x1024 .f32 :=
  addf
    (mulf (matmul dot_S1024x64_S1024x64_S1024x1024_1_1_0_0_n_n none a b (constant (F := Ideal) S1024x1024 .f32 0x00000000#32))
      (broadcast S1024x1024 (Scalar.ofBits (F := Ideal) .f32 0x3E000000#32)))
    (mulf (matmul dot_S1024x16_S1024x16_S1024x1024_1_1_0_0_n_n none c d (constant (F := Ideal) S1024x1024 .f32 0x00000000#32))
      (broadcast S1024x1024 (Scalar.ofBits (F := Ideal) .f32 0x3E800000#32)))

/-- The literals are 1/8 and 1/4, so these are the one-head scores of the four operands. -/
theorem scores_apply (a b : FVec Ideal S1024x64 .bf16) (c d : FVec Ideal S1024x16 .bf16) (q k : Fin 1024) :
    scores a b c d (ix2 q k)
      = comb1 (fun s e => a (ix2 s e)) (fun s e => b (ix2 s e)) (fun s e => c (ix2 s e)) (fun s e => d (ix2 s e)) q k := by
  unfold scores comb1
  refine (addf_apply _ _ _).trans ?_
  refine congrArg₂ (· + ·) ?_ ?_
  · refine (mulf_apply _ _ _).trans ?_
    exact congrArg₂ (· * ·) (qk64_apply a b q k) ofBits_eighth
  · refine (mulf_apply _ _ _).trans ?_
    exact congrArg₂ (· * ·) (qk16_apply c d q k) ofBits_quarter

/-- Scores shifted by their row maximum, exponentiated. -/
def shiftExp (c : FVec Ideal S1024x1024 .f32) : FVec Ideal S1024x1024 .f32 :=
  exp (subf c (broadcastTo S1024x1024
    (shapeCast S1024x1 (multiReduction .maximumf [1] S1024 c 0xFF800000#32 reduces_S1024x1024_S1024 (.inl rfl) rfl) shapeCasts_S1024_S1024x1)
    broadcasts_S1024x1_S1024x1024))

theorem shiftExp_apply (c : FVec Ideal S1024x1024 .f32) (q k : Fin 1024) :
    shiftExp c (ix2 q k) = pexp1 (fun q k => c (ix2 q k)) q k := by
  unfold shiftExp pexp1 rowMax1
  show Ideal.exp (c (ix2 q k) - broadcastTo S1024x1024
    (shapeCast S1024x1 (multiReduction .maximumf [1] S1024 c 0xFF800000#32 reduces_S1024x1024_S1024 (.inl rfl) rfl) shapeCasts_S1024_S1024x1)
    broadcasts_S1024x1_S1024x1024 (ix2 q k)) = _
  exact congrArg Ideal.exp (congrArg (c (ix2 q k) - ·) ((colbcast_apply _ q k).trans (rowmax_apply c q)))

/-- Weights divided by a per-row denominator, the format change the identity. -/
def normRows (w : FVec Ideal S1024x1024 .f32) (s : FVec Ideal S1024 .f32) : FVec Ideal S1024x1024 .bf16 :=
  truncf .bf16 (divf w (broadcastTo S1024x1024 (shapeCast S1024x1 s shapeCasts_S1024_S1024x1) broadcasts_S1024x1_S1024x1024)) bitsLt_bf16_f32

theorem normRows_apply (w : FVec Ideal S1024x1024 .f32) (s : FVec Ideal S1024 .f32) (q k : Fin 1024) :
    normRows w s (ix2 q k) = Ideal.div (w (ix2 q k)) (s (ix1 q)) := by
  unfold normRows
  show Ideal.div (w (ix2 q k))
    (broadcastTo S1024x1024 (shapeCast S1024x1 s shapeCasts_S1024_S1024x1) broadcasts_S1024x1_S1024x1024 (ix2 q k)) = _
  exact congrArg (Ideal.div (w (ix2 q k))) (colbcast_apply s q k)

end Chain

/-! ## The payloads -/

section PayloadReads

/-- Head 0's unnormalised weights, from what the four loaded blocks hold. -/
theorem k2_pay9_apply (v2 v6 : Vec Ideal S1x1024x32 .bf16) (v12 v14 : Vec Ideal S1x1024x64 .bf16)
    (Q K : Fin 1024 → Fin 64 → EReal) (LQ LK : Fin 1024 → Fin 16 → EReal)
    (hQ : ∀ s e, v12 (ix3 (0 : Fin 1) s e) = Q s e) (hK : ∀ s e, v14 (ix3 (0 : Fin 1) s e) = K s e)
    (hLQ : ∀ s e, v2 (ix3 (0 : Fin 1) s (lo16 e)) = LQ s e) (hLK : ∀ s e, v6 (ix3 (0 : Fin 1) s (lo16 e)) = LK s e)
    (q k : Fin 1024) : k2_pay9 (F := Ideal) v2 v6 v12 v14 (ix2 q k) = pexp1 (comb1 Q K LQ LK) q k := by
  have e : k2_pay9 (F := Ideal) v2 v6 v12 v14
      = shiftExp (scores (shapeCast S1024x64 v12 shapeCasts_S1x1024x64_S1024x64) (shapeCast S1024x64 v14 shapeCasts_S1x1024x64_S1024x64)
          (extractStridedSlice S1024x16 ![0, 0] (shapeCast S1024x32 v2 shapeCasts_S1x1024x32_S1024x32) slices_S1024x32_o0_0_S1024x16)
          (extractStridedSlice S1024x16 ![0, 0] (shapeCast S1024x32 v6 shapeCasts_S1x1024x32_S1024x32) slices_S1024x32_o0_0_S1024x16)) := rfl
  refine (congrFun e _).trans ((shiftExp_apply _ q k).trans ?_)
  refine congrArg (fun c => pexp1 c q k) ?_
  funext q' k'
  refine (scores_apply _ _ _ _ q' k').trans ?_
  exact congrFun (congrFun (comb1_congr
    (fun s e => (drop1_64 v12 s e).trans (hQ s e)) (fun s e => (drop1_64 v14 s e).trans (hK s e))
    (fun s e => ((slice_lo16 _ s e).trans (drop1_32 v2 s (lo16 e))).trans (hLQ s e))
    (fun s e => ((slice_lo16 _ s e).trans (drop1_32 v6 s (lo16 e))).trans (hLK s e))) q') k'

/-- Head 0's row sums. -/
theorem k2_pay10_apply (v2 v6 : Vec Ideal S1x1024x32 .bf16) (v12 v14 : Vec Ideal S1x1024x64 .bf16)
    (Q K : Fin 1024 → Fin 64 → EReal) (LQ LK : Fin 1024 → Fin 16 → EReal)
    (hQ : ∀ s e, v12 (ix3 (0 : Fin 1) s e) = Q s e) (hK : ∀ s e, v14 (ix3 (0 : Fin 1) s e) = K s e)
    (hLQ : ∀ s e, v2 (ix3 (0 : Fin 1) s (lo16 e)) = LQ s e) (hLK : ∀ s e, v6 (ix3 (0 : Fin 1) s (lo16 e)) = LK s e)
    (q : Fin 1024) : k2_pay10 (F := Ideal) v2 v6 v12 v14 (ix1 q) = den1 (comb1 Q K LQ LK) q := by
  have e : k2_pay10 (F := Ideal) v2 v6 v12 v14
      = multiReduction .add [1] S1024 (k2_pay9 (F := Ideal) v2 v6 v12 v14) 0x00000000#32 reduces_S1024x1024_S1024 (.inl rfl) rfl := rfl
  refine (congrFun e _).trans ((rowsum_apply _ q).trans ?_)
  exact Finset.sum_congr rfl fun k _ => k2_pay9_apply v2 v6 v12 v14 Q K LQ LK hQ hK hLQ hLK q k

/-- Head 1's unnormalised weights: the same chain on the second 16 layout columns. -/
theorem k2_pay16_apply (v3 v7 : FVec Ideal S1024x32 .bf16) (v48 v50 : Vec Ideal S1x1024x64 .bf16)
    (Q K : Fin 1024 → Fin 64 → EReal) (LQ LK : Fin 1024 → Fin 16 → EReal)
    (hQ : ∀ s e, v48 (ix3 (0 : Fin 1) s e) = Q s e) (hK : ∀ s e, v50 (ix3 (0 : Fin 1) s e) = K s e)
    (hLQ : ∀ s e, v3 (ix2 s (hi16 e)) = LQ s e) (hLK : ∀ s e, v7 (ix2 s (hi16 e)) = LK s e)
    (q k : Fin 1024) : k2_pay16 (F := Ideal) v3 v7 v48 v50 (ix2 q k) = pexp1 (comb1 Q K LQ LK) q k := by
  have e : k2_pay16 (F := Ideal) v3 v7 v48 v50
      = shiftExp (scores (shapeCast S1024x64 v48 shapeCasts_S1x1024x64_S1024x64) (shapeCast S1024x64 v50 shapeCasts_S1x1024x64_S1024x64)
          (extractStridedSlice S1024x16 ![0, 16] v3 slices_S1024x32_o0_16_S1024x16)
          (extractStridedSlice S1024x16 ![0, 16] v7 slices_S1024x32_o0_16_S1024x16)) := rfl
  refine (congrFun e _).trans ((shiftExp_apply _ q k).trans ?_)
  refine congrArg (fun c => pexp1 c q k) ?_
  funext q' k'
  refine (scores_apply _ _ _ _ q' k').trans ?_
  exact congrFun (congrFun (comb1_congr
    (fun s e => (drop1_64 v48 s e).trans (hQ s e)) (fun s e => (drop1_64 v50 s e).trans (hK s e))
    (fun s e => (slice_hi16 v3 s e).trans (hLQ s e)) (fun s e => (slice_hi16 v7 s e).trans (hLK s e))) q') k'

/-- Weights over a given denominator against 64 value columns. -/
theorem k2_pay12_apply (v17 : FVec Ideal S1024x64 .bf16) (v32 : FVec Ideal S1024x1024 .f32) (v33 : FVec Ideal S1024 .f32)
    (q : Fin 1024) (d : Fin 64) :
    k2_pay12 (F := Ideal) v17 v32 v33 (ix3 (0 : Fin 1) q d)
      = ∑ k : Fin 1024, Ideal.div (v32 (ix2 q k)) (v33 (ix1 q)) * v17 (ix2 k d) := by
  have e : k2_pay12 (F := Ideal) v17 v32 v33
      = shapeCast S1x1024x64 (matmul dot_S1024x1024_S1024x64_S1024x64_1_0_0_1_n_n none (normRows v32 v33) v17
          (constant (F := Ideal) S1024x64 .f32 0x00000000#32)) shapeCasts_S1024x64_S1x1024x64 := rfl
  refine (congrFun e _).trans ((add1_64 _ q d).trans ((pv64_apply _ _ q d).trans ?_))
  exact Finset.sum_congr rfl fun k _ => congrArg (· * v17 (ix2 k d)) (normRows_apply v32 v33 q k)

/-- Weights over a given denominator against 16 layout-value columns. -/
theorem k2_pay13_apply (v20 : FVec Ideal S1024x16 .bf16) (v32 : FVec Ideal S1024x1024 .f32) (v33 : FVec Ideal S1024 .f32)
    (q : Fin 1024) (d : Fin 16) :
    k2_pay13 (F := Ideal) v20 v32 v33 (ix3 (0 : Fin 1) q d)
      = ∑ k : Fin 1024, Ideal.div (v32 (ix2 q k)) (v33 (ix1 q)) * v20 (ix2 k d) := by
  have e : k2_pay13 (F := Ideal) v20 v32 v33
      = shapeCast S1x1024x16 (matmul dot_S1024x1024_S1024x16_S1024x16_1_0_0_1_n_n none (normRows v32 v33) v20
          (constant (F := Ideal) S1024x16 .f32 0x00000000#32)) shapeCasts_S1024x16_S1x1024x16 := rfl
  refine (congrFun e _).trans ((add1_16 _ q d).trans ((pv16_apply _ _ q d).trans ?_))
  exact Finset.sum_congr rfl fun k _ => congrArg (· * v20 (ix2 k d)) (normRows_apply v32 v33 q k)

/-- Weights over their own row sums against 64 value columns. -/
theorem k2_pay2_apply (v53 : FVec Ideal S1024x64 .bf16) (v68 : FVec Ideal S1024x1024 .f32) (q : Fin 1024) (d : Fin 64) :
    k2_pay2 (F := Ideal) v53 v68 (ix3 (0 : Fin 1) q d)
      = ∑ k : Fin 1024, Ideal.div (v68 (ix2 q k)) (∑ k' : Fin 1024, v68 (ix2 q k')) * v53 (ix2 k d) := by
  have e : k2_pay2 (F := Ideal) v53 v68
      = shapeCast S1x1024x64 (matmul dot_S1024x1024_S1024x64_S1024x64_1_0_0_1_n_n none
          (normRows v68 (multiReduction .add [1] S1024 v68 0x00000000#32 reduces_S1024x1024_S1024 (.inl rfl) rfl)) v53
          (constant (F := Ideal) S1024x64 .f32 0x00000000#32)) shapeCasts_S1024x64_S1x1024x64 := rfl
  refine (congrFun e _).trans ((add1_64 _ q d).trans ((pv64_apply _ _ q d).trans ?_))
  exact Finset.sum_congr rfl fun k _ => congrArg (· * v53 (ix2 k d))
    ((normRows_apply v68 _ q k).trans (congrArg (Ideal.div (v68 (ix2 q k))) (rowsum_apply v68 q)))

/-- Weights over their own row sums against 16 layout-value columns. -/
theorem k2_pay3_apply (v56 : FVec Ideal S1024x16 .bf16) (v68 : FVec Ideal S1024x1024 .f32) (q : Fin 1024) (d : Fin 16) :
    k2_pay3 (F := Ideal) v56 v68 (ix3 (0 : Fin 1) q d)
      = ∑ k : Fin 1024, Ideal.div (v68 (ix2 q k)) (∑ k' : Fin 1024, v68 (ix2 q k')) * v56 (ix2 k d) := by
  have e : k2_pay3 (F := Ideal) v56 v68
      = shapeCast S1x1024x16 (matmul dot_S1024x1024_S1024x16_S1024x16_1_0_0_1_n_n none
          (normRows v68 (multiReduction .add [1] S1024 v68 0x00000000#32 reduces_S1024x1024_S1024 (.inl rfl) rfl)) v56
          (constant (F := Ideal) S1024x16 .f32 0x00000000#32)) shapeCasts_S1024x16_S1x1024x16 := rfl
  refine (congrFun e _).trans ((add1_16 _ q d).trans ((pv16_apply _ _ q d).trans ?_))
  exact Finset.sum_congr rfl fun k _ => congrArg (· * v56 (ix2 k d))
    ((normRows_apply v68 _ q k).trans (congrArg (Ideal.div (v68 (ix2 q k))) (rowsum_apply v68 q)))

end PayloadReads

/-! ## The body's values -/

section Body

variable (i : grid2.Coords) (yq yk yv : Vec Ideal S1x1024x128 .bf16) (yl : Vec Ideal S1x1024x576 .bf16)

/-- Head 0's unnormalised weights are the one-head shifted exponentials of its four slices. -/
theorem wts0_apply (q k : Fin 1024) :
    wts0 (F := Ideal) i yq yk yl (ix2 q k) = pexp1 (comb1 (hcol yq 0) (hcol yk 0) (lqh i yl 0) (lkh i yl 0)) q k :=
  k2_pay9_apply (View.ld yl (rLq i)) (View.ld yl (rLk i)) (View.ld yq rH0) (View.ld yk rH0)
    (hcol yq 0) (hcol yk 0) (lqh i yl 0) (lkh i yl 0) (ld_rH0 yq) (ld_rH0 yk) (lq_lo i yl) (lk_lo i yl) q k

/-- Their row sums are the one-head denominators. -/
theorem den0_apply (q : Fin 1024) :
    den0 (F := Ideal) i yq yk yl (ix1 q) = den1 (comb1 (hcol yq 0) (hcol yk 0) (lqh i yl 0) (lkh i yl 0)) q :=
  k2_pay10_apply (View.ld yl (rLq i)) (View.ld yl (rLk i)) (View.ld yq rH0) (View.ld yk rH0)
    (hcol yq 0) (hcol yk 0) (lqh i yl 0) (lkh i yl 0) (ld_rH0 yq) (ld_rH0 yk) (lq_lo i yl) (lk_lo i yl) q

/-- Head 1's unnormalised weights likewise. -/
theorem wts1_apply (q k : Fin 1024) :
    wts1 (F := Ideal) i yq yk yl (ix2 q k) = pexp1 (comb1 (hcol yq 1) (hcol yk 1) (lqh i yl 1) (lkh i yl 1)) q k :=
  k2_pay16_apply (k2_pay4 (View.ld yl (rLq i))) (k2_pay5 (View.ld yl (rLk i))) (View.ld yq rH1) (View.ld yk rH1)
    (hcol yq 1) (hcol yk 1) (lqh i yl 1) (lkh i yl 1) (ld_rH1 yq) (ld_rH1 yk)
    (fun s e => (drop1_32 (View.ld yl (rLq i)) s (hi16 e)).trans (lq_hi i yl s e))
    (fun s e => (drop1_32 (View.ld yl (rLk i)) s (hi16 e)).trans (lk_hi i yl s e)) q k

/-- **Head 0's 64 context columns.** -/
theorem ctx0_apply (q : Fin 1024) (d : Fin 64) :
    ctx0 (F := Ideal) i yq yk yv yl (ix3 (0 : Fin 1) q d)
      = ∑ k : Fin 1024, prob1 (hcol yq 0) (hcol yk 0) (lqh i yl 0) (lkh i yl 0) q k * hcol yv 0 k d := by
  refine (k2_pay12_apply (k2_pay7 (View.ld yv rH0)) (wts0 i yq yk yl) (den0 i yq yk yl) q d).trans ?_
  refine Finset.sum_congr rfl fun k _ => congrArg₂ (· * ·) ?_ ?_
  · exact congrArg₂ Ideal.div (wts0_apply i yq yk yl q k) (den0_apply i yq yk yl q)
  · exact (drop1_64 (View.ld yv rH0) k d).trans (ld_rH0 yv k d)

/-- **Head 0's 16 layout-context columns.** -/
theorem lctx0_apply (q : Fin 1024) (d : Fin 16) :
    lctx0 (F := Ideal) i yq yk yl (ix3 (0 : Fin 1) q d)
      = ∑ k : Fin 1024, prob1 (hcol yq 0) (hcol yk 0) (lqh i yl 0) (lkh i yl 0) q k * lvh i yl 0 k d := by
  refine (k2_pay13_apply (k2_pay8 (View.ld yl (rLv i))) (wts0 i yq yk yl) (den0 i yq yk yl) q d).trans ?_
  refine Finset.sum_congr rfl fun k _ => congrArg₂ (· * ·) ?_ ?_
  · exact congrArg₂ Ideal.div (wts0_apply i yq yk yl q k) (den0_apply i yq yk yl q)
  · exact (slice_lo16 _ k d).trans ((drop1_32 (View.ld yl (rLv i)) k (lo16 d)).trans (lv_lo i yl k d))

/-- Head 1's weights over their own row sums are the one-head softmax weights. -/
theorem wts1_norm (q k : Fin 1024) :
    Ideal.div (wts1 (F := Ideal) i yq yk yl (ix2 q k)) (∑ k' : Fin 1024, wts1 (F := Ideal) i yq yk yl (ix2 q k'))
      = prob1 (hcol yq 1) (hcol yk 1) (lqh i yl 1) (lkh i yl 1) q k :=
  congrArg₂ Ideal.div (wts1_apply i yq yk yl q k) (Finset.sum_congr rfl fun k' _ => wts1_apply i yq yk yl q k')

/-- **Head 1's 64 context columns.** -/
theorem ctx1_apply (q : Fin 1024) (d : Fin 64) :
    ctx1 (F := Ideal) i yq yk yv yl (ix3 (0 : Fin 1) q d)
      = ∑ k : Fin 1024, prob1 (hcol yq 1) (hcol yk 1) (lqh i yl 1) (lkh i yl 1) q k * hcol yv 1 k d := by
  refine (k2_pay2_apply (k2_pay14 (View.ld yv rH1)) (wts1 i yq yk yl) q d).trans ?_
  refine Finset.sum_congr rfl fun k _ => congrArg₂ (· * ·) (wts1_norm i yq yk yl q k) ?_
  exact (drop1_64 (View.ld yv rH1) k d).trans (ld_rH1 yv k d)

/-- **Head 1's 16 layout-context columns.** -/
theorem lctx1_apply (q : Fin 1024) (d : Fin 16) :
    lctx1 (F := Ideal) i yq yk yl (ix3 (0 : Fin 1) q d)
      = ∑ k : Fin 1024, prob1 (hcol yq 1) (hcol yk 1) (lqh i yl 1) (lkh i yl 1) q k * lvh i yl 1 k d := by
  refine (k2_pay3_apply (k2_pay15 (k2_pay6 (View.ld yl (rLv i)))) (wts1 i yq yk yl) q d).trans ?_
  refine Finset.sum_congr rfl fun k _ => congrArg₂ (· * ·) (wts1_norm i yq yk yl q k) ?_
  exact (slice_hi16 _ k d).trans ((drop1_32 (View.ld yl (rLv i)) k (hi16 d)).trans (lv_hi i yl k d))

/-! ## The context block as the two stores leave it -/

/-- A column of head 0 is not under the second head's store, which starts at column 64. -/
theorem pcol0_not_mem_rH1 (q : Fin 1024) (d : Fin 64) : ix3 (0 : Fin 1) q (pcol 0 d) ∉ rH1.set := by
  rw [Rect.mem_set_unit]
  intro h
  have h2 := (h (2 : Fin 3)).1
  have hd : d.val < 64 := d.isLt
  have : (64 : ℕ) ≤ 64 * 0 + d.val := h2
  omega

/-- The context block at head 0's column `d`: off the second store, under the first. -/
theorem ctxOut_head0 (q : Fin 1024) (d : Fin 64) :
    ctxOut (F := Ideal) i yq yk yv yl (ix3 (0 : Fin 1) q (pcol 0 d))
      = ∑ k : Fin 1024, prob1 (hcol yq 0) (hcol yk 0) (lqh i yl 0) (lkh i yl 0) q k * hcol yv 0 k d := by
  unfold ctxOut
  have hn := View.canon_cons_of_not_mem
    (⟨rH1, ctx1 (F := Ideal) i yq yk yv yl⟩ : View.Piece (Elt Ideal) S1x1024x128 .f32)
    [(⟨rH0, ctx0 (F := Ideal) i yq yk yv yl⟩ : View.Piece (Elt Ideal) S1x1024x128 .f32)] (pcol0_not_mem_rH1 q d)
  have e := View.canon_cons_emb rH0 (ctx0 (F := Ideal) i yq yk yv yl)
    ([] : List (View.Piece (Elt Ideal) S1x1024x128 .f32)) (ix3 (0 : Fin 1) q d)
  rw [rH0_emb q d] at e
  exact hn.trans (e.trans (ctx0_apply i yq yk yv yl q d))

/-- The context block at head 1's column `64 + d`: under the second store, the later one. -/
theorem ctxOut_head1 (q : Fin 1024) (d : Fin 64) :
    ctxOut (F := Ideal) i yq yk yv yl (ix3 (0 : Fin 1) q (pcol 1 d))
      = ∑ k : Fin 1024, prob1 (hcol yq 1) (hcol yk 1) (lqh i yl 1) (lkh i yl 1) q k * hcol yv 1 k d := by
  unfold ctxOut
  have e := View.canon_cons_emb rH1 (ctx1 (F := Ideal) i yq yk yv yl)
    [(⟨rH0, ctx0 (F := Ideal) i yq yk yv yl⟩ : View.Piece (Elt Ideal) S1x1024x128 .f32)] (ix3 (0 : Fin 1) q d)
  rw [rH1_emb q d] at e
  exact e.trans (ctx1_apply i yq yk yv yl q d)

/-- **The context block at column 64·j + d holds head j's context.** -/
theorem ctxOut_apply (q : Fin 1024) (j : Fin 2) (d : Fin 64) :
    ctxOut (F := Ideal) i yq yk yv yl (ix3 (0 : Fin 1) q (pcol j d))
      = ∑ k : Fin 1024, prob1 (hcol yq j) (hcol yk j) (lqh i yl j) (lkh i yl j) q k * hcol yv j k d := by
  match j with
  | ⟨0, _⟩ => exact ctxOut_head0 i yq yk yv yl q d
  | ⟨1, _⟩ => exact ctxOut_head1 i yq yk yv yl q d

end Body

end Cert.KernelIdeal.HandValue

end
-- ==== Proof.KernelIdeal.AttnBlocks.lean ====
/-
  Where the attention region's blocks sit in their arrays.

  At grid point t = 6·n + hp (batch entry n, head pair hp) the six windows' blocks are: columns 128·hp … 128·hp+127 of
  the queries' section of the projected text stream (columns 0–767 of its 2304), the same columns of the keys' section
  (768–1535) and of the values' section (1536–2303), all of batch entry n; the whole projected layout block of batch
  entry n; columns 128·hp … 128·hp+127 of the context result; and the whole layout-context block of batch entry n.
-/
import proofs.«153588_j55336358642313_2_alg».proof.Proof.KernelIdeal.AttnData
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (V : (c : Dev nD) → (b : Ref sig .tc) → Buf (Elt Ideal) ((c : Thread nD τ).loc b))

/-- The windows' block indices over the grid: the batch entry on the leading axis; on the last axis the head pair,
    shifted by 6 and 12 sections for the keys and the values, and nothing for the two whole-row windows. -/
theorem idx_facts2 : ∀ t : Fin cfg2.N,
    (win2_0.index t (0 : Fin 3) = t.val / 6 ∧ win2_0.index t (1 : Fin 3) = 0 ∧ win2_0.index t (2 : Fin 3) = t.val % 6)
    ∧ (win2_1.index t (0 : Fin 3) = t.val / 6 ∧ win2_1.index t (1 : Fin 3) = 0 ∧ win2_1.index t (2 : Fin 3) = 6 + t.val % 6)
    ∧ (win2_2.index t (0 : Fin 3) = t.val / 6 ∧ win2_2.index t (1 : Fin 3) = 0 ∧ win2_2.index t (2 : Fin 3) = 12 + t.val % 6)
    ∧ (win2_3.index t (0 : Fin 3) = t.val / 6 ∧ win2_3.index t (1 : Fin 3) = 0 ∧ win2_3.index t (2 : Fin 3) = 0)
    ∧ (win2_4.index t (0 : Fin 3) = t.val / 6 ∧ win2_4.index t (1 : Fin 3) = 0 ∧ win2_4.index t (2 : Fin 3) = t.val % 6)
    ∧ (win2_5.index t (0 : Fin 3) = t.val / 6 ∧ win2_5.index t (1 : Fin 3) = 0 ∧ win2_5.index t (2 : Fin 3) = 0) :=
  (by decide +kernel : ∀ t : Fin grid2.N, _)

/-- The grid point's coordinates are the batch entry and the head pair. -/
theorem coords2 : ∀ t : Fin cfg2.N, ((grid2.coords t) 0).val = t.val / 6 ∧ ((grid2.coords t) 1).val = t.val % 6 :=
  (by decide +kernel : ∀ t : Fin grid2.N, _)

/-- Column j of the queries' block is column 128·hp + j of the text stream. -/
theorem blk2_q (c : Dev nD) (t : Fin cfg2.N) (s : Fin 1024) (j : Fin 128) (n : Fin 8) (o : Fin 2304)
    (hn : n.val = t.val / 6) (ho : o.val = 128 * (t.val % 6) + j.val) :
    (iblk2 V c 0 t : Vec Ideal S1x1024x128 .bf16) (ix3 0 s j) = (V c main_v10 : S8x1024x2304.Idx → EReal) (ix3 n s o) := by
  obtain ⟨⟨e0, e1, e2⟩, -⟩ := idx_facts2 t
  unfold iblk2
  rw [View.read_apply]
  show V c main_v10 _ = V c main_v10 _
  refine congrArg _ (funext fun a => Fin.ext ?_)
  match a with
  | ⟨0, _⟩ => show win2_0.index t (0 : Fin 3) * 1 + 1 * 0 = n.val; omega
  | ⟨1, _⟩ => show win2_0.index t (1 : Fin 3) * 1024 + 1 * s.val = s.val; omega
  | ⟨2, _⟩ => show win2_0.index t (2 : Fin 3) * 128 + 1 * j.val = o.val; omega

/-- Column j of the keys' block is column 768 + 128·hp + j. -/
theorem blk2_k (c : Dev nD) (t : Fin cfg2.N) (s : Fin 1024) (j : Fin 128) (n : Fin 8) (o : Fin 2304)
    (hn : n.val = t.val / 6) (ho : o.val = 768 + 128 * (t.val % 6) + j.val) :
    (iblk2 V c 1 t : Vec Ideal S1x1024x128 .bf16) (ix3 0 s j) = (V c main_v10 : S8x1024x2304.Idx → EReal) (ix3 n s o) := by
  obtain ⟨-, ⟨e0, e1, e2⟩, -⟩ := idx_facts2 t
  unfold iblk2
  rw [View.read_apply]
  show V c main_v10 _ = V c main_v10 _
  refine congrArg _ (funext fun a => Fin.ext ?_)
  match a with
  | ⟨0, _⟩ => show win2_1.index t (0 : Fin 3) * 1 + 1 * 0 = n.val; omega
  | ⟨1, _⟩ => show win2_1.index t (1 : Fin 3) * 1024 + 1 * s.val = s.val; omega
  | ⟨2, _⟩ => show win2_1.index t (2 : Fin 3) * 128 + 1 * j.val = o.val; omega

/-- Column j of the values' block is column 1536 + 128·hp + j. -/
theorem blk2_v (c : Dev nD) (t : Fin cfg2.N) (s : Fin 1024) (j : Fin 128) (n : Fin 8) (o : Fin 2304)
    (hn : n.val = t.val / 6) (ho : o.val = 1536 + 128 * (t.val % 6) + j.val) :
    (iblk2 V c 2 t : Vec Ideal S1x1024x128 .bf16) (ix3 0 s j) = (V c main_v10 : S8x1024x2304.Idx → EReal) (ix3 n s o) := by
  obtain ⟨-, -, ⟨e0, e1, e2⟩, -⟩ := idx_facts2 t
  unfold iblk2
  rw [View.read_apply]
  show V c main_v10 _ = V c main_v10 _
  refine congrArg _ (funext fun a => Fin.ext ?_)
  match a with
  | ⟨0, _⟩ => show win2_2.index t (0 : Fin 3) * 1 + 1 * 0 = n.val; omega
  | ⟨1, _⟩ => show win2_2.index t (1 : Fin 3) * 1024 + 1 * s.val = s.val; omega
  | ⟨2, _⟩ => show win2_2.index t (2 : Fin 3) * 128 + 1 * j.val = o.val; omega

/-- The layout block is the batch entry's rows of the layout stream. -/
theorem blk2_l (c : Dev nD) (t : Fin cfg2.N) (s : Fin 1024) (j : Fin 576) (n : Fin 8) (hn : n.val = t.val / 6) :
    (iblk2 V c 3 t : Vec Ideal S1x1024x576 .bf16) (ix3 0 s j) = (V c main_v11 : S8x1024x576.Idx → EReal) (ix3 n s j) := by
  obtain ⟨-, -, -, ⟨e0, e1, e2⟩, -⟩ := idx_facts2 t
  unfold iblk2
  rw [View.read_apply]
  show V c main_v11 _ = V c main_v11 _
  refine congrArg _ (funext fun a => Fin.ext ?_)
  match a with
  | ⟨0, _⟩ => show win2_3.index t (0 : Fin 3) * 1 + 1 * 0 = n.val; omega
  | ⟨1, _⟩ => show win2_3.index t (1 : Fin 3) * 1024 + 1 * s.val = s.val; omega
  | ⟨2, _⟩ => show win2_3.index t (2 : Fin 3) * 576 + 1 * j.val = j.val; omega

/-- Column j of the point's context block is column 128·hp + j of the context result. -/
theorem blk2_ctx (c : Dev nD) (F4 : Buf (Elt Ideal) ((c : Thread nD τ).loc main_v12_0)) (t : Fin cfg2.N) (s : Fin 1024) (j : Fin 128) (n : Fin 8) (o : Fin 768)
    (hn : n.val = t.val / 6) (ho : o.val = 128 * (t.val % 6) + j.val) :
    (((cfg2.win 4).blk t).view.read (Elt Ideal) F4 : Vec Ideal S1x1024x128 .f32) (ix3 0 s j) = (F4 : S8x1024x768.Idx → EReal) (ix3 n s o) := by
  obtain ⟨-, -, -, -, ⟨e0, e1, e2⟩, -⟩ := idx_facts2 t
  rw [View.read_apply]
  show F4 _ = F4 _
  refine congrArg _ (funext fun a => Fin.ext ?_)
  match a with
  | ⟨0, _⟩ => show win2_4.index t (0 : Fin 3) * 1 + 1 * 0 = n.val; omega
  | ⟨1, _⟩ => show win2_4.index t (1 : Fin 3) * 1024 + 1 * s.val = s.val; omega
  | ⟨2, _⟩ => show win2_4.index t (2 : Fin 3) * 128 + 1 * j.val = o.val; omega

/-- The point's layout-context block is the batch entry's rows of the layout-context result. -/
theorem blk2_lctx (c : Dev nD) (F5 : Buf (Elt Ideal) ((c : Thread nD τ).loc main_v12_1)) (t : Fin cfg2.N) (s : Fin 1024) (j : Fin 192) (n : Fin 8)
    (hn : n.val = t.val / 6) :
    (((cfg2.win 5).blk t).view.read (Elt Ideal) F5 : Vec Ideal S1x1024x192 .f32) (ix3 0 s j) = (F5 : S8x1024x192.Idx → EReal) (ix3 n s j) := by
  obtain ⟨-, -, -, -, -, ⟨e0, e1, e2⟩⟩ := idx_facts2 t
  rw [View.read_apply]
  show F5 _ = F5 _
  refine congrArg _ (funext fun a => Fin.ext ?_)
  match a with
  | ⟨0, _⟩ => show win2_5.index t (0 : Fin 3) * 1 + 1 * 0 = n.val; omega
  | ⟨1, _⟩ => show win2_5.index t (1 : Fin 3) * 1024 + 1 * s.val = s.val; omega
  | ⟨2, _⟩ => show win2_5.index t (2 : Fin 3) * 192 + 1 * j.val = j.val; omega

end Cert.KernelIdeal.HandValue

end
-- ==== Proof.KernelIdeal.LinValue.lean ====
import proofs.«153588_j55336358642313_2_alg».proof.Proof.KernelIdeal.Lin0
import proofs.«153588_j55336358642313_2_alg».proof.Proof.KernelIdeal.Lin1
import Idealize.ShloMosaic.Lib.ValueIdx
import Idealize.ShloMosaic.Lib.Pipeline.Value
import Idealize.ShloMosaic.PureOps.Ideal.Laws

/-!
# The two projections' output blocks, entry by entry, over the extended reals

At the idealized instance a change of float format is the identity and the matrix unit's product into a zero
accumulator is the plain sum of products.  So the block a projection's body leaves — one store of its payload
over the whole block — holds at row `r`, column `o`

  `∑ k, x r k * w o k + b 0 o`,

the row of the input block against the row of the weight (the weight is contracted along its second axis),
plus the bias at the column.
-/

noncomputable section

namespace Cert.KernelIdeal.HandValue

open Cert.KernelIdeal Cert.KernelIdeal.Gen Cert.KernelIdeal.Hand
open Idealize.ShloMosaic Idealize.ShloMosaic.ValueIdx
open scoped BigOperators

/-- The zero offsets of a whole-block access, as a constant function. -/
theorem zeros2 : (![0, 0] : Fin 2 → Nat) = fun _ => 0 := by
  funext a; match a with | ⟨0, _⟩ => rfl | ⟨1, _⟩ => rfl

/-! ## Region 0: `[1024, 768] · [2304, 768]ᵀ + [1, 2304]` -/

/-- The left operand of the contraction at output index `j` and contraction position `q`: row `j 0`, -/
theorem lhs0_row (j : S1024x2304.Idx) (q : dot_S1024x768_S2304x768_S1024x2304_1_1_0_0_n_n.contr.Idx) :
    (dot_S1024x768_S2304x768_S1024x2304_1_1_0_0_n_n.lhsIdx j q 0).val = (j 0).val := by
  unfold DotDims.lhsIdx
  rw [dif_neg (show ¬(0 : Fin S1024x768.rank) ∈ dot_S1024x768_S2304x768_S1024x2304_1_1_0_0_n_n.lhsBatch by decide), dif_pos (show (0 : Fin S1024x768.rank) ∈ dot_S1024x768_S2304x768_S1024x2304_1_1_0_0_n_n.lhsNonContracting by decide)]
  rfl
/-- column `q`; -/
theorem lhs0_col (j : S1024x2304.Idx) (q : dot_S1024x768_S2304x768_S1024x2304_1_1_0_0_n_n.contr.Idx) :
    (dot_S1024x768_S2304x768_S1024x2304_1_1_0_0_n_n.lhsIdx j q 1).val = (q ⟨0, by decide⟩).val :=
  dot_S1024x768_S2304x768_S1024x2304_1_1_0_0_n_n.lhsIdx_val_of_single rfl j q
/-- the right operand: row `j 1` (the weight is contracted along its second axis, so the product is with its transpose), -/
theorem rhs0_row (j : S1024x2304.Idx) (q : dot_S1024x768_S2304x768_S1024x2304_1_1_0_0_n_n.contr.Idx) :
    (dot_S1024x768_S2304x768_S1024x2304_1_1_0_0_n_n.rhsIdx j q 0).val = (j 1).val := by
  unfold DotDims.rhsIdx
  rw [dif_neg (show ¬(0 : Fin S2304x768.rank) ∈ dot_S1024x768_S2304x768_S1024x2304_1_1_0_0_n_n.rhsBatch by decide), dif_pos (show (0 : Fin S2304x768.rank) ∈ dot_S1024x768_S2304x768_S1024x2304_1_1_0_0_n_n.rhsNonContracting by decide)]
  rfl
/-- column `q`. -/
theorem rhs0_col (j : S1024x2304.Idx) (q : dot_S1024x768_S2304x768_S1024x2304_1_1_0_0_n_n.contr.Idx) :
    (dot_S1024x768_S2304x768_S1024x2304_1_1_0_0_n_n.rhsIdx j q 1).val = (q ⟨0, by decide⟩).val :=
  dot_S1024x768_S2304x768_S1024x2304_1_1_0_0_n_n.rhsIdx_val_of_single rfl j q

/-- The matrix product into a zero accumulator, at row `r` and column `o`: the sum over the 768 contracted
    positions of the products of row `r` of the left operand and row `o` of the right one. -/
theorem matmul0_apply (a : FVec Ideal S1024x768 .bf16) (b : FVec Ideal S2304x768 .bf16) (r : Fin 1024) (o : Fin 2304) :
    FloatOps.matmul dot_S1024x768_S2304x768_S1024x2304_1_1_0_0_n_n none a b (constant (F := Ideal) S1024x2304 .f32 0x00000000#32) (ix2 r o)
      = ∑ k : Fin 768, a (ix2 r k) * b (ix2 o k) := by
  rw [Ideal.matmul_constant_zero_apply, ← Equiv.sum_comp (contrEquiv1 dot_S1024x768_S2304x768_S1024x2304_1_1_0_0_n_n 768 rfl rfl).symm]
  refine Finset.sum_congr rfl fun k _ => ?_
  have hk := contrEquiv1_symm_val dot_S1024x768_S2304x768_S1024x2304_1_1_0_0_n_n 768 rfl rfl k
  have el : dot_S1024x768_S2304x768_S1024x2304_1_1_0_0_n_n.lhsIdx (ix2 r o) ((contrEquiv1 dot_S1024x768_S2304x768_S1024x2304_1_1_0_0_n_n 768 rfl rfl).symm k) = ix2 r k := funext fun a => Fin.ext (by
    match a with
    | ⟨0, _⟩ => exact lhs0_row _ _
    | ⟨1, _⟩ => exact (lhs0_col _ _).trans hk)
  have er : dot_S1024x768_S2304x768_S1024x2304_1_1_0_0_n_n.rhsIdx (ix2 r o) ((contrEquiv1 dot_S1024x768_S2304x768_S1024x2304_1_1_0_0_n_n 768 rfl rfl).symm k) = ix2 o k := funext fun a => Fin.ext (by
    match a with
    | ⟨0, _⟩ => exact rhs0_row _ _
    | ⟨1, _⟩ => exact (rhs0_col _ _).trans hk)
  rw [el, er]

/-- The bias row broadcast down the 1024 rows reads the bias at the column. -/
theorem bias0_apply (v : FVec Ideal S1x2304 .f32) (r : Fin 1024) (o : Fin 2304) :
    broadcastTo S1024x2304 v broadcasts_S1x2304_S1024x2304 (ix2 r o) = v (ix2 0 o) :=
  broadcastTo_apply v broadcasts_S1x2304_S1024x2304 (ix2 r o) (ix2 0 o) (fun a => by
    match a with
    | ⟨0, _⟩ => rfl
    | ⟨1, _⟩ => rfl)

/-- The payload at an index: the changes of format are the identity on extended reals, the casts are to the same
    shape, and what is left is the product's sum plus the bias. -/
theorem k0_pay1_apply (v0 : Vec Ideal S1024x768 .f32) (v3 : Vec Ideal S2304x768 .f32) (v7 : Vec Ideal S1x2304 .f32) (r : Fin 1024) (o : Fin 2304) :
    k0_pay1 (F := Ideal) v0 v3 v7 (ix2 r o) = (∑ k : Fin 768, v0 (ix2 r k) * v3 (ix2 o k)) + v7 (ix2 0 o) := by
  unfold k0_pay1
  rw [shapeCast_self, shapeCast_self, shapeCast_self]
  refine (addf_apply _ _ _).trans ?_
  refine congrArg₂ (· + ·) ?_ ?_
  · exact matmul0_apply _ _ r o
  · exact bias0_apply _ r o

/-- What the output block holds at row `r`, column `o` after the body, from the three input blocks. -/
theorem out0_3_apply (x0 : Vec Ideal S1024x768 .f32) (x1 : Vec Ideal S2304x768 .f32) (x2 : Vec Ideal S1x2304 .f32) (r : Fin 1024) (o : Fin 2304) :
    out0_3 (F := Ideal) x0 x1 x2 (ValueIdx.ix2 r o)
      = (∑ k : Fin 768, x0 (ValueIdx.ix2 r k) * x1 (ValueIdx.ix2 o k)) + x2 (ValueIdx.ix2 0 o) := by
  unfold out0_3
  rw [View.canon_unit_zero zeros2]
  simp only [View.ld_unit_zero (S := S1024x768) zeros2, View.ld_unit_zero (S := S2304x768) zeros2, View.ld_unit_zero (S := S1x2304) zeros2]
  exact k0_pay1_apply x0 x1 x2 r o

/-! ## Region 1: `[1024, 192] · [576, 192]ᵀ + [1, 576]` -/

/-- The left operand of the contraction at output index `j` and contraction position `q`: row `j 0`, -/
theorem lhs1_row (j : S1024x576.Idx) (q : dot_S1024x192_S576x192_S1024x576_1_1_0_0_n_n.contr.Idx) :
    (dot_S1024x192_S576x192_S1024x576_1_1_0_0_n_n.lhsIdx j q 0).val = (j 0).val := by
  unfold DotDims.lhsIdx
  rw [dif_neg (show ¬(0 : Fin S1024x192.rank) ∈ dot_S1024x192_S576x192_S1024x576_1_1_0_0_n_n.lhsBatch by decide), dif_pos (show (0 : Fin S1024x192.rank) ∈ dot_S1024x192_S576x192_S1024x576_1_1_0_0_n_n.lhsNonContracting by decide)]
  rfl
/-- column `q`; -/
theorem lhs1_col (j : S1024x576.Idx) (q : dot_S1024x192_S576x192_S1024x576_1_1_0_0_n_n.contr.Idx) :
    (dot_S1024x192_S576x192_S1024x576_1_1_0_0_n_n.lhsIdx j q 1).val = (q ⟨0, by decide⟩).val :=
  dot_S1024x192_S576x192_S1024x576_1_1_0_0_n_n.lhsIdx_val_of_single rfl j q
/-- the right operand: row `j 1` (the weight is contracted along its second axis, so the product is with its transpose), -/
theorem rhs1_row (j : S1024x576.Idx) (q : dot_S1024x192_S576x192_S1024x576_1_1_0_0_n_n.contr.Idx) :
    (dot_S1024x192_S576x192_S1024x576_1_1_0_0_n_n.rhsIdx j q 0).val = (j 1).val := by
  unfold DotDims.rhsIdx
  rw [dif_neg (show ¬(0 : Fin S576x192.rank) ∈ dot_S1024x192_S576x192_S1024x576_1_1_0_0_n_n.rhsBatch by decide), dif_pos (show (0 : Fin S576x192.rank) ∈ dot_S1024x192_S576x192_S1024x576_1_1_0_0_n_n.rhsNonContracting by decide)]
  rfl
/-- column `q`. -/
theorem rhs1_col (j : S1024x576.Idx) (q : dot_S1024x192_S576x192_S1024x576_1_1_0_0_n_n.contr.Idx) :
    (dot_S1024x192_S576x192_S1024x576_1_1_0_0_n_n.rhsIdx j q 1).val = (q ⟨0, by decide⟩).val :=
  dot_S1024x192_S576x192_S1024x576_1_1_0_0_n_n.rhsIdx_val_of_single rfl j q

/-- The matrix product into a zero accumulator, at row `r` and column `o`: the sum over the 192 contracted
    positions of the products of row `r` of the left operand and row `o` of the right one. -/
theorem matmul1_apply (a : FVec Ideal S1024x192 .bf16) (b : FVec Ideal S576x192 .bf16) (r : Fin 1024) (o : Fin 576) :
    FloatOps.matmul dot_S1024x192_S576x192_S1024x576_1_1_0_0_n_n none a b (constant (F := Ideal) S1024x576 .f32 0x00000000#32) (ix2 r o)
      = ∑ k : Fin 192, a (ix2 r k) * b (ix2 o k) := by
  rw [Ideal.matmul_constant_zero_apply, ← Equiv.sum_comp (contrEquiv1 dot_S1024x192_S576x192_S1024x576_1_1_0_0_n_n 192 rfl rfl).symm]
  refine Finset.sum_congr rfl fun k _ => ?_
  have hk := contrEquiv1_symm_val dot_S1024x192_S576x192_S1024x576_1_1_0_0_n_n 192 rfl rfl k
  have el : dot_S1024x192_S576x192_S1024x576_1_1_0_0_n_n.lhsIdx (ix2 r o) ((contrEquiv1 dot_S1024x192_S576x192_S1024x576_1_1_0_0_n_n 192 rfl rfl).symm k) = ix2 r k := funext fun a => Fin.ext (by
    match a with
    | ⟨0, _⟩ => exact lhs1_row _ _
    | ⟨1, _⟩ => exact (lhs1_col _ _).trans hk)
  have er : dot_S1024x192_S576x192_S1024x576_1_1_0_0_n_n.rhsIdx (ix2 r o) ((contrEquiv1 dot_S1024x192_S576x192_S1024x576_1_1_0_0_n_n 192 rfl rfl).symm k) = ix2 o k := funext fun a => Fin.ext (by
    match a with
    | ⟨0, _⟩ => exact rhs1_row _ _
    | ⟨1, _⟩ => exact (rhs1_col _ _).trans hk)
  rw [el, er]

/-- The bias row broadcast down the 1024 rows reads the bias at the column. -/
theorem bias1_apply (v : FVec Ideal S1x576 .f32) (r : Fin 1024) (o : Fin 576) :
    broadcastTo S1024x576 v broadcasts_S1x576_S1024x576 (ix2 r o) = v (ix2 0 o) :=
  broadcastTo_apply v broadcasts_S1x576_S1024x576 (ix2 r o) (ix2 0 o) (fun a => by
    match a with
    | ⟨0, _⟩ => rfl
    | ⟨1, _⟩ => rfl)

/-- The payload at an index: the changes of format are the identity on extended reals, the casts are to the same
    shape, and what is left is the product's sum plus the bias. -/
theorem k1_pay1_apply (v0 : Vec Ideal S1024x192 .f32) (v3 : Vec Ideal S576x192 .f32) (v7 : Vec Ideal S1x576 .f32) (r : Fin 1024) (o : Fin 576) :
    k1_pay1 (F := Ideal) v0 v3 v7 (ix2 r o) = (∑ k : Fin 192, v0 (ix2 r k) * v3 (ix2 o k)) + v7 (ix2 0 o) := by
  unfold k1_pay1
  rw [shapeCast_self, shapeCast_self, shapeCast_self]
  refine (addf_apply _ _ _).trans ?_
  refine congrArg₂ (· + ·) ?_ ?_
  · exact matmul1_apply _ _ r o
  · exact bias1_apply _ r o

/-- What the output block holds at row `r`, column `o` after the body, from the three input blocks. -/
theorem out1_3_apply (x0 : Vec Ideal S1024x192 .f32) (x1 : Vec Ideal S576x192 .f32) (x2 : Vec Ideal S1x576 .f32) (r : Fin 1024) (o : Fin 576) :
    out1_3 (F := Ideal) x0 x1 x2 (ValueIdx.ix2 r o)
      = (∑ k : Fin 192, x0 (ValueIdx.ix2 r k) * x1 (ValueIdx.ix2 o k)) + x2 (ValueIdx.ix2 0 o) := by
  unfold out1_3
  rw [View.canon_unit_zero zeros2]
  simp only [View.ld_unit_zero (S := S1024x192) zeros2, View.ld_unit_zero (S := S576x192) zeros2, View.ld_unit_zero (S := S1x576) zeros2]
  exact k1_pay1_apply x0 x1 x2 r o

end Cert.KernelIdeal.HandValue

end
-- ==== Proof.KernelIdeal.LinArray.lean ====
import proofs.«153588_j55336358642313_2_alg».proof.Proof.KernelIdeal.LinValue
import Idealize.ShloMosaic.Lib.Pipeline.Value
import Idealize.ShloMosaic.Lib.Pipeline.Cells
import Idealize.ShloMosaic.Lib.Tactic

/-!
# The two projections' output arrays after their regions, entry by entry

A projection's grid has eight points; point `t` writes back rows `1024·t … 1024·t + 1023` of the output.
Each written block is the restriction of one function of the three input arrays — row `r` of `x` against row
`o` of `w`, plus the bias at `o` —, because the point's block of `x` is those same rows and the weight and the
bias are whole.  The eight blocks cover the array (row `r` is in the block of point `r / 1024`), so after the
region the array is that function; the input arrays are never written back.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-! ## Region 0: from the eight row blocks to the array `main_v7` -/

/-- The projection at row `r` of `x` and row `o` of `w`: the sum of products along the 768 columns, plus the bias
    at `o`. -/
def lin0 (x : S8192x768.Idx → EReal) (w : S2304x768.Idx → EReal) (b : S1x2304.Idx → EReal) (r : Fin 8192) (o : Fin 2304) : EReal :=
  (∑ k : Fin 768, x (ix2 r k) * w (ix2 o k)) + b (ix2 0 o)

theorem lin0_eq (x : S8192x768.Idx → EReal) (w : S2304x768.Idx → EReal) (b : S1x2304.Idx → EReal) (r : Fin 8192) (o : Fin 2304) :
    lin0 x w b r o = (∑ k : Fin 768, x (ix2 r k) * w (ix2 o k)) + b (ix2 0 o) := rfl

/-- The whole output array as one function of the three input arrays. -/
def G0 (x : S8192x768.Idx → EReal) (w : S2304x768.Idx → EReal) (b : S1x2304.Idx → EReal) : S8192x2304.Idx → EReal :=
  fun i => lin0 x w b ⟨(i 0).val, idx2_lt0 i⟩ ⟨(i 1).val, idx2_lt1 i⟩

theorem G0_apply (x : S8192x768.Idx → EReal) (w : S2304x768.Idx → EReal) (b : S1x2304.Idx → EReal) (r : Fin 8192) (o : Fin 2304) :
    G0 x w b (ix2 r o) = (∑ k : Fin 768, x (ix2 r k) * w (ix2 o k)) + b (ix2 0 o) := rfl

/-- The block index maps, decided over the eight points: the row block of `x` and of the output is the point, the
    weight and the bias are one block each. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the point's block of `x` is row `1024·t + p` of the array. -/
theorem blk0_x (c : Dev nD) (t : Fin cfg0.N) (p : Fin 1024) (k : Fin 768) (r : Fin 8192) (hr : r.val = 1024 * t.val + p.val) :
    (iblk0 V c 0 t : Vec Ideal S1024x768 .f32) (ix2 p k) = (V c main_v4 : S8192x768.Idx → EReal) (ix2 r k) := by
  obtain ⟨e0, e1, -⟩ := idx_facts0 t
  unfold iblk0
  rw [View.read_apply]
  show V c main_v4 _ = V c main_v4 _
  refine congrArg _ (funext fun a => Fin.ext ?_)
  match a with
  | ⟨0, _⟩ => show win0_0.index t (0 : Fin 2) * 1024 + 1 * p.val = r.val; omega
  | ⟨1, _⟩ => show win0_0.index t (1 : Fin 2) * 768 + 1 * k.val = k.val; omega

/-- The weight's one block is the array. -/
theorem blk0_w (c : Dev nD) (t : Fin cfg0.N) (o : Fin 2304) (k : Fin 768) :
    (iblk0 V c 1 t : Vec Ideal S2304x768 .f32) (ix2 o k) = (V c main_v0 : S2304x768.Idx → EReal) (ix2 o k) := by
  obtain ⟨-, -, e0, e1, -⟩ := idx_facts0 t
  unfold iblk0
  rw [View.read_apply]
  show V c main_v0 _ = V c main_v0 _
  refine congrArg _ (funext fun a => Fin.ext ?_)
  match a with
  | ⟨0, _⟩ => show win0_1.index t (0 : Fin 2) * 2304 + 1 * o.val = o.val; omega
  | ⟨1, _⟩ => show win0_1.index t (1 : Fin 2) * 768 + 1 * k.val = k.val; omega

/-- The bias's one block is the array. -/
theorem blk0_b (c : Dev nD) (t : Fin cfg0.N) (z : Fin 1) (o : Fin 2304) :
    (iblk0 V c 2 t : Vec Ideal S1x2304 .f32) (ix2 z o) = (V c main_v6 : S1x2304.Idx → EReal) (ix2 z o) := by
  obtain ⟨-, -, -, -, e0, e1, -⟩ := idx_facts0 t
  unfold iblk0
  rw [View.read_apply]
  show V c main_v6 _ = V c main_v6 _
  refine congrArg _ (funext fun a => Fin.ext ?_)
  match a with
  | ⟨0, _⟩ => show win0_2.index t (0 : Fin 2) * 1 + 1 * z.val = z.val; omega
  | ⟨1, _⟩ => show win0_2.index t (1 : Fin 2) * 2304 + 1 * o.val = o.val; omega

/-- What point `t` writes back is block `t` of `G0` of the arrays as the region finds them. -/
theorem flushed0_eq (c : Dev nD) (t : Fin cfg0.N) :
    (dat0 (F := Ideal) V c).flushed 3 t
      = ((cfg0.win 3).blk t).view.read (Elt Ideal) (G0 (V c main_v4) (V c main_v0) (V c main_v6)) := by
  show (cfg0.win 3).cut (grid0.coords t) ((dat0 (F := Ideal) V c).after 3 t) = _
  rw [after0_3]
  funext j
  obtain ⟨p, q, rfl⟩ : ∃ (p : Fin 1024) (q : Fin 2304), j = ix2 p q := ⟨j 0, j 1, eq_ix2 j⟩
  obtain ⟨-, -, -, -, -, -, e0, e1⟩ := idx_facts0 t
  have hN : cfg0.N = 8 := N_0
  have ht : t.val < 8 := hN ▸ t.isLt
  refine (out0_3_apply _ _ _ p q).trans ?_
  rw [View.read_apply]
  have hr : 1024 * t.val + p.val < 8192 := by have := p.isLt; omega
  have hi : ((cfg0.win 3).blk t).view.emb (ix2 p q) = (ix2 (⟨1024 * t.val + p.val, hr⟩ : Fin 8192) q : S8192x2304.Idx) := by
    funext a; apply Fin.ext
    match a with
    | ⟨0, _⟩ => show win0_3.index t (0 : Fin 2) * 1024 + 1 * p.val = 1024 * t.val + p.val; omega
    | ⟨1, _⟩ => show win0_3.index t (1 : Fin 2) * 2304 + 1 * q.val = q.val; omega
  rw [hi, G0_apply]
  refine congrArg₂ (· + ·) (Finset.sum_congr rfl fun k _ => congrArg₂ (· * ·) ?_ ?_) ?_
  · exact blk0_x V c t p k _ rfl
  · exact blk0_w V c t q k
  · exact blk0_b V c t 0 q

/-- Every index of the array is in the block of the point its row falls in. -/
theorem cover0 (i : S8192x2304.Idx) :
    ∃ t : Fin cfg0.N, (cfg0.win 3).flush t = true ∧ i ∈ ((cfg0.win 3).blk t).view.set := by
  have hN : cfg0.N = 8 := N_0
  have h0 : (i 0).val < 8192 := idx2_lt0 i
  have h1 : (i 1).val < 2304 := idx2_lt1 i
  obtain ⟨t, ht⟩ : ∃ t : Fin cfg0.N, t.val = (i 0).val / 1024 := ⟨⟨(i 0).val / 1024, by rw [hN]; omega⟩, rfl⟩
  refine ⟨t, flush0_3 t, ?_⟩
  obtain ⟨-, -, -, -, -, -, e0, e1⟩ := idx_facts0 t
  show i ∈ ((View.whole main_v7).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 2304 ≤ (i 1).val ∧ (i 1).val < win0_3.index t (1 : Fin 2) * 2304 + 2304
    omega

/-- The output array after the region's eight write-backs is `G0` of the three input arrays as the region found them. -/
theorem arr0_eq (c : Dev nD) :
    (dat0 (F := Ideal) V c).arrAt 3 cfg0.N = G0 (V c main_v4) (V c main_v0) (V c main_v6) :=
  (dat0 (F := Ideal) V c).arrAt_eq_of_cover 3 (G0 (V c main_v4) (V c main_v0) (V c main_v6)) (fun t _ => flushed0_eq V c t) (cover0)

/-- Entry by entry. -/
theorem arr0_final (c : Dev nD) (r : Fin 8192) (o : Fin 2304) :
    ((dat0 (F := Ideal) V c).arrAt 3 cfg0.N : S8192x2304.Idx → EReal) (ix2 r o)
      = lin0 (V c main_v4) (V c main_v0) (V c main_v6) r o := by
  rw [arr0_eq]; rfl

/-- The three input arrays end as the region found them: no write-back goes to an input window's array. -/
theorem arr0_in (c : Dev nD) (w : Fin cfg0.W) (hw : w.val < 3) :
    (dat0 (F := Ideal) V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
  rw [(dat0 (F := Ideal) V c).arrAt_in w hin cfg0.N, A_eq0]

/-! ## Region 1: from the eight row blocks to the array `main_v9` -/

/-- The projection at row `r` of `x` and row `o` of `w`: the sum of products along the 192 columns, plus the bias
    at `o`. -/
def lin1 (x : S8192x192.Idx → EReal) (w : S576x192.Idx → EReal) (b : S1x576.Idx → EReal) (r : Fin 8192) (o : Fin 576) : EReal :=
  (∑ k : Fin 192, x (ix2 r k) * w (ix2 o k)) + b (ix2 0 o)

theorem lin1_eq (x : S8192x192.Idx → EReal) (w : S576x192.Idx → EReal) (b : S1x576.Idx → EReal) (r : Fin 8192) (o : Fin 576) :
    lin1 x w b r o = (∑ k : Fin 192, x (ix2 r k) * w (ix2 o k)) + b (ix2 0 o) := rfl

/-- The whole output array as one function of the three input arrays. -/
def G1 (x : S8192x192.Idx → EReal) (w : S576x192.Idx → EReal) (b : S1x576.Idx → EReal) : S8192x576.Idx → EReal :=
  fun i => lin1 x w b ⟨(i 0).val, idx2_lt0 i⟩ ⟨(i 1).val, idx2_lt1 i⟩

theorem G1_apply (x : S8192x192.Idx → EReal) (w : S576x192.Idx → EReal) (b : S1x576.Idx → EReal) (r : Fin 8192) (o : Fin 576) :
    G1 x w b (ix2 r o) = (∑ k : Fin 192, x (ix2 r k) * w (ix2 o k)) + b (ix2 0 o) := rfl

/-- The block index maps, decided over the eight points: the row block of `x` and of the output is the point, the
    weight and the bias are one block each. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the point's block of `x` is row `1024·t + p` of the array. -/
theorem blk1_x (c : Dev nD) (t : Fin cfg1.N) (p : Fin 1024) (k : Fin 192) (r : Fin 8192) (hr : r.val = 1024 * t.val + p.val) :
    (iblk1 V c 0 t : Vec Ideal S1024x192 .f32) (ix2 p k) = (V c main_v5 : S8192x192.Idx → EReal) (ix2 r k) := by
  obtain ⟨e0, e1, -⟩ := idx_facts1 t
  unfold iblk1
  rw [View.read_apply]
  show V c main_v5 _ = V c main_v5 _
  refine congrArg _ (funext fun a => Fin.ext ?_)
  match a with
  | ⟨0, _⟩ => show win1_0.index t (0 : Fin 2) * 1024 + 1 * p.val = r.val; omega
  | ⟨1, _⟩ => show win1_0.index t (1 : Fin 2) * 192 + 1 * k.val = k.val; omega

/-- The weight's one block is the array. -/
theorem blk1_w (c : Dev nD) (t : Fin cfg1.N) (o : Fin 576) (k : Fin 192) :
    (iblk1 V c 1 t : Vec Ideal S576x192 .f32) (ix2 o k) = (V c main_v2 : S576x192.Idx → EReal) (ix2 o k) := by
  obtain ⟨-, -, e0, e1, -⟩ := idx_facts1 t
  unfold iblk1
  rw [View.read_apply]
  show V c main_v2 _ = V c main_v2 _
  refine congrArg _ (funext fun a => Fin.ext ?_)
  match a with
  | ⟨0, _⟩ => show win1_1.index t (0 : Fin 2) * 576 + 1 * o.val = o.val; omega
  | ⟨1, _⟩ => show win1_1.index t (1 : Fin 2) * 192 + 1 * k.val = k.val; omega

/-- The bias's one block is the array. -/
theorem blk1_b (c : Dev nD) (t : Fin cfg1.N) (z : Fin 1) (o : Fin 576) :
    (iblk1 V c 2 t : Vec Ideal S1x576 .f32) (ix2 z o) = (V c main_v8 : S1x576.Idx → EReal) (ix2 z o) := by
  obtain ⟨-, -, -, -, e0, e1, -⟩ := idx_facts1 t
  unfold iblk1
  rw [View.read_apply]
  show V c main_v8 _ = V c main_v8 _
  refine congrArg _ (funext fun a => Fin.ext ?_)
  match a with
  | ⟨0, _⟩ => show win1_2.index t (0 : Fin 2) * 1 + 1 * z.val = z.val; omega
  | ⟨1, _⟩ => show win1_2.index t (1 : Fin 2) * 576 + 1 * o.val = o.val; omega

/-- What point `t` writes back is block `t` of `G1` of the arrays as the region finds them. -/
theorem flushed1_eq (c : Dev nD) (t : Fin cfg1.N) :
    (dat1 (F := Ideal) V c).flushed 3 t
      = ((cfg1.win 3).blk t).view.read (Elt Ideal) (G1 (V c main_v5) (V c main_v2) (V c main_v8)) := by
  show (cfg1.win 3).cut (grid1.coords t) ((dat1 (F := Ideal) V c).after 3 t) = _
  rw [after1_3]
  funext j
  obtain ⟨p, q, rfl⟩ : ∃ (p : Fin 1024) (q : Fin 576), j = ix2 p q := ⟨j 0, j 1, eq_ix2 j⟩
  obtain ⟨-, -, -, -, -, -, e0, e1⟩ := idx_facts1 t
  have hN : cfg1.N = 8 := N_1
  have ht : t.val < 8 := hN ▸ t.isLt
  refine (out1_3_apply _ _ _ p q).trans ?_
  rw [View.read_apply]
  have hr : 1024 * t.val + p.val < 8192 := by have := p.isLt; omega
  have hi : ((cfg1.win 3).blk t).view.emb (ix2 p q) = (ix2 (⟨1024 * t.val + p.val, hr⟩ : Fin 8192) q : S8192x576.Idx) := by
    funext a; apply Fin.ext
    match a with
    | ⟨0, _⟩ => show win1_3.index t (0 : Fin 2) * 1024 + 1 * p.val = 1024 * t.val + p.val; omega
    | ⟨1, _⟩ => show win1_3.index t (1 : Fin 2) * 576 + 1 * q.val = q.val; omega
  rw [hi, G1_apply]
  refine congrArg₂ (· + ·) (Finset.sum_congr rfl fun k _ => congrArg₂ (· * ·) ?_ ?_) ?_
  · exact blk1_x V c t p k _ rfl
  · exact blk1_w V c t q k
  · exact blk1_b V c t 0 q

/-- Every index of the array is in the block of the point its row falls in. -/
theorem cover1 (i : S8192x576.Idx) :
    ∃ t : Fin cfg1.N, (cfg1.win 3).flush t = true ∧ i ∈ ((cfg1.win 3).blk t).view.set := by
  have hN : cfg1.N = 8 := N_1
  have h0 : (i 0).val < 8192 := idx2_lt0 i
  have h1 : (i 1).val < 576 := idx2_lt1 i
  obtain ⟨t, ht⟩ : ∃ t : Fin cfg1.N, t.val = (i 0).val / 1024 := ⟨⟨(i 0).val / 1024, by rw [hN]; omega⟩, rfl⟩
  refine ⟨t, flush1_3 t, ?_⟩
  obtain ⟨-, -, -, -, -, -, e0, e1⟩ := idx_facts1 t
  show i ∈ ((View.whole main_v9).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 576 ≤ (i 1).val ∧ (i 1).val < win1_3.index t (1 : Fin 2) * 576 + 576
    omega

/-- The output array after the region's eight write-backs is `G1` of the three input arrays as the region found them. -/
theorem arr1_eq (c : Dev nD) :
    (dat1 (F := Ideal) V c).arrAt 3 cfg1.N = G1 (V c main_v5) (V c main_v2) (V c main_v8) :=
  (dat1 (F := Ideal) V c).arrAt_eq_of_cover 3 (G1 (V c main_v5) (V c main_v2) (V c main_v8)) (fun t _ => flushed1_eq V c t) (cover1)

/-- Entry by entry. -/
theorem arr1_final (c : Dev nD) (r : Fin 8192) (o : Fin 576) :
    ((dat1 (F := Ideal) V c).arrAt 3 cfg1.N : S8192x576.Idx → EReal) (ix2 r o)
      = lin1 (V c main_v5) (V c main_v2) (V c main_v8) r o := by
  rw [arr1_eq]; rfl

/-- The three input arrays end as the region found them: no write-back goes to an input window's array. -/
theorem arr1_in (c : Dev nD) (w : Fin cfg1.W) (hw : w.val < 3) :
    (dat1 (F := Ideal) V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
  rw [(dat1 (F := Ideal) V c).arrAt_in w hin cfg1.N, A_eq1]

end Cert.KernelIdeal.HandValue

end
-- ==== Proof.KernelIdeal.HostRead.lean ====
import proofs.«153588_j55336358642313_2_alg».proof.Proof.Gen.KernelIdeal.Launch
import proofs.«153588_j55336358642313_2_alg».proof.Proof.Gen.KernelIdeal.Regions
import Idealize.ShloMosaic.Lib.StableHlo.Run
import Idealize.ShloMosaic.Lib.Pipeline.Value
import Idealize.ShloMosaic.Lib.ValueIdx

/-!
# The host operations between the regions, read entry by entry

Before the first projection the host reshapes each input `[8, 1024, K]` to `[8192, K]` (row `r` is row
`r % 1024` of slab `r / 1024`), stacks the three weight matrices of each projection into one, lays the three
biases end to end and makes the result a single row.  Between the projections it makes the second bias a row;
before the attention region it splits each projection's `[8192, N]` output back into eight slabs.  Every
statement is for an arbitrary valuation of the buffers, so it can be used at whatever the memory holds when the
stretch starts.
-/

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

variable (W : Valuation τ sig (Elt Ideal))

/-! ## Three pieces along the first axis, read in the piece the index falls in -/

/-- Three `[768, 768]` pieces laid one under the other, read in piece `p` at its row `q`. -/
theorem cat3_768x768_apply (u0 u1 u2 : S768x768.Idx → EReal) (p : Fin 3) (q : Fin 768) (k : Fin 768) (o : Fin 2304) (ho : o.val = 768 * p.val + q.val) :
    concatenate S2304x768 0 [⟨S768x768, u0⟩, ⟨S768x768, u1⟩, ⟨S768x768, u2⟩] concatenates_S768x768_S768x768_S768x768_S2304x768_d0 (ix2 o k)
      = (![u0, u1, u2] p) (ix2 q k) := by
  match p, ho with
  | ⟨0, _⟩, ho =>
    have ho' : o.val = 768 * 0 + q.val := ho
    refine concatenate_apply_piece (t := S2304x768) (0 : Fin 2) ([⟨S768x768, u0⟩, ⟨S768x768, u1⟩, ⟨S768x768, u2⟩] : List ((s : Shape) × (s.Idx → EReal))) _ (ix2 o k) 0 (by decide : (0 : Nat) < 3) S768x768 u0 rfl rfl 0 rfl (ix2 q k) (fun b hb => ?_) ?_
    · match b with
      | ⟨0, _⟩ => exact absurd rfl hb
      | ⟨1, _⟩ => rfl
    · show 0 + q.val = o.val; omega
  | ⟨1, _⟩, ho =>
    have ho' : o.val = 768 * 1 + q.val := ho
    refine concatenate_apply_piece (t := S2304x768) (0 : Fin 2) ([⟨S768x768, u0⟩, ⟨S768x768, u1⟩, ⟨S768x768, u2⟩] : List ((s : Shape) × (s.Idx → EReal))) _ (ix2 o k) 1 (by decide : (1 : Nat) < 3) S768x768 u1 rfl rfl 768 rfl (ix2 q k) (fun b hb => ?_) ?_
    · match b with
      | ⟨0, _⟩ => exact absurd rfl hb
      | ⟨1, _⟩ => rfl
    · show 768 + q.val = o.val; omega
  | ⟨2, _⟩, ho =>
    have ho' : o.val = 768 * 2 + q.val := ho
    refine concatenate_apply_piece (t := S2304x768) (0 : Fin 2) ([⟨S768x768, u0⟩, ⟨S768x768, u1⟩, ⟨S768x768, u2⟩] : List ((s : Shape) × (s.Idx → EReal))) _ (ix2 o k) 2 (by decide : (2 : Nat) < 3) S768x768 u2 rfl rfl 1536 rfl (ix2 q k) (fun b hb => ?_) ?_
    · match b with
      | ⟨0, _⟩ => exact absurd rfl hb
      | ⟨1, _⟩ => rfl
    · show 1536 + q.val = o.val; omega

/-- Three `[192, 192]` pieces laid one under the other, read in piece `p` at its row `q`. -/
theorem cat3_192x192_apply (u0 u1 u2 : S192x192.Idx → EReal) (p : Fin 3) (q : Fin 192) (k : Fin 192) (o : Fin 576) (ho : o.val = 192 * p.val + q.val) :
    concatenate S576x192 0 [⟨S192x192, u0⟩, ⟨S192x192, u1⟩, ⟨S192x192, u2⟩] concatenates_S192x192_S192x192_S192x192_S576x192_d0 (ix2 o k)
      = (![u0, u1, u2] p) (ix2 q k) := by
  match p, ho with
  | ⟨0, _⟩, ho =>
    have ho' : o.val = 192 * 0 + q.val := ho
    refine concatenate_apply_piece (t := S576x192) (0 : Fin 2) ([⟨S192x192, u0⟩, ⟨S192x192, u1⟩, ⟨S192x192, u2⟩] : List ((s : Shape) × (s.Idx → EReal))) _ (ix2 o k) 0 (by decide : (0 : Nat) < 3) S192x192 u0 rfl rfl 0 rfl (ix2 q k) (fun b hb => ?_) ?_
    · match b with
      | ⟨0, _⟩ => exact absurd rfl hb
      | ⟨1, _⟩ => rfl
    · show 0 + q.val = o.val; omega
  | ⟨1, _⟩, ho =>
    have ho' : o.val = 192 * 1 + q.val := ho
    refine concatenate_apply_piece (t := S576x192) (0 : Fin 2) ([⟨S192x192, u0⟩, ⟨S192x192, u1⟩, ⟨S192x192, u2⟩] : List ((s : Shape) × (s.Idx → EReal))) _ (ix2 o k) 1 (by decide : (1 : Nat) < 3) S192x192 u1 rfl rfl 192 rfl (ix2 q k) (fun b hb => ?_) ?_
    · match b with
      | ⟨0, _⟩ => exact absurd rfl hb
      | ⟨1, _⟩ => rfl
    · show 192 + q.val = o.val; omega
  | ⟨2, _⟩, ho =>
    have ho' : o.val = 192 * 2 + q.val := ho
    refine concatenate_apply_piece (t := S576x192) (0 : Fin 2) ([⟨S192x192, u0⟩, ⟨S192x192, u1⟩, ⟨S192x192, u2⟩] : List ((s : Shape) × (s.Idx → EReal))) _ (ix2 o k) 2 (by decide : (2 : Nat) < 3) S192x192 u2 rfl rfl 384 rfl (ix2 q k) (fun b hb => ?_) ?_
    · match b with
      | ⟨0, _⟩ => exact absurd rfl hb
      | ⟨1, _⟩ => rfl
    · show 384 + q.val = o.val; omega

/-- Three vectors of length 768 laid end to end, read in piece `p` at its position `q`. -/
theorem cat3_768_apply (u0 u1 u2 : S768.Idx → EReal) (p : Fin 3) (q : Fin 768) (o : Fin 2304) (ho : o.val = 768 * p.val + q.val) :
    concatenate S2304 0 [⟨S768, u0⟩, ⟨S768, u1⟩, ⟨S768, u2⟩] concatenates_S768_S768_S768_S2304_d0 (ix1 o)
      = (![u0, u1, u2] p) (ix1 q) := by
  match p, ho with
  | ⟨0, _⟩, ho =>
    have ho' : o.val = 768 * 0 + q.val := ho
    refine concatenate_apply_piece (t := S2304) (0 : Fin 1) ([⟨S768, u0⟩, ⟨S768, u1⟩, ⟨S768, u2⟩] : List ((s : Shape) × (s.Idx → EReal))) _ (ix1 o) 0 (by decide : (0 : Nat) < 3) S768 u0 rfl rfl 0 rfl (ix1 q) (fun b hb => ?_) ?_
    · match b with
      | ⟨0, _⟩ => exact absurd rfl hb
    · show 0 + q.val = o.val; omega
  | ⟨1, _⟩, ho =>
    have ho' : o.val = 768 * 1 + q.val := ho
    refine concatenate_apply_piece (t := S2304) (0 : Fin 1) ([⟨S768, u0⟩, ⟨S768, u1⟩, ⟨S768, u2⟩] : List ((s : Shape) × (s.Idx → EReal))) _ (ix1 o) 1 (by decide : (1 : Nat) < 3) S768 u1 rfl rfl 768 rfl (ix1 q) (fun b hb => ?_) ?_
    · match b with
      | ⟨0, _⟩ => exact absurd rfl hb
    · show 768 + q.val = o.val; omega
  | ⟨2, _⟩, ho =>
    have ho' : o.val = 768 * 2 + q.val := ho
    refine concatenate_apply_piece (t := S2304) (0 : Fin 1) ([⟨S768, u0⟩, ⟨S768, u1⟩, ⟨S768, u2⟩] : List ((s : Shape) × (s.Idx → EReal))) _ (ix1 o) 2 (by decide : (2 : Nat) < 3) S768 u2 rfl rfl 1536 rfl (ix1 q) (fun b hb => ?_) ?_
    · match b with
      | ⟨0, _⟩ => exact absurd rfl hb
    · show 1536 + q.val = o.val; omega

/-- Three vectors of length 192 laid end to end, read in piece `p` at its position `q`. -/
theorem cat3_192_apply (u0 u1 u2 : S192.Idx → EReal) (p : Fin 3) (q : Fin 192) (o : Fin 576) (ho : o.val = 192 * p.val + q.val) :
    concatenate S576 0 [⟨S192, u0⟩, ⟨S192, u1⟩, ⟨S192, u2⟩] concatenates_S192_S192_S192_S576_d0 (ix1 o)
      = (![u0, u1, u2] p) (ix1 q) := by
  match p, ho with
  | ⟨0, _⟩, ho =>
    have ho' : o.val = 192 * 0 + q.val := ho
    refine concatenate_apply_piece (t := S576) (0 : Fin 1) ([⟨S192, u0⟩, ⟨S192, u1⟩, ⟨S192, u2⟩] : List ((s : Shape) × (s.Idx → EReal))) _ (ix1 o) 0 (by decide : (0 : Nat) < 3) S192 u0 rfl rfl 0 rfl (ix1 q) (fun b hb => ?_) ?_
    · match b with
      | ⟨0, _⟩ => exact absurd rfl hb
    · show 0 + q.val = o.val; omega
  | ⟨1, _⟩, ho =>
    have ho' : o.val = 192 * 1 + q.val := ho
    refine concatenate_apply_piece (t := S576) (0 : Fin 1) ([⟨S192, u0⟩, ⟨S192, u1⟩, ⟨S192, u2⟩] : List ((s : Shape) × (s.Idx → EReal))) _ (ix1 o) 1 (by decide : (1 : Nat) < 3) S192 u1 rfl rfl 192 rfl (ix1 q) (fun b hb => ?_) ?_
    · match b with
      | ⟨0, _⟩ => exact absurd rfl hb
    · show 192 + q.val = o.val; omega
  | ⟨2, _⟩, ho =>
    have ho' : o.val = 192 * 2 + q.val := ho
    refine concatenate_apply_piece (t := S576) (0 : Fin 1) ([⟨S192, u0⟩, ⟨S192, u1⟩, ⟨S192, u2⟩] : List ((s : Shape) × (s.Idx → EReal))) _ (ix1 o) 2 (by decide : (2 : Nat) < 3) S192 u2 rfl rfl 384 rfl (ix1 q) (fun b hb => ?_) ?_
    · match b with
      | ⟨0, _⟩ => exact absurd rfl hb
    · show 384 + q.val = o.val; omega

/-! ## The stretch before the first projection -/

/-- `main_v4` is `main_arg0` with its first two axes merged: row `r` is row `r % 1024` of slab `r / 1024`. -/
theorem v4_eq : (StableHlo.after (hostOps0 (F := Ideal)) W (Proc.devRef .tc main_v4) : S8192x768.Idx → EReal)
    = shapeCast S8192x768 (W (Proc.devRef .tc main_arg0) : S8x1024x768.Idx → EReal) shapeCasts_S8x1024x768_S8192x768 := by
  after_results; rfl

theorem v4_apply (r : Fin 8192) (k : Fin 768) :
    (StableHlo.after (hostOps0 (F := Ideal)) W (Proc.devRef .tc main_v4) : S8192x768.Idx → EReal) (ix2 r k)
      = (W (Proc.devRef .tc main_arg0) : S8x1024x768.Idx → EReal) (ix3 (⟨r.val / 1024, by have := r.isLt; omega⟩ : Fin 8) (⟨r.val % 1024, Nat.mod_lt _ (by decide)⟩ : Fin 1024) k) := by
  rw [v4_eq]
  refine shapeCast_apply _ _ _ _ ?_
  show (S8x1024x768.rowMajor _).val = (S8192x768.rowMajor _).val
  rw [Shape.rowMajor_val_three, Shape.rowMajor_val_two]
  show (r.val / 1024 * 1024 + r.val % 1024) * 768 + k.val = r.val * 768 + k.val
  have := Nat.div_add_mod r.val 1024
  have e : r.val / 1024 * 1024 + r.val % 1024 = r.val := by omega
  rw [e]

/-- `main_v5` is `main_arg1` with its first two axes merged: row `r` is row `r % 1024` of slab `r / 1024`. -/
theorem v5_eq : (StableHlo.after (hostOps0 (F := Ideal)) W (Proc.devRef .tc main_v5) : S8192x192.Idx → EReal)
    = shapeCast S8192x192 (W (Proc.devRef .tc main_arg1) : S8x1024x192.Idx → EReal) shapeCasts_S8x1024x192_S8192x192 := by
  after_results; rfl

theorem v5_apply (r : Fin 8192) (k : Fin 192) :
    (StableHlo.after (hostOps0 (F := Ideal)) W (Proc.devRef .tc main_v5) : S8192x192.Idx → EReal) (ix2 r k)
      = (W (Proc.devRef .tc main_arg1) : S8x1024x192.Idx → EReal) (ix3 (⟨r.val / 1024, by have := r.isLt; omega⟩ : Fin 8) (⟨r.val % 1024, Nat.mod_lt _ (by decide)⟩ : Fin 1024) k) := by
  rw [v5_eq]
  refine shapeCast_apply _ _ _ _ ?_
  show (S8x1024x192.rowMajor _).val = (S8192x192.rowMajor _).val
  rw [Shape.rowMajor_val_three, Shape.rowMajor_val_two]
  show (r.val / 1024 * 1024 + r.val % 1024) * 192 + k.val = r.val * 192 + k.val
  have := Nat.div_add_mod r.val 1024
  have e : r.val / 1024 * 1024 + r.val % 1024 = r.val := by omega
  rw [e]

/-- `main_v0` is main_arg2, main_arg4, main_arg6 laid one under the other. -/
theorem v0_eq : (StableHlo.after (hostOps0 (F := Ideal)) W (Proc.devRef .tc main_v0) : S2304x768.Idx → EReal)
    = concatenate S2304x768 0 [⟨S768x768, (W (Proc.devRef .tc main_arg2) : S768x768.Idx → EReal)⟩, ⟨S768x768, (W (Proc.devRef .tc main_arg4) : S768x768.Idx → EReal)⟩, ⟨S768x768, (W (Proc.devRef .tc main_arg6) : S768x768.Idx → EReal)⟩] concatenates_S768x768_S768x768_S768x768_S2304x768_d0 := by
  after_results; rfl

theorem v0_apply (p : Fin 3) (q : Fin 768) (k : Fin 768) (o : Fin 2304) (ho : o.val = 768 * p.val + q.val) :
    (StableHlo.after (hostOps0 (F := Ideal)) W (Proc.devRef .tc main_v0) : S2304x768.Idx → EReal) (ix2 o k)
      = (![(W (Proc.devRef .tc main_arg2) : S768x768.Idx → EReal), (W (Proc.devRef .tc main_arg4) : S768x768.Idx → EReal), (W (Proc.devRef .tc main_arg6) : S768x768.Idx → EReal)] p) (ix2 q k) := by
  rw [v0_eq]
  exact cat3_768x768_apply _ _ _ p q k o ho

/-- `main_v2` is main_arg8, main_arg10, main_arg12 laid one under the other. -/
theorem v2_eq : (StableHlo.after (hostOps0 (F := Ideal)) W (Proc.devRef .tc main_v2) : S576x192.Idx → EReal)
    = concatenate S576x192 0 [⟨S192x192, (W (Proc.devRef .tc main_arg8) : S192x192.Idx → EReal)⟩, ⟨S192x192, (W (Proc.devRef .tc main_arg10) : S192x192.Idx → EReal)⟩, ⟨S192x192, (W (Proc.devRef .tc main_arg12) : S192x192.Idx → EReal)⟩] concatenates_S192x192_S192x192_S192x192_S576x192_d0 := by
  after_results; rfl

theorem v2_apply (p : Fin 3) (q : Fin 192) (k : Fin 192) (o : Fin 576) (ho : o.val = 192 * p.val + q.val) :
    (StableHlo.after (hostOps0 (F := Ideal)) W (Proc.devRef .tc main_v2) : S576x192.Idx → EReal) (ix2 o k)
      = (![(W (Proc.devRef .tc main_arg8) : S192x192.Idx → EReal), (W (Proc.devRef .tc main_arg10) : S192x192.Idx → EReal), (W (Proc.devRef .tc main_arg12) : S192x192.Idx → EReal)] p) (ix2 q k) := by
  rw [v2_eq]
  exact cat3_192x192_apply _ _ _ p q k o ho

/-- `main_v1` is main_arg3, main_arg5, main_arg7 laid end to end. -/
theorem v1_eq : (StableHlo.after (hostOps0 (F := Ideal)) W (Proc.devRef .tc main_v1) : S2304.Idx → EReal)
    = concatenate S2304 0 [⟨S768, (W (Proc.devRef .tc main_arg3) : S768.Idx → EReal)⟩, ⟨S768, (W (Proc.devRef .tc main_arg5) : S768.Idx → EReal)⟩, ⟨S768, (W (Proc.devRef .tc main_arg7) : S768.Idx → EReal)⟩] concatenates_S768_S768_S768_S2304_d0 := by
  after_results; rfl

theorem v1_apply (p : Fin 3) (q : Fin 768) (o : Fin 2304) (ho : o.val = 768 * p.val + q.val) :
    (StableHlo.after (hostOps0 (F := Ideal)) W (Proc.devRef .tc main_v1) : S2304.Idx → EReal) (ix1 o)
      = (![(W (Proc.devRef .tc main_arg3) : S768.Idx → EReal), (W (Proc.devRef .tc main_arg5) : S768.Idx → EReal), (W (Proc.devRef .tc main_arg7) : S768.Idx → EReal)] p) (ix1 q) := by
  rw [v1_eq]
  exact cat3_768_apply _ _ _ p q o ho

/-- `main_v3` is main_arg9, main_arg11, main_arg13 laid end to end. -/
theorem v3_eq : (StableHlo.after (hostOps0 (F := Ideal)) W (Proc.devRef .tc main_v3) : S576.Idx → EReal)
    = concatenate S576 0 [⟨S192, (W (Proc.devRef .tc main_arg9) : S192.Idx → EReal)⟩, ⟨S192, (W (Proc.devRef .tc main_arg11) : S192.Idx → EReal)⟩, ⟨S192, (W (Proc.devRef .tc main_arg13) : S192.Idx → EReal)⟩] concatenates_S192_S192_S192_S576_d0 := by
  after_results; rfl

theorem v3_apply (p : Fin 3) (q : Fin 192) (o : Fin 576) (ho : o.val = 192 * p.val + q.val) :
    (StableHlo.after (hostOps0 (F := Ideal)) W (Proc.devRef .tc main_v3) : S576.Idx → EReal) (ix1 o)
      = (![(W (Proc.devRef .tc main_arg9) : S192.Idx → EReal), (W (Proc.devRef .tc main_arg11) : S192.Idx → EReal), (W (Proc.devRef .tc main_arg13) : S192.Idx → EReal)] p) (ix1 q) := by
  rw [v3_eq]
  exact cat3_192_apply _ _ _ p q o ho

/-- `main_v6` is `main_v1` (the three biases end to end) as one row. -/
theorem v6_eq : (StableHlo.after (hostOps0 (F := Ideal)) W (Proc.devRef .tc main_v6) : S1x2304.Idx → EReal)
    = shapeCast S1x2304 (concatenate S2304 0 [⟨S768, (W (Proc.devRef .tc main_arg3) : S768.Idx → EReal)⟩, ⟨S768, (W (Proc.devRef .tc main_arg5) : S768.Idx → EReal)⟩, ⟨S768, (W (Proc.devRef .tc main_arg7) : S768.Idx → EReal)⟩] concatenates_S768_S768_S768_S2304_d0) shapeCasts_S2304_S1x2304 := by
  after_results; rfl

theorem v6_apply (p : Fin 3) (q : Fin 768) (z : Fin 1) (o : Fin 2304) (ho : o.val = 768 * p.val + q.val) :
    (StableHlo.after (hostOps0 (F := Ideal)) W (Proc.devRef .tc main_v6) : S1x2304.Idx → EReal) (ix2 z o)
      = (![(W (Proc.devRef .tc main_arg3) : S768.Idx → EReal), (W (Proc.devRef .tc main_arg5) : S768.Idx → EReal), (W (Proc.devRef .tc main_arg7) : S768.Idx → EReal)] p) (ix1 q) := by
  rw [v6_eq]
  refine (shapeCast_apply _ _ (ix2 z o) (ix1 o) ?_).trans (cat3_768_apply _ _ _ p q o ho)
  show (S2304.rowMajor _).val = (S1x2304.rowMajor _).val
  rw [Shape.rowMajor_val_one, Shape.rowMajor_val_two]
  show o.val = z.val * 2304 + o.val
  have := z.isLt; omega

/-! ## The stretch between the two projections: the second bias as one row -/

theorem v8_eq : (StableHlo.after (hostOps1 (F := Ideal)) W (Proc.devRef .tc main_v8) : S1x576.Idx → EReal)
    = shapeCast S1x576 (W (Proc.devRef .tc main_v3) : S576.Idx → EReal) shapeCasts_S576_S1x576 := by
  after_results; rfl

theorem v8_apply (z : Fin 1) (o : Fin 576) :
    (StableHlo.after (hostOps1 (F := Ideal)) W (Proc.devRef .tc main_v8) : S1x576.Idx → EReal) (ix2 z o) = (W (Proc.devRef .tc main_v3) : S576.Idx → EReal) (ix1 o) := by
  rw [v8_eq]
  refine shapeCast_apply _ _ (ix2 z o) (ix1 o) ?_
  show (S576.rowMajor _).val = (S1x576.rowMajor _).val
  rw [Shape.rowMajor_val_one, Shape.rowMajor_val_two]
  show o.val = z.val * 576 + o.val
  have := z.isLt; omega

/-! ## The stretch before the attention region: the two projections' outputs split back into eight slabs -/

theorem v10_eq : (StableHlo.after (hostOps2 (F := Ideal)) W (Proc.devRef .tc main_v10) : S8x1024x2304.Idx → EReal)
    = shapeCast S8x1024x2304 (W (Proc.devRef .tc main_v7) : S8192x2304.Idx → EReal) shapeCasts_S8192x2304_S8x1024x2304 := by
  after_results; rfl

theorem v10_apply (n : Fin 8) (s : Fin 1024) (o : Fin 2304) :
    (StableHlo.after (hostOps2 (F := Ideal)) W (Proc.devRef .tc main_v10) : S8x1024x2304.Idx → EReal) (ix3 n s o)
      = (W (Proc.devRef .tc main_v7) : S8192x2304.Idx → EReal) (ix2 (⟨1024 * n.val + s.val, by have := n.isLt; have := s.isLt; omega⟩ : Fin 8192) o) := by
  rw [v10_eq]
  refine shapeCast_apply _ _ _ _ ?_
  show (S8192x2304.rowMajor _).val = (S8x1024x2304.rowMajor _).val
  rw [Shape.rowMajor_val_three, Shape.rowMajor_val_two]
  show (1024 * n.val + s.val) * 2304 + o.val = (n.val * 1024 + s.val) * 2304 + o.val
  rw [Nat.mul_comm 1024 n.val]

theorem v11_eq : (StableHlo.after (hostOps2 (F := Ideal)) W (Proc.devRef .tc main_v11) : S8x1024x576.Idx → EReal)
    = shapeCast S8x1024x576 (W (Proc.devRef .tc main_v9) : S8192x576.Idx → EReal) shapeCasts_S8192x576_S8x1024x576 := by
  after_results; rfl

theorem v11_apply (n : Fin 8) (s : Fin 1024) (o : Fin 576) :
    (StableHlo.after (hostOps2 (F := Ideal)) W (Proc.devRef .tc main_v11) : S8x1024x576.Idx → EReal) (ix3 n s o)
      = (W (Proc.devRef .tc main_v9) : S8192x576.Idx → EReal) (ix2 (⟨1024 * n.val + s.val, by have := n.isLt; have := s.isLt; omega⟩ : Fin 8192) o) := by
  rw [v11_eq]
  refine shapeCast_apply _ _ _ _ ?_
  show (S8192x576.rowMajor _).val = (S8x1024x576.rowMajor _).val
  rw [Shape.rowMajor_val_three, Shape.rowMajor_val_two]
  show (1024 * n.val + s.val) * 576 + o.val = (n.val * 1024 + s.val) * 576 + o.val
  rw [Nat.mul_comm 1024 n.val]

/-! ## What a stretch does not write it leaves -/

theorem keep0 {r : Ref sig .tc} (h : r ∉ hostOps0_W) :
    StableHlo.after (hostOps0 (F := Ideal)) W (Proc.devRef .tc r) = W (Proc.devRef .tc r) :=
  StableHlo.after_of_writes_sub hostOps0 W hostOps0_writes h
theorem keep1 {r : Ref sig .tc} (h : r ∉ hostOps1_W) :
    StableHlo.after (hostOps1 (F := Ideal)) W (Proc.devRef .tc r) = W (Proc.devRef .tc r) :=
  StableHlo.after_of_writes_sub hostOps1 W hostOps1_writes h
theorem keep2 {r : Ref sig .tc} (h : r ∉ hostOps2_W) :
    StableHlo.after (hostOps2 (F := Ideal)) W (Proc.devRef .tc r) = W (Proc.devRef .tc r) :=
  StableHlo.after_of_writes_sub hostOps2 W hostOps2_writes h

end Cert.KernelIdeal.HandValue

end
-- ==== Proof.KernelIdeal.ProjValue.lean ====
import proofs.«153588_j55336358642313_2_alg».proof.Proof.KernelIdeal.Fold
import proofs.«153588_j55336358642313_2_alg».proof.Proof.KernelIdeal.LinArray
import proofs.«153588_j55336358642313_2_alg».proof.Proof.KernelIdeal.HostRead
import proofs.«153588_j55336358642313_2_alg».proof.Proof.Spec

/-!
# The two projections as the attention region finds them, in terms of the launch arguments

When the attention region is entered, `main_v10 : [8, 1024, 2304]` holds the hidden stream's three
projections side by side — columns `0 … 767` the query, `768 … 1535` the key, `1536 … 2303` the value — and
`main_v11 : [8, 1024, 576]` the layout stream's.  Entry `(n, s, 768·p + q)` is the affine map of row `s` of slab
`n` of the input by the `p`-th weight matrix and bias at output column `q`: the host stacked the three weight
matrices, so row `768·p + q` of the stack is row `q` of the `p`-th; it merged the first two axes of the input,
so row `1024·n + s` of the merged array is row `s` of slab `n`; the projection region wrote, at that row and
column, the sum of products of the two rows plus the stacked bias at the column; and the later host
operations only split the first axis back.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-! ## The launch arguments as curried functions -/

/-- The hidden stream `[8, 1024, 768]`. -/
def argX (c : Dev nD) : Fin 8 → Fin 1024 → Fin 768 → EReal :=
  fun a b k => (m ((c : Thread nD τ).loc main_arg0) : S8x1024x768.Idx → EReal) (ix3 a b k)
/-- The layout stream `[8, 1024, 192]`. -/
def argL (c : Dev nD) : Fin 8 → Fin 1024 → Fin 192 → EReal :=
  fun a b k => (m ((c : Thread nD τ).loc main_arg1) : S8x1024x192.Idx → EReal) (ix3 a b k)
/-- A hidden-stream weight matrix `[768, 768]`, output-major. -/
def argQW (c : Dev nD) : Fin 768 → Fin 768 → EReal :=
  fun o k => (m ((c : Thread nD τ).loc main_arg2) : S768x768.Idx → EReal) (ix2 o k)
/-- A hidden-stream weight matrix `[768, 768]`, output-major. -/
def argKW (c : Dev nD) : Fin 768 → Fin 768 → EReal :=
  fun o k => (m ((c : Thread nD τ).loc main_arg4) : S768x768.Idx → EReal) (ix2 o k)
/-- A hidden-stream weight matrix `[768, 768]`, output-major. -/
def argVW (c : Dev nD) : Fin 768 → Fin 768 → EReal :=
  fun o k => (m ((c : Thread nD τ).loc main_arg6) : S768x768.Idx → EReal) (ix2 o k)
/-- A hidden-stream bias `[768]`. -/
def argQB (c : Dev nD) : Fin 768 → EReal :=
  fun o => (m ((c : Thread nD τ).loc main_arg3) : S768.Idx → EReal) (ix1 o)
/-- A hidden-stream bias `[768]`. -/
def argKB (c : Dev nD) : Fin 768 → EReal :=
  fun o => (m ((c : Thread nD τ).loc main_arg5) : S768.Idx → EReal) (ix1 o)
/-- A hidden-stream bias `[768]`. -/
def argVB (c : Dev nD) : Fin 768 → EReal :=
  fun o => (m ((c : Thread nD τ).loc main_arg7) : S768.Idx → EReal) (ix1 o)
/-- A layout-stream weight matrix `[192, 192]`, output-major. -/
def argLQW (c : Dev nD) : Fin 192 → Fin 192 → EReal :=
  fun o k => (m ((c : Thread nD τ).loc main_arg8) : S192x192.Idx → EReal) (ix2 o k)
/-- A layout-stream weight matrix `[192, 192]`, output-major. -/
def argLKW (c : Dev nD) : Fin 192 → Fin 192 → EReal :=
  fun o k => (m ((c : Thread nD τ).loc main_arg10) : S192x192.Idx → EReal) (ix2 o k)
/-- A layout-stream weight matrix `[192, 192]`, output-major. -/
def argLVW (c : Dev nD) : Fin 192 → Fin 192 → EReal :=
  fun o k => (m ((c : Thread nD τ).loc main_arg12) : S192x192.Idx → EReal) (ix2 o k)
/-- A layout-stream bias `[192]`. -/
def argLQB (c : Dev nD) : Fin 192 → EReal :=
  fun o => (m ((c : Thread nD τ).loc main_arg9) : S192.Idx → EReal) (ix1 o)
/-- A layout-stream bias `[192]`. -/
def argLKB (c : Dev nD) : Fin 192 → EReal :=
  fun o => (m ((c : Thread nD τ).loc main_arg11) : S192.Idx → EReal) (ix1 o)
/-- A layout-stream bias `[192]`. -/
def argLVB (c : Dev nD) : Fin 192 → EReal :=
  fun o => (m ((c : Thread nD τ).loc main_arg13) : S192.Idx → EReal) (ix1 o)

/-- The launch contents of an argument, as the first valuation names them. -/
theorem W0_arg (c : Dev nD) (r : Ref sig .tc) : W0 m ρ c (Proc.devRef .tc r) = m ((c : Thread nD τ).loc r) := rfl

/-! ## The hidden stream's projections -/

/-- The first projection's output array is still what its region left when the last host stretch starts. -/
theorem v7_at_W4 (c : Dev nD) :
    W4 m ρ c (Proc.devRef .tc main_v7) = (dat0 (F := Ideal) (V1 m ρ) c).arrAt 3 cfg0.N := by
  rw [W4_of_ne m ρ c main_v7 (by decide)]
  show StableHlo.after (hostOps1 (F := Ideal)) (W2 m ρ c) (Proc.devRef .tc main_v7) = _
  rw [keep1 (W2 m ρ c) (by decide : main_v7 ∉ hostOps1_W)]
  exact W2_arr m ρ c 3

/-- `main_v10` at slab `n`, row `s`, column `o` is the first projection at row `1024·n + s`, column `o`. -/
theorem v10_core (c : Dev nD) (n : Fin 8) (s : Fin 1024) (o : Fin 2304) :
    (V5 m ρ c main_v10 : S8x1024x2304.Idx → EReal) (ix3 n s o)
      = lin0 (V1 m ρ c main_v4) (V1 m ρ c main_v0) (V1 m ρ c main_v6)
          (⟨1024 * n.val + s.val, by have := n.isLt; have := s.isLt; omega⟩ : Fin 8192) o := by
  refine (v10_apply (W4 m ρ c) n s o).trans ?_
  refine (congrFun (v7_at_W4 m ρ c) (ix2 _ o)).trans ?_
  exact arr0_final (V1 m ρ) c _ o

/-- Row `1024·n + s` of the merged input is row `s` of slab `n`. -/
theorem x_at_W1 (c : Dev nD) (n : Fin 8) (s : Fin 1024) (k : Fin 768) (r : Fin 8192) (hr : r.val = 1024 * n.val + s.val) :
    (V1 m ρ c main_v4 : S8192x768.Idx → EReal) (ix2 r k) = argX m c n s k := by
  refine (v4_apply (W0 m ρ c) r k).trans ?_
  have key : ∀ (a : Fin 8) (b : Fin 1024), a.val = n.val → b.val = s.val →
      (W0 m ρ c (Proc.devRef .tc main_arg0) : S8x1024x768.Idx → EReal) (ix3 a b k) = argX m c n s k :=
    fun a b ha hb => by obtain rfl := Fin.ext ha; obtain rfl := Fin.ext hb; rfl
  refine key _ _ ?_ ?_
  · show r.val / 1024 = n.val; have := s.isLt; omega
  · show r.val % 1024 = s.val; have := s.isLt; omega

/-- Row `768·p + q` of the stacked weight is row `q` of the `p`-th matrix. -/
theorem w_at_W1 (c : Dev nD) (p : Fin 3) (q k : Fin 768) (o : Fin 2304) (ho : o.val = 768 * p.val + q.val) :
    (V1 m ρ c main_v0 : S2304x768.Idx → EReal) (ix2 o k) = (![argQW m c, argKW m c, argVW m c] p) q k := by
  refine (v0_apply (W0 m ρ c) p q k o ho).trans ?_
  match p with
  | ⟨0, _⟩ => rfl
  | ⟨1, _⟩ => rfl
  | ⟨2, _⟩ => rfl

/-- Column `768·p + q` of the bias row is entry `q` of the `p`-th bias. -/
theorem b_at_W1 (c : Dev nD) (p : Fin 3) (q : Fin 768) (o : Fin 2304) (ho : o.val = 768 * p.val + q.val) :
    (V1 m ρ c main_v6 : S1x2304.Idx → EReal) (ix2 0 o) = (![argQB m c, argKB m c, argVB m c] p) q := by
  refine (v6_apply (W0 m ρ c) p q 0 o ho).trans ?_
  match p with
  | ⟨0, _⟩ => rfl
  | ⟨1, _⟩ => rfl
  | ⟨2, _⟩ => rfl

/-- `main_v10` as the attention region finds it, at column `768·p + q`: the `p`-th affine projection of the hidden
    stream at output column `q`. -/
theorem v10_final (c : Dev nD) (n : Fin 8) (s : Fin 1024) (p : Fin 3) (q : Fin 768) (o : Fin 2304) (ho : o.val = 768 * p.val + q.val) :
    (V5 m ρ c main_v10 : S8x1024x2304.Idx → EReal) (ix3 n s o)
      = Cert.Spec.lin768 (argX m c) (![argQW m c, argKW m c, argVW m c] p) (![argQB m c, argKB m c, argVB m c] p) n s q := by
  refine (v10_core m ρ c n s o).trans ?_
  rw [lin0_eq]
  unfold Cert.Spec.lin768
  refine congrArg₂ (· + ·) (Finset.sum_congr rfl fun k _ => congrArg₂ (· * ·) ?_ ?_) ?_
  · exact x_at_W1 m ρ c n s k _ rfl
  · exact w_at_W1 m ρ c p q k o ho
  · exact b_at_W1 m ρ c p q o ho

/-- The query columns, -/
theorem v10_q (c : Dev nD) (n : Fin 8) (s : Fin 1024) (q : Fin 768) :
    (V5 m ρ c main_v10 : S8x1024x2304.Idx → EReal) (ix3 n s (⟨q.val, by have := q.isLt; omega⟩ : Fin 2304))
      = Cert.Spec.lin768 (argX m c) (argQW m c) (argQB m c) n s q :=
  v10_final m ρ c n s 0 q _ (by show q.val = 768 * 0 + q.val; omega)
/-- the key columns, -/
theorem v10_k (c : Dev nD) (n : Fin 8) (s : Fin 1024) (q : Fin 768) :
    (V5 m ρ c main_v10 : S8x1024x2304.Idx → EReal) (ix3 n s (⟨768 + q.val, by have := q.isLt; omega⟩ : Fin 2304))
      = Cert.Spec.lin768 (argX m c) (argKW m c) (argKB m c) n s q :=
  v10_final m ρ c n s 1 q _ (by show 768 + q.val = 768 * 1 + q.val; omega)
/-- the value columns. -/
theorem v10_v (c : Dev nD) (n : Fin 8) (s : Fin 1024) (q : Fin 768) :
    (V5 m ρ c main_v10 : S8x1024x2304.Idx → EReal) (ix3 n s (⟨1536 + q.val, by have := q.isLt; omega⟩ : Fin 2304))
      = Cert.Spec.lin768 (argX m c) (argVW m c) (argVB m c) n s q :=
  v10_final m ρ c n s 2 q _ (by show 1536 + q.val = 768 * 2 + q.val; omega)

/-! ## The layout stream's projections -/

theorem v9_at_W4 (c : Dev nD) :
    W4 m ρ c (Proc.devRef .tc main_v9) = (dat1 (F := Ideal) (V3 m ρ) c).arrAt 3 cfg1.N :=
  W4_arr m ρ c 3

/-- `main_v11` at slab `n`, row `s`, column `o` is the second projection at row `1024·n + s`, column `o`. -/
theorem v11_core (c : Dev nD) (n : Fin 8) (s : Fin 1024) (o : Fin 576) :
    (V5 m ρ c main_v11 : S8x1024x576.Idx → EReal) (ix3 n s o)
      = lin1 (V3 m ρ c main_v5) (V3 m ρ c main_v2) (V3 m ρ c main_v8)
          (⟨1024 * n.val + s.val, by have := n.isLt; have := s.isLt; omega⟩ : Fin 8192) o := by
  refine (v11_apply (W4 m ρ c) n s o).trans ?_
  refine (congrFun (v9_at_W4 m ρ c) (ix2 _ o)).trans ?_
  exact arr1_final (V3 m ρ) c _ o

/-- What the first host stretch wrote, when it is no array of the first projection and not the second bias row, is
    still there when the second projection is entered. -/
theorem W3_eq_W1 (c : Dev nD) (r : Ref sig .tc) (h1 : r ∉ hostOps1_W) (h0 : ∀ w, Pipeline.arrRef spec0 w ≠ r) :
    W3 m ρ c (Proc.devRef .tc r) = W1 m ρ c (Proc.devRef .tc r) := by
  show StableHlo.after (hostOps1 (F := Ideal)) (W2 m ρ c) (Proc.devRef .tc r) = _
  rw [keep1 (W2 m ρ c) h1, W2_of_ne m ρ c r h0]

theorem l_at_W3 (c : Dev nD) (n : Fin 8) (s : Fin 1024) (k : Fin 192) (r : Fin 8192) (hr : r.val = 1024 * n.val + s.val) :
    (V3 m ρ c main_v5 : S8192x192.Idx → EReal) (ix2 r k) = argL m c n s k := by
  refine (congrFun (W3_eq_W1 m ρ c main_v5 (by decide) (by decide)) (ix2 r k)).trans ?_
  refine (v5_apply (W0 m ρ c) r k).trans ?_
  have key : ∀ (a : Fin 8) (b : Fin 1024), a.val = n.val → b.val = s.val →
      (W0 m ρ c (Proc.devRef .tc main_arg1) : S8x1024x192.Idx → EReal) (ix3 a b k) = argL m c n s k :=
    fun a b ha hb => by obtain rfl := Fin.ext ha; obtain rfl := Fin.ext hb; rfl
  refine key _ _ ?_ ?_
  · show r.val / 1024 = n.val; have := s.isLt; omega
  · show r.val % 1024 = s.val; have := s.isLt; omega

theorem lw_at_W3 (c : Dev nD) (p : Fin 3) (q k : Fin 192) (o : Fin 576) (ho : o.val = 192 * p.val + q.val) :
    (V3 m ρ c main_v2 : S576x192.Idx → EReal) (ix2 o k) = (![argLQW m c, argLKW m c, argLVW m c] p) q k := by
  refine (congrFun (W3_eq_W1 m ρ c main_v2 (by decide) (by decide)) (ix2 o k)).trans ?_
  refine (v2_apply (W0 m ρ c) p q k o ho).trans ?_
  match p with
  | ⟨0, _⟩ => rfl
  | ⟨1, _⟩ => rfl
  | ⟨2, _⟩ => rfl

theorem lb_at_W3 (c : Dev nD) (p : Fin 3) (q : Fin 192) (o : Fin 576) (ho : o.val = 192 * p.val + q.val) :
    (V3 m ρ c main_v8 : S1x576.Idx → EReal) (ix2 0 o) = (![argLQB m c, argLKB m c, argLVB m c] p) q := by
  refine (v8_apply (W2 m ρ c) 0 o).trans ?_
  refine (congrFun (W2_of_ne m ρ c main_v3 (by decide)) (ix1 o)).trans ?_
  refine (v3_apply (W0 m ρ c) p q o ho).trans ?_
  match p with
  | ⟨0, _⟩ => rfl
  | ⟨1, _⟩ => rfl
  | ⟨2, _⟩ => rfl

/-- `main_v11` as the attention region finds it, at column `192·p + q`: the `p`-th affine projection of the layout
    stream at output column `q`. -/
theorem v11_final (c : Dev nD) (n : Fin 8) (s : Fin 1024) (p : Fin 3) (q : Fin 192) (o : Fin 576) (ho : o.val = 192 * p.val + q.val) :
    (V5 m ρ c main_v11 : S8x1024x576.Idx → EReal) (ix3 n s o)
      = Cert.Spec.lin192 (argL m c) (![argLQW m c, argLKW m c, argLVW m c] p) (![argLQB m c, argLKB m c, argLVB m c] p) n s q := by
  refine (v11_core m ρ c n s o).trans ?_
  rw [lin1_eq]
  unfold Cert.Spec.lin192
  refine congrArg₂ (· + ·) (Finset.sum_congr rfl fun k _ => congrArg₂ (· * ·) ?_ ?_) ?_
  · exact l_at_W3 m ρ c n s k _ rfl
  · exact lw_at_W3 m ρ c p q k o ho
  · exact lb_at_W3 m ρ c p q o ho

theorem v11_q (c : Dev nD) (n : Fin 8) (s : Fin 1024) (q : Fin 192) :
    (V5 m ρ c main_v11 : S8x1024x576.Idx → EReal) (ix3 n s (⟨q.val, by have := q.isLt; omega⟩ : Fin 576))
      = Cert.Spec.lin192 (argL m c) (argLQW m c) (argLQB m c) n s q :=
  v11_final m ρ c n s 0 q _ (by show q.val = 192 * 0 + q.val; omega)
theorem v11_k (c : Dev nD) (n : Fin 8) (s : Fin 1024) (q : Fin 192) :
    (V5 m ρ c main_v11 : S8x1024x576.Idx → EReal) (ix3 n s (⟨192 + q.val, by have := q.isLt; omega⟩ : Fin 576))
      = Cert.Spec.lin192 (argL m c) (argLKW m c) (argLKB m c) n s q :=
  v11_final m ρ c n s 1 q _ (by show 192 + q.val = 192 * 1 + q.val; omega)
theorem v11_v (c : Dev nD) (n : Fin 8) (s : Fin 1024) (q : Fin 192) :
    (V5 m ρ c main_v11 : S8x1024x576.Idx → EReal) (ix3 n s (⟨384 + q.val, by have := q.isLt; omega⟩ : Fin 576))
      = Cert.Spec.lin192 (argL m c) (argLVW m c) (argLVB m c) n s q :=
  v11_final m ρ c n s 2 q _ (by show 384 + q.val = 192 * 2 + q.val; omega)

end Cert.KernelIdeal.HandValue

end
-- ==== Proof.KernelIdeal.AttnSlices.lean ====
/-
  The heads' slices of the attention region's input blocks, as projections of the launch arguments.

  At grid point t = 6·n + hp, head j of the pair is head h = 2·hp + j of the layer. Its 64 query columns are columns
  64·j … 64·j+63 of the point's query block, which are columns 64·h … 64·h+63 of the query projection of batch entry n;
  likewise for the keys and the values. Its 16 layout columns are columns 32·hp + 16·j … of each of the three sections of
  the batch entry's projected layout block, which are columns 16·h … 16·h+15 of the layout query / key / value projection.
-/
import proofs.«153588_j55336358642313_2_alg».proof.Proof.KernelIdeal.AttnBlocks
import proofs.«153588_j55336358642313_2_alg».proof.Proof.KernelIdeal.ProjValue
import proofs.«153588_j55336358642313_2_alg».proof.Proof.Spec

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

section Slices

variable (c : Dev nD) (t : Fin cfg2.N) (n : Fin 8) (h : Fin 12) (jv : ℕ) (hj : jv < 2)
  (hn : n.val = t.val / 6) (hh : h.val = 2 * (t.val % 6) + jv)

include hn hh hj

/-- The head's query columns. -/
theorem slice_q (s : Fin 1024) (d : Fin 64) (col : Fin 128) (hcol : col.val = 64 * jv + d.val) :
    (iblk2 (V5 m ρ) c 0 t : Vec Ideal S1x1024x128 .bf16) (ix3 0 s col) = lin768 (argX m c) (argQW m c) (argQB m c) n s (headCol64 h d) := by
  have ht : t.val % 6 < 6 := Nat.mod_lt _ (by decide)
  have hd := d.isLt
  rw [blk2_q (V5 m ρ) c t s col n ⟨128 * (t.val % 6) + col.val, by omega⟩ hn rfl]
  rw [← v10_q m ρ c n s (headCol64 h d)]
  refine congrArg _ (congrArg _ (Fin.ext ?_))
  show 128 * (t.val % 6) + col.val = 64 * h.val + d.val
  omega

/-- The head's key columns. -/
theorem slice_k (s : Fin 1024) (d : Fin 64) (col : Fin 128) (hcol : col.val = 64 * jv + d.val) :
    (iblk2 (V5 m ρ) c 1 t : Vec Ideal S1x1024x128 .bf16) (ix3 0 s col) = lin768 (argX m c) (argKW m c) (argKB m c) n s (headCol64 h d) := by
  have ht : t.val % 6 < 6 := Nat.mod_lt _ (by decide)
  have hd := d.isLt
  rw [blk2_k (V5 m ρ) c t s col n ⟨768 + 128 * (t.val % 6) + col.val, by omega⟩ hn rfl]
  rw [← v10_k m ρ c n s (headCol64 h d)]
  refine congrArg _ (congrArg _ (Fin.ext ?_))
  show 768 + 128 * (t.val % 6) + col.val = 768 + (64 * h.val + d.val)
  omega

/-- The head's value columns. -/
theorem slice_v (s : Fin 1024) (d : Fin 64) (col : Fin 128) (hcol : col.val = 64 * jv + d.val) :
    (iblk2 (V5 m ρ) c 2 t : Vec Ideal S1x1024x128 .bf16) (ix3 0 s col) = lin768 (argX m c) (argVW m c) (argVB m c) n s (headCol64 h d) := by
  have ht : t.val % 6 < 6 := Nat.mod_lt _ (by decide)
  have hd := d.isLt
  rw [blk2_v (V5 m ρ) c t s col n ⟨1536 + 128 * (t.val % 6) + col.val, by omega⟩ hn rfl]
  rw [← v10_v m ρ c n s (headCol64 h d)]
  refine congrArg _ (congrArg _ (Fin.ext ?_))
  show 1536 + 128 * (t.val % 6) + col.val = 1536 + (64 * h.val + d.val)
  omega

/-- The head's layout-query columns. -/
theorem slice_lq (s : Fin 1024) (d : Fin 16) (col : Fin 576) (hcol : col.val = 32 * (t.val % 6) + 16 * jv + d.val) :
    (iblk2 (V5 m ρ) c 3 t : Vec Ideal S1x1024x576 .bf16) (ix3 0 s col) = lin192 (argL m c) (argLQW m c) (argLQB m c) n s (headCol16 h d) := by
  have hd := d.isLt
  rw [blk2_l (V5 m ρ) c t s col n hn]
  rw [← v11_q m ρ c n s (headCol16 h d)]
  refine congrArg _ (congrArg _ (Fin.ext ?_))
  show col.val = 16 * h.val + d.val
  omega

/-- The head's layout-key columns. -/
theorem slice_lk (s : Fin 1024) (d : Fin 16) (col : Fin 576) (hcol : col.val = 192 + 32 * (t.val % 6) + 16 * jv + d.val) :
    (iblk2 (V5 m ρ) c 3 t : Vec Ideal S1x1024x576 .bf16) (ix3 0 s col) = lin192 (argL m c) (argLKW m c) (argLKB m c) n s (headCol16 h d) := by
  have hd := d.isLt
  rw [blk2_l (V5 m ρ) c t s col n hn]
  rw [← v11_k m ρ c n s (headCol16 h d)]
  refine congrArg _ (congrArg _ (Fin.ext ?_))
  show col.val = 192 + (16 * h.val + d.val)
  omega

/-- The head's layout-value columns. -/
theorem slice_lv (s : Fin 1024) (d : Fin 16) (col : Fin 576) (hcol : col.val = 384 + 32 * (t.val % 6) + 16 * jv + d.val) :
    (iblk2 (V5 m ρ) c 3 t : Vec Ideal S1x1024x576 .bf16) (ix3 0 s col) = lin192 (argL m c) (argLVW m c) (argLVB m c) n s (headCol16 h d) := by
  have hd := d.isLt
  rw [blk2_l (V5 m ρ) c t s col n hn]
  rw [← v11_v m ρ c n s (headCol16 h d)]
  refine congrArg _ (congrArg _ (Fin.ext ?_))
  show col.val = 384 + (16 * h.val + d.val)
  omega

end Slices

end Cert.KernelIdeal.HandValue

end
-- ==== Proof.KernelIdeal.AttnArray.lean ====
import proofs.«153588_j55336358642313_2_alg».proof.Proof.KernelIdeal.AttnData
import Idealize.ShloMosaic.Lib.Pipeline.Value
import Idealize.ShloMosaic.Lib.Pipeline.Cells

/-!
# The attention region's two result arrays, read off what its body may leave

The region's grid is 8 × 6: batch entry `n`, head pair `hp`, point `t = 6·n + hp`.  The context output's block at
`t` is `(n, 0, hp)` — the 128 columns of the pair — and is written back at every point with exactly what the body
stored, so block `t` of the final array is that.  The layout-context output's block is `(n, 0, 0)` for all six
points of a batch entry and is written back once, after the sixth; each point overwrites its own 32 columns and
leaves the rest as it found them, so when the block is written back it holds every pair's two heads.
-/

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat RDat Cfg Window)

variable {F : FTy → Type} [FloatOps F]
variable (V : (c : Dev nD) → (b : Ref sig .tc) → Buf (Elt F) ((c : Thread nD τ).loc b))

def datC (c : Dev nD) : Dat τ (Elt F) Unit ℕ (Pipeline.UD sig nD τ) ℕ cfg2 c where
  A w := V c (Pipeline.arrRef spec2 w)
  after w t := match w with
    | ⟨0, _⟩ => Dat.unnamed (cfg := cfg2) 0 t
    | ⟨1, _⟩ => Dat.unnamed (cfg := cfg2) 1 t
    | ⟨2, _⟩ => Dat.unnamed (cfg := cfg2) 2 t
    | ⟨3, _⟩ => Dat.unnamed (cfg := cfg2) 3 t
    | ⟨4, _⟩ => ctxOut (grid2.coords t) (iblk2 V c 0 t) (iblk2 V c 1 t) (iblk2 V c 2 t) (iblk2 V c 3 t)
    | ⟨5, _⟩ => Dat.unnamed (cfg := cfg2) 5 t
  Φ _ := Pipeline.ΦA spec2 c
  q := q2
  owed _ := 0

theorem datC_after4 (c : Dev nD) (t : Fin cfg2.N) :
    (datC V c).after 4 t = ctxOut (grid2.coords t) (iblk2 V c 0 t) (iblk2 V c 1 t) (iblk2 V c 2 t) (iblk2 V c 3 t) := by
  dsimp only [datC]

theorem rdat2_after4 (c : Dev nD) (t : Fin cfg2.N) (Y X) :
    (rdat2 V c).after 4 t Y X = (X = ctxOut (grid2.coords t) (iblk2 V c 0 t) (iblk2 V c 1 t) (iblk2 V c 2 t) (iblk2 V c 3 t)) := by
  dsimp only [rdat2]

theorem leaves4 (c : Dev nD) (t : Fin cfg2.N) (X) : (datC V c).Leaves 4 t X ↔ X = (datC V c).after 4 t :=
  Dat.Leaves.live_iff (datC V c) (.inl rfl)

theorem idx_facts2 : ∀ t : Fin cfg2.N, win2_4.index t (0 : Fin 3) = t.val / 6 ∧ win2_4.index t (1 : Fin 3) = 0 ∧ win2_4.index t (2 : Fin 3) = t.val % 6
    ∧ win2_5.index t (0 : Fin 3) = t.val / 6 ∧ win2_5.index t (1 : Fin 3) = 0 ∧ win2_5.index t (2 : Fin 3) = 0 :=
  (by decide +kernel : ∀ t : Fin grid2.N, _)

/-- Distinct points have distinct context blocks. -/
theorem index4_ne {t t' : Fin cfg2.N} (h : t ≠ t') : win2_4.index t ≠ win2_4.index t' := by
  intro e
  obtain ⟨a0, -, a2, -⟩ := idx_facts2 t
  obtain ⟨b0, -, b2, -⟩ := idx_facts2 t'
  have e0 := congrFun e (0 : Fin 3)
  have e2 := congrFun e (2 : Fin 3)
  rw [a0, b0] at e0
  rw [a2, b2] at e2
  exact h (Fin.ext (by omega))

/-- The exact data and the relational data agree on what the body may leave in the context window's buffer. -/
theorem datC_toR_after4 (c : Dev nD) : (datC V c).toR.after 4 = (rdat2 V c).after 4 := by
  funext t Y X
  rw [rdat2_after4, ← datC_after4]
  exact propext (leaves4 V c t X)

/-- Block `t` of the context array after the region is what the body stored at point `t`. -/
theorem ctx_final (c : Dev nD) (F4) (h : (rdat2 V c).ArrAt 4 cfg2.N F4) (t : Fin cfg2.N) :
    ((cfg2.win 4).blk t).view.read (Elt F) F4
      = ctxOut (grid2.coords t) (iblk2 V c 0 t) (iblk2 V c 1 t) (iblk2 V c 2 t) (iblk2 V c 3 t) := by
  have h' : (datC V c).toR.ArrAt 4 cfg2.N F4 :=
    (RDat.arrAt_congr (rd := rdat2 V c) (rd' := (datC V c).toR) rfl (datC_toR_after4 V c) cfg2.N F4).mpr h
  rw [(datC V c).toR_arrAt 4 cfg2.N F4 h']
  refine ((datC V c).read_blk_arrAt_eq_flushed 4
    (fun u u' _ _ hne => (cfg2.win 4).disjoint_blk (index4_ne hne)) cfg2.N t t.isLt (flush2_4 t)).trans ?_
  show (cfg2.win 4).cut (grid2.coords t) ((datC V c).after 4 t) = _
  rw [datC_after4]
  rfl

/-! ## The layout-context output -/

/-- The grid's coordinates at point `t`: batch entry `t / 6`, head pair `t % 6`. -/
theorem coords2 : ∀ t : Fin cfg2.N, ((grid2.coords t) (0 : Fin 2)).val = t.val / 6 ∧ ((grid2.coords t) (1 : Fin 2)).val = t.val % 6 :=
  (by decide +kernel : ∀ t : Fin grid2.N, _)

/-- An output window is never fetched. -/
theorem fetch2_5 (t : Fin cfg2.N) : (cfg2.win 5).fetch t = false := by
  unfold Window.fetch
  rw [show (cfg2.win 5).isOut = true from rfl]
  rfl

/-- The 16 columns a head pair `i` stores for its head `r` lie below the columns of any later pair `i'`. -/
theorem rO_col_lt (i i' : grid2.Coords) (r r' : Fin 2) (h : (i 1).val < (i' 1).val)
    (x : (Rect.unit (s := S1x1024x192) (k2_off3 i (BitVec.ofNat 32 (16 * r.val))) S1x1024x16.size (k2_off3_inb i r)).shape.Idx) :
    ((Rect.unit (s := S1x1024x192) (k2_off3 i (BitVec.ofNat 32 (16 * r.val))) S1x1024x16.size (k2_off3_inb i r)).emb x (2 : Fin 3)).val
      < (k2_off3 i' (BitVec.ofNat 32 (16 * r'.val))) (2 : Fin 3) := by
  have hx : (x (2 : Fin 3)).val < 16 := (x (2 : Fin 3)).isLt
  have e : (k2_off3 i (BitVec.ofNat 32 (16 * r.val))) (2 : Fin 3) = 32 * (i 1).val + 16 * r.val := congrFun (k2_off3_eq i r) 2
  have e' : (k2_off3 i' (BitVec.ofNat 32 (16 * r'.val))) (2 : Fin 3) = 32 * (i' 1).val + 16 * r'.val := congrFun (k2_off3_eq i' r') 2
  show (k2_off3 i (BitVec.ofNat 32 (16 * r.val))) (2 : Fin 3) + 1 * (x (2 : Fin 3)).val < _
  have hr : r.val < 2 := r.isLt
  omega

/-- So a column an earlier pair stored is in neither rectangle of a later pair. -/
theorem rO_not_mem (i i' : grid2.Coords) (r r' : Fin 2) (h : (i 1).val < (i' 1).val)
    (x : (Rect.unit (s := S1x1024x192) (k2_off3 i (BitVec.ofNat 32 (16 * r.val))) S1x1024x16.size (k2_off3_inb i r)).shape.Idx) :
    (Rect.unit (s := S1x1024x192) (k2_off3 i (BitVec.ofNat 32 (16 * r.val))) S1x1024x16.size (k2_off3_inb i r)).emb x
      ∉ (Rect.unit (s := S1x1024x192) (k2_off3 i' (BitVec.ofNat 32 (16 * r'.val))) S1x1024x16.size (k2_off3_inb i' r')).set := by
  rw [Rect.mem_set_unit]
  intro hm
  have h2 := (hm (2 : Fin 3)).1
  have hlt := rO_col_lt i i' r r' h x
  omega

/-- Within a batch entry: what the body may leave in the layout-context buffer at point `t` holds, on the columns of
    every point `u` of the same batch entry up to `t`, that point's two heads.  At `u = t` this is what the body
    stores; for an earlier `u` the buffer was handed over from point `t - 1` (it is not written back inside a batch
    entry), where the claim held, and the body at `t` changes only its own 32 columns, which lie above `u`'s. -/
theorem leaves5_heads (c : Dev nD) (t : Fin cfg2.N) : ∀ (X : (cfg2.win 5).block.Idx → Elt F (cfg2.win 5).elt),
    (rdat2 V c).Leaves 5 t X →
    ∀ u : Fin cfg2.N, u.val / 6 = t.val / 6 → u.val ≤ t.val →
      (∀ x, X ((rO0 (grid2.coords u)).emb x) = lctx0 (grid2.coords u) (iblk2 V c 0 u) (iblk2 V c 1 u) (iblk2 V c 3 u) x)
      ∧ (∀ x, X ((rO1 (grid2.coords u)).emb x) = lctx1 (grid2.coords u) (iblk2 V c 0 u) (iblk2 V c 1 u) (iblk2 V c 3 u) x) := by
  induction hn : t.val using Nat.strong_induction_on generalizing t with
  | _ n ih =>
    subst hn
    rintro X ⟨Y, hY, hrel⟩ u hu hle
    have hrel' : LctxRel (grid2.coords t) (iblk2 V c 0 t) (iblk2 V c 1 t) (iblk2 V c 3 t) Y X := by
      dsimp only [rdat2] at hrel; exact hrel
    by_cases hut : u = t
    · subst hut; exact ⟨hrel'.head0, hrel'.head1⟩
    · have hlt : u.val < t.val := lt_of_le_of_ne hle (fun e => hut (Fin.ext e))
      have ht0 : t.val ≠ 0 := by omega
      rcases ((rdat2 V c).finds_of_pos (fetch2_5 t) ht0 Y).mp hY with hfl | hL
      · exact absurd ((flush2_5 _).mp hfl) (by show ¬ ((t.val - 1) % 6 = 5); omega)
      · have ih' := ih (t.val - 1) (by omega) ⟨t.val - 1, Nat.lt_of_le_of_lt (Nat.sub_le _ _) t.isLt⟩ rfl Y hL u
          (by show u.val / 6 = (t.val - 1) / 6; omega) (by show u.val ≤ t.val - 1; omega)
        obtain ⟨-, cu⟩ := coords2 u
        obtain ⟨-, ct⟩ := coords2 t
        have hpair : ((grid2.coords u) (1 : Fin 2)).val < ((grid2.coords t) (1 : Fin 2)).val := by rw [cu, ct]; omega
        refine ⟨fun x => ?_, fun x => ?_⟩
        · rw [← ih'.1 x]
          exact hrel'.outside _ (rO_not_mem (grid2.coords u) (grid2.coords t) 0 1 hpair x)
            (rO_not_mem (grid2.coords u) (grid2.coords t) 0 0 hpair x)
        · rw [← ih'.2 x]
          exact hrel'.outside _ (rO_not_mem (grid2.coords u) (grid2.coords t) 1 1 hpair x)
            (rO_not_mem (grid2.coords u) (grid2.coords t) 1 0 hpair x)

/-- Two different points that both write the layout-context block back belong to different batch entries, so their
    blocks are disjoint. -/
theorem disjoint5 {t t' : Fin cfg2.N} (ht : t.val % 6 = 5) (ht' : t'.val % 6 = 5) (hne : t ≠ t') :
    Disjoint ((cfg2.win 5).blk t).view.set ((cfg2.win 5).blk t').view.set := by
  refine (cfg2.win 5).disjoint_blk fun e => ?_
  obtain ⟨-, -, -, a0, -⟩ := idx_facts2 t
  obtain ⟨-, -, -, b0, -⟩ := idx_facts2 t'
  have e0 := congrFun e (0 : Fin 3)
  rw [a0, b0] at e0
  exact hne (Fin.ext (by omega))

/-- After the write-backs below `n`, each batch entry already written back holds, in its block of the array, something
    the body may have left in the buffer at the entry's last point. -/
theorem arrAt5_blocks (c : Dev nD) : ∀ (n : Nat), n ≤ cfg2.N → ∀ F5, (rdat2 V c).ArrAt 5 n F5 →
    ∀ t : Fin cfg2.N, t.val < n → t.val % 6 = 5 →
      ∃ X, (rdat2 V c).Leaves 5 t X ∧ ((cfg2.win 5).blk t).view.read (Elt F) F5 = (cfg2.win 5).cut (grid2.coords t) X
  | 0, _, _, _, _, ht, _ => absurd ht (Nat.not_lt_zero _)
  | n + 1, hn, F5, h, t, ht, h5 => by
    have hn' : n < cfg2.N := hn
    rw [show n + 1 = (⟨n, hn'⟩ : Fin cfg2.N).val + 1 from rfl, (rdat2 V c).ArrAt_succ 5 ⟨n, hn'⟩] at h
    by_cases hfn : (cfg2.win 5).flush ⟨n, hn'⟩ = true
    · rw [if_pos hfn] at h
      obtain ⟨G₀, X, hG₀, hX, rfl⟩ := h
      have hn5 : n % 6 = 5 := (flush2_5 ⟨n, hn'⟩).mp hfn
      by_cases htn : t.val = n
      · obtain rfl : t = ⟨n, hn'⟩ := Fin.ext htn
        exact ⟨X, hX, View.read_write_univ _ _⟩
      · obtain ⟨X', hX', e⟩ := arrAt5_blocks c n (Nat.le_of_lt hn') G₀ hG₀ t (by omega) h5
        refine ⟨X', hX', Eq.trans ?_ e⟩
        exact View.read_congr fun i hi => View.write_of_not_mem _ _ _
          (Finset.disjoint_left.mp (disjoint5 (t := t) (t' := ⟨n, hn'⟩) h5 hn5 (fun e' => htn (congrArg Fin.val e'))) hi)
    · rw [if_neg hfn] at h
      have htn : t.val ≠ n := fun e' => hfn ((flush2_5 ⟨n, hn'⟩).mpr (by show n % 6 = 5; omega))
      exact arrAt5_blocks c n (Nat.le_of_lt hn') F5 h t (by omega) h5

/-- The layout-context array after the region: in the block of point `u`'s batch entry, the 16 columns of each of the
    pair's two heads hold that head's result. -/
theorem lctx_final (c : Dev nD) (F5) (h : (rdat2 V c).ArrAt 5 cfg2.N F5) (u : Fin cfg2.N) :
    (∀ x, ((cfg2.win 5).blk u).view.read (Elt F) F5 ((rO0 (grid2.coords u)).emb x)
        = lctx0 (grid2.coords u) (iblk2 V c 0 u) (iblk2 V c 1 u) (iblk2 V c 3 u) x)
    ∧ (∀ x, ((cfg2.win 5).blk u).view.read (Elt F) F5 ((rO1 (grid2.coords u)).emb x)
        = lctx1 (grid2.coords u) (iblk2 V c 0 u) (iblk2 V c 1 u) (iblk2 V c 3 u) x) := by
  have hN : cfg2.N = 48 := N_2
  have hu : u.val < 48 := hN ▸ u.isLt
  -- the last point of `u`'s batch entry
  obtain ⟨t, ht⟩ : ∃ t : Fin cfg2.N, t.val = 6 * (u.val / 6) + 5 := ⟨⟨6 * (u.val / 6) + 5, Nat.lt_of_lt_of_eq (by omega : 6 * (u.val / 6) + 5 < 48) hN.symm⟩, rfl⟩
  obtain ⟨X, hX, e⟩ := arrAt5_blocks V c cfg2.N (Nat.le_refl _) F5 h t t.isLt (by omega)
  obtain ⟨h0, h1⟩ := leaves5_heads V c t X hX u (by omega) (by omega)
  -- the two points' blocks are the same block of the array
  have hemb : ∀ y : S1x1024x192.Idx, ((cfg2.win 5).blk u).view.emb y = ((cfg2.win 5).blk t).view.emb y := fun y => by
    obtain ⟨-, -, -, a0, a1, a2⟩ := idx_facts2 u
    obtain ⟨-, -, -, b0, b1, b2⟩ := idx_facts2 t
    funext a; apply Fin.ext
    match a with
    | ⟨0, _⟩ => show win2_5.index u (0 : Fin 3) * 1 + 1 * (y 0).val = win2_5.index t (0 : Fin 3) * 1 + 1 * (y 0).val; rw [a0, b0]; omega
    | ⟨1, _⟩ => show win2_5.index u (1 : Fin 3) * 1024 + 1 * (y 1).val = win2_5.index t (1 : Fin 3) * 1024 + 1 * (y 1).val; rw [a1, b1]
    | ⟨2, _⟩ => show win2_5.index u (2 : Fin 3) * 192 + 1 * (y 2).val = win2_5.index t (2 : Fin 3) * 192 + 1 * (y 2).val; rw [a2, b2]
  have hread : ∀ y : S1x1024x192.Idx, ((cfg2.win 5).blk u).view.read (Elt F) F5 y = X y := fun y => by
    rw [View.read_apply, hemb y, ← View.read_apply, e]; rfl
  exact ⟨fun x => (hread _).trans (h0 x), fun x => (hread _).trans (h1 x)⟩

end Cert.KernelIdeal.Hand

end
-- ==== Proof.KernelIdeal.AttnSpec.lean ====
/-
  Any contents the write-backs may leave in the context result are the specification of the launch arguments.

  Index (n, q, o) of the result lies in the block written at grid point t = 6·n + o/128, at column o mod 128 of the
  block, which is coordinate d = o mod 64 of head j = (o mod 128)/64 of the pair, that is of head h = 2·(o/128) + j of the
  layer: o = 64·h + d. The block written there is the body's closed form over the point's four input blocks; at that
  column it is the one-head weighted sum over the head's slices of the blocks; the slices are the projections of the
  launch arguments at the head's columns; and that is the specification at (n, q, 64·h + d).
-/
import proofs.«153588_j55336358642313_2_alg».proof.Proof.KernelIdeal.AttnValue
import proofs.«153588_j55336358642313_2_alg».proof.Proof.KernelIdeal.AttnSlices
import proofs.«153588_j55336358642313_2_alg».proof.Proof.KernelIdeal.AttnArray
import proofs.«153588_j55336358642313_2_alg».proof.Proof.KernelIdeal.ProjValue

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

set_option maxHeartbeats 1000000 in
theorem kernel_ctx (c : Dev nD) (F4 : Buf (Elt Ideal) ((c : Thread nD τ).loc main_v12_0))
    (h : (rdat2 (F := Ideal) (V5 m ρ) c).ArrAt 4 cfg2.N F4) :
    F4 = (fun i => Cert.Spec.ctxSpec (argX m c) (argL m c) (argQW m c) (argQB m c) (argKW m c) (argKB m c) (argVW m c) (argVB m c) (argLQW m c) (argLQB m c) (argLKW m c) (argLKB m c) (i 0) (i 1) (i 2) : S8x1024x768.Idx → EReal) := by
  funext i
  obtain ⟨n, q, o, rfl⟩ : ∃ (n : Fin 8) (q : Fin 1024) (o : Fin 768), i = ix3 n q o := ⟨i 0, i 1, i 2, eq_ix3 i⟩
  have ho := o.isLt
  have hn8 := n.isLt
  -- the grid point, the head of the pair, the head of the layer, the coordinate inside the head
  have hN : cfg2.N = 48 := N_2
  let t : Fin cfg2.N := ⟨6 * n.val + o.val / 128, by rw [hN]; omega⟩
  let j : Fin 2 := ⟨(o.val % 128) / 64, by omega⟩
  let d : Fin 64 := ⟨o.val % 64, Nat.mod_lt _ (by decide)⟩
  let hd : Fin 12 := ⟨2 * (o.val / 128) + (o.val % 128) / 64, by omega⟩
  have htv : t.val = 6 * n.val + o.val / 128 := rfl
  have hn : n.val = t.val / 6 := by rw [htv]; omega
  have hp : t.val % 6 = o.val / 128 := by rw [htv]; omega
  have hh : hd.val = 2 * (t.val % 6) + (o.val % 128) / 64 := by rw [hp]
  have hj : (o.val % 128) / 64 < 2 := by omega
  have eo : o = headCol64 hd d := Fin.ext (by show o.val = 64 * (2 * (o.val / 128) + (o.val % 128) / 64) + o.val % 64; omega)
  -- the array at the index is the point's block at the head's column
  refine (blk2_ctx c F4 t q (pcol j d) n o hn (by show o.val = 128 * (t.val % 6) + (64 * ((o.val % 128) / 64) + o.val % 64); rw [hp]; omega)).symm.trans ?_
  -- the block is the body's closed form over the point's input blocks
  refine (congrFun (ctx_final (F := Ideal) (V5 m ρ) c F4 h t) (ix3 (0 : Fin 1) q (pcol j d))).trans ?_
  -- which at that column is the one-head weighted sum over the head's slices
  refine (ctxOut_apply (grid2.coords t) (iblk2 (V5 m ρ) c 0 t) (iblk2 (V5 m ρ) c 1 t) (iblk2 (V5 m ρ) c 2 t) (iblk2 (V5 m ρ) c 3 t) q j d).trans ?_
  show _ = Cert.Spec.ctxSpec (argX m c) (argL m c) (argQW m c) (argQB m c) (argKW m c) (argKB m c) (argVW m c) (argVB m c) (argLQW m c) (argLQB m c) (argLKW m c) (argLKB m c) n q o
  rw [eo, ctxSpec_headCol1]
  -- the slices are the projections of the launch arguments at the head's columns
  have hc1 : ((grid2.coords t) 1).val = t.val % 6 := (coords2 t).2
  have hQ : hcol (iblk2 (V5 m ρ) c 0 t) j = fun s d' => lin768 (argX m c) (argQW m c) (argQB m c) n s (headCol64 hd d') :=
    funext fun s => funext fun d' => slice_q m ρ c t n hd _ hj hn hh s d' (pcol j d') rfl
  have hK : hcol (iblk2 (V5 m ρ) c 1 t) j = fun s d' => lin768 (argX m c) (argKW m c) (argKB m c) n s (headCol64 hd d') :=
    funext fun s => funext fun d' => slice_k m ρ c t n hd _ hj hn hh s d' (pcol j d') rfl
  have hLQ : lqh (grid2.coords t) (iblk2 (V5 m ρ) c 3 t) j = fun s d' => lin192 (argL m c) (argLQW m c) (argLQB m c) n s (headCol16 hd d') :=
    funext fun s => funext fun d' => slice_lq m ρ c t n hd _ hj hn hh s d' (lcol (grid2.coords t) 0 j d')
      (by show 192 * 0 + 32 * ((grid2.coords t) 1).val + 16 * ((o.val % 128) / 64) + d'.val = _; omega)
  have hLK : lkh (grid2.coords t) (iblk2 (V5 m ρ) c 3 t) j = fun s d' => lin192 (argL m c) (argLKW m c) (argLKB m c) n s (headCol16 hd d') :=
    funext fun s => funext fun d' => slice_lk m ρ c t n hd _ hj hn hh s d' (lcol (grid2.coords t) 1 j d')
      (by show 192 * 1 + 32 * ((grid2.coords t) 1).val + 16 * ((o.val % 128) / 64) + d'.val = _; omega)
  rw [hQ, hK, hLQ, hLK]
  refine Finset.sum_congr rfl fun k _ => congrArg _ ?_
  exact slice_v m ρ c t n hd _ hj hn hh k d (pcol j d) rfl

end Cert.KernelIdeal.HandValue

end
-- ==== Proof.KernelIdeal.AttnSpecL.lean ====
/-
  The layout-context result of the kernel is the specification's.

  The layout-context array is written 32 columns at a time: grid point t = 6·n + hp stores, into batch
  entry n's block, head 2·hp's 16 result columns at column 32·hp and head 2·hp+1's at column
  32·hp + 16.  Column o of the array therefore belongs to the point with hp = o / 32 and to head
  h = o / 16 of the layer, at coordinate d = o % 16, that is o = 16·h + d; the head is the pair's
  first when (o % 32) / 16 = 0 and its second otherwise.

  At that point the body's value at (q, d) is the one-head weighted sum over the four score slices
  and the value slice of the blocks it was handed, and those slices are the (n, h) slices of the six
  projections of the launch arguments; the specification at column 16·h + d is the same one-head sum.
-/
import proofs.«153588_j55336358642313_2_alg».proof.Proof.KernelIdeal.AttnValue
import proofs.«153588_j55336358642313_2_alg».proof.Proof.KernelIdeal.AttnSlices
import proofs.«153588_j55336358642313_2_alg».proof.Proof.KernelIdeal.AttnArray
import proofs.«153588_j55336358642313_2_alg».proof.Proof.KernelIdeal.ProjValue

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open scoped BigOperators

/-! ## Where the two stores of a point sit in its layout-context block -/

/-- The first head's store places (0, q, d) at column 32·hp + d, -/
theorem rO0_emb (i : grid2.Coords) (q : Fin 1024) (d : Fin 16) (col : Fin 192) (hcol : col.val = 32 * (i 1).val + d.val) :
    (rO0 i).emb (ix3 (0 : Fin 1) q d) = ix3 (0 : Fin 1) q col :=
  funext fun a => Fin.ext (by
    have e0 : (k2_off3 i 0#32) (0 : Fin 3) = 0 := congrFun (k2_off3_eq i ⟨0, by decide⟩) 0
    have e1 : (k2_off3 i 0#32) (1 : Fin 3) = 0 := congrFun (k2_off3_eq i ⟨0, by decide⟩) 1
    have e2 : (k2_off3 i 0#32) (2 : Fin 3) = 32 * (i 1).val + 16 * 0 := congrFun (k2_off3_eq i ⟨0, by decide⟩) 2
    match a with
    | ⟨0, _⟩ => show (k2_off3 i 0#32) (0 : Fin 3) + 1 * 0 = 0; omega
    | ⟨1, _⟩ => show (k2_off3 i 0#32) (1 : Fin 3) + 1 * q.val = q.val; omega
    | ⟨2, _⟩ => show (k2_off3 i 0#32) (2 : Fin 3) + 1 * d.val = col.val; omega)

/-- the second head's at column 32·hp + 16 + d. -/
theorem rO1_emb (i : grid2.Coords) (q : Fin 1024) (d : Fin 16) (col : Fin 192) (hcol : col.val = 32 * (i 1).val + 16 + d.val) :
    (rO1 i).emb (ix3 (0 : Fin 1) q d) = ix3 (0 : Fin 1) q col :=
  funext fun a => Fin.ext (by
    have e0 : (k2_off3 i 16#32) (0 : Fin 3) = 0 := congrFun (k2_off3_eq i ⟨1, by decide⟩) 0
    have e1 : (k2_off3 i 16#32) (1 : Fin 3) = 0 := congrFun (k2_off3_eq i ⟨1, by decide⟩) 1
    have e2 : (k2_off3 i 16#32) (2 : Fin 3) = 32 * (i 1).val + 16 * 1 := congrFun (k2_off3_eq i ⟨1, by decide⟩) 2
    match a with
    | ⟨0, _⟩ => show (k2_off3 i 16#32) (0 : Fin 3) + 1 * 0 = 0; omega
    | ⟨1, _⟩ => show (k2_off3 i 16#32) (1 : Fin 3) + 1 * q.val = q.val; omega
    | ⟨2, _⟩ => show (k2_off3 i 16#32) (2 : Fin 3) + 1 * d.val = col.val; omega)

/-! ## The body's layout-context values, from what the slices of its blocks are -/

/-- Head 0 of the pair: whatever the five slices of the handed blocks are, the value is their one-head sum. -/
theorem lctx0_value (i : grid2.Coords) (yq yk : Vec Ideal S1x1024x128 .bf16) (yl : Vec Ideal S1x1024x576 .bf16)
    (Q K : Fin 1024 → Fin 64 → EReal) (LQ LK LV : Fin 1024 → Fin 16 → EReal)
    (hQ : ∀ s e, hcol yq 0 s e = Q s e) (hK : ∀ s e, hcol yk 0 s e = K s e)
    (hLQ : ∀ s e, lqh i yl 0 s e = LQ s e) (hLK : ∀ s e, lkh i yl 0 s e = LK s e) (hLV : ∀ s e, lvh i yl 0 s e = LV s e)
    (q : Fin 1024) (d : Fin 16) :
    lctx0 (F := Ideal) i yq yk yl (ix3 (0 : Fin 1) q d) = ∑ k : Fin 1024, prob1 Q K LQ LK q k * LV k d := by
  have e1 : hcol yq 0 = Q := funext fun s => funext fun e => hQ s e
  have e2 : hcol yk 0 = K := funext fun s => funext fun e => hK s e
  have e3 : lqh i yl 0 = LQ := funext fun s => funext fun e => hLQ s e
  have e4 : lkh i yl 0 = LK := funext fun s => funext fun e => hLK s e
  rw [lctx0_apply, e1, e2, e3, e4]
  exact Finset.sum_congr rfl fun k _ => congrArg (prob1 Q K LQ LK q k * ·) (hLV k d)

/-- Head 1 of the pair likewise. -/
theorem lctx1_value (i : grid2.Coords) (yq yk : Vec Ideal S1x1024x128 .bf16) (yl : Vec Ideal S1x1024x576 .bf16)
    (Q K : Fin 1024 → Fin 64 → EReal) (LQ LK LV : Fin 1024 → Fin 16 → EReal)
    (hQ : ∀ s e, hcol yq 1 s e = Q s e) (hK : ∀ s e, hcol yk 1 s e = K s e)
    (hLQ : ∀ s e, lqh i yl 1 s e = LQ s e) (hLK : ∀ s e, lkh i yl 1 s e = LK s e) (hLV : ∀ s e, lvh i yl 1 s e = LV s e)
    (q : Fin 1024) (d : Fin 16) :
    lctx1 (F := Ideal) i yq yk yl (ix3 (0 : Fin 1) q d) = ∑ k : Fin 1024, prob1 Q K LQ LK q k * LV k d := by
  have e1 : hcol yq 1 = Q := funext fun s => funext fun e => hQ s e
  have e2 : hcol yk 1 = K := funext fun s => funext fun e => hK s e
  have e3 : lqh i yl 1 = LQ := funext fun s => funext fun e => hLQ s e
  have e4 : lkh i yl 1 = LK := funext fun s => funext fun e => hLK s e
  rw [lctx1_apply, e1, e2, e3, e4]
  exact Finset.sum_congr rfl fun k _ => congrArg (prob1 Q K LQ LK q k * ·) (hLV k d)

variable (m : (ℓ : Loc nD τ sig) → Buf (Elt Ideal) ℓ) (ρ : Dev nD → PrngReg)

/-! ## One head's columns of the array -/

/-- At the point t = 6·n + hp, head h = 2·hp + jv: the array's column 16·h + d of batch entry n is the
    specification's. -/
theorem lctx_head (c : Dev nD) (F5 : Buf (Elt Ideal) ((c : Thread nD τ).loc main_v12_1))
    (hF : (rdat2 (F := Ideal) (V5 m ρ) c).ArrAt 5 cfg2.N F5)
    (t : Fin cfg2.N) (n : Fin 8) (h : Fin 12) (jv : ℕ) (hj : jv < 2) (hn : n.val = t.val / 6)
    (hh : h.val = 2 * (t.val % 6) + jv) (q : Fin 1024) (d : Fin 16) :
    (F5 : S8x1024x192.Idx → EReal) (ix3 n q (headCol16 h d))
      = lctxSpec (argX m c) (argL m c) (argQW m c) (argQB m c) (argKW m c) (argKB m c) (argLQW m c) (argLQB m c)
          (argLKW m c) (argLKB m c) (argLVW m c) (argLVB m c) n q (headCol16 h d) := by
  have hc1 : ((grid2.coords t) 1).val = t.val % 6 := (HandValue.coords2 t).2
  have hd := d.isLt
  refine (blk2_lctx c F5 t q (headCol16 h d) n hn).symm.trans ?_
  refine Eq.trans ?_ (lctxSpec_headCol1 (argX m c) (argL m c) (argQW m c) (argQB m c) (argKW m c) (argKB m c)
    (argLQW m c) (argLQB m c) (argLKW m c) (argLKB m c) (argLVW m c) (argLVB m c) n q h d).symm
  obtain ⟨fin0, fin1⟩ := lctx_final (V5 m ρ) c F5 hF t
  rcases (by omega : jv = 0 ∨ jv = 1) with rfl | rfl
  · have hemb := rO0_emb (grid2.coords t) q d (headCol16 h d) (by simp only [headCol16_val]; omega)
    refine (congrArg _ hemb.symm).trans ((fin0 (ix3 (0 : Fin 1) q d)).trans ?_)
    exact lctx0_value (grid2.coords t) (iblk2 (V5 m ρ) c 0 t) (iblk2 (V5 m ρ) c 1 t) (iblk2 (V5 m ρ) c 3 t)
      (fun s e => lin768 (argX m c) (argQW m c) (argQB m c) n s (headCol64 h e))
      (fun s e => lin768 (argX m c) (argKW m c) (argKB m c) n s (headCol64 h e))
      (fun s e => lin192 (argL m c) (argLQW m c) (argLQB m c) n s (headCol16 h e))
      (fun s e => lin192 (argL m c) (argLKW m c) (argLKB m c) n s (headCol16 h e))
      (fun s e => lin192 (argL m c) (argLVW m c) (argLVB m c) n s (headCol16 h e))
      (fun s e => slice_q m ρ c t n h 0 hj hn hh s e (pcol 0 e) rfl)
      (fun s e => slice_k m ρ c t n h 0 hj hn hh s e (pcol 0 e) rfl)
      (fun s e => slice_lq m ρ c t n h 0 hj hn hh s e (lcol (grid2.coords t) 0 0 e) (by
        show 192 * 0 + 32 * ((grid2.coords t) 1).val + 16 * 0 + e.val = 32 * (t.val % 6) + 16 * 0 + e.val; omega))
      (fun s e => slice_lk m ρ c t n h 0 hj hn hh s e (lcol (grid2.coords t) 1 0 e) (by
        show 192 * 1 + 32 * ((grid2.coords t) 1).val + 16 * 0 + e.val = 192 + 32 * (t.val % 6) + 16 * 0 + e.val; omega))
      (fun s e => slice_lv m ρ c t n h 0 hj hn hh s e (lcol (grid2.coords t) 2 0 e) (by
        show 192 * 2 + 32 * ((grid2.coords t) 1).val + 16 * 0 + e.val = 384 + 32 * (t.val % 6) + 16 * 0 + e.val; omega))
      q d
  · have hemb := rO1_emb (grid2.coords t) q d (headCol16 h d) (by simp only [headCol16_val]; omega)
    refine (congrArg _ hemb.symm).trans ((fin1 (ix3 (0 : Fin 1) q d)).trans ?_)
    exact lctx1_value (grid2.coords t) (iblk2 (V5 m ρ) c 0 t) (iblk2 (V5 m ρ) c 1 t) (iblk2 (V5 m ρ) c 3 t)
      (fun s e => lin768 (argX m c) (argQW m c) (argQB m c) n s (headCol64 h e))
      (fun s e => lin768 (argX m c) (argKW m c) (argKB m c) n s (headCol64 h e))
      (fun s e => lin192 (argL m c) (argLQW m c) (argLQB m c) n s (headCol16 h e))
      (fun s e => lin192 (argL m c) (argLKW m c) (argLKB m c) n s (headCol16 h e))
      (fun s e => lin192 (argL m c) (argLVW m c) (argLVB m c) n s (headCol16 h e))
      (fun s e => slice_q m ρ c t n h 1 hj hn hh s e (pcol 1 e) rfl)
      (fun s e => slice_k m ρ c t n h 1 hj hn hh s e (pcol 1 e) rfl)
      (fun s e => slice_lq m ρ c t n h 1 hj hn hh s e (lcol (grid2.coords t) 0 1 e) (by
        show 192 * 0 + 32 * ((grid2.coords t) 1).val + 16 * 1 + e.val = 32 * (t.val % 6) + 16 * 1 + e.val; omega))
      (fun s e => slice_lk m ρ c t n h 1 hj hn hh s e (lcol (grid2.coords t) 1 1 e) (by
        show 192 * 1 + 32 * ((grid2.coords t) 1).val + 16 * 1 + e.val = 192 + 32 * (t.val % 6) + 16 * 1 + e.val; omega))
      (fun s e => slice_lv m ρ c t n h 1 hj hn hh s e (lcol (grid2.coords t) 2 1 e) (by
        show 192 * 2 + 32 * ((grid2.coords t) 1).val + 16 * 1 + e.val = 384 + 32 * (t.val % 6) + 16 * 1 + e.val; omega))
      q d

/-! ## The array -/

/-- The array at (n, q, o): column o is coordinate o % 16 of head o / 16, written at the point 6·n + o / 32. -/
theorem lctx_at (c : Dev nD) (F5 : Buf (Elt Ideal) ((c : Thread nD τ).loc main_v12_1))
    (hF : (rdat2 (F := Ideal) (V5 m ρ) c).ArrAt 5 cfg2.N F5) (n : Fin 8) (q : Fin 1024) (o : Fin 192) :
    (F5 : S8x1024x192.Idx → EReal) (ix3 n q o)
      = lctxSpec (argX m c) (argL m c) (argQW m c) (argQB m c) (argKW m c) (argKB m c) (argLQW m c) (argLQB m c)
          (argLKW m c) (argLKB m c) (argLVW m c) (argLVB m c) n q o := by
  have hN : cfg2.N = 48 := N_2
  have ho := o.isLt
  have hn8 := n.isLt
  obtain ⟨t, ht⟩ : ∃ t : Fin cfg2.N, t.val = 6 * n.val + o.val / 32 :=
    ⟨⟨6 * n.val + o.val / 32, Nat.lt_of_lt_of_eq (by omega : 6 * n.val + o.val / 32 < 48) hN.symm⟩, rfl⟩
  obtain ⟨h, hhv⟩ : ∃ h : Fin 12, h.val = o.val / 16 := ⟨⟨o.val / 16, by omega⟩, rfl⟩
  obtain ⟨d, hdv⟩ : ∃ d : Fin 16, d.val = o.val % 16 := ⟨⟨o.val % 16, by omega⟩, rfl⟩
  have hoc : o = headCol16 h d := Fin.ext (by simp only [headCol16_val]; omega)
  rw [hoc]
  exact lctx_head m ρ c F5 hF t n h ((o.val % 32) / 16) (by omega) (by omega) (by omega) q d

/-- **The kernel's layout-context result is the specification.** -/
theorem kernel_lctx (c : Dev nD) (F5 : Buf (Elt Ideal) ((c : Thread nD τ).loc main_v12_1))
    (h : (rdat2 (F := Ideal) (V5 m ρ) c).ArrAt 5 cfg2.N F5) :
    F5 = (fun i => Cert.Spec.lctxSpec (argX m c) (argL m c) (argQW m c) (argQB m c) (argKW m c) (argKB m c)
      (argLQW m c) (argLQB m c) (argLKW m c) (argLKB m c) (argLVW m c) (argLVB m c) (i 0) (i 1) (i 2) : S8x1024x192.Idx → EReal) := by
  refine funext fun (i : S8x1024x192.Idx) => ?_
  obtain ⟨n, q, o, rfl⟩ : ∃ (n : Fin 8) (q : Fin 1024) (o : Fin 192), i = ix3 n q o := ⟨i 0, i 1, i 2, eq_ix3 i⟩
  exact lctx_at m ρ c F5 h n q o

end Cert.KernelIdeal.HandValue

end
-- ==== Proof.RefSpec.lean ====
/-
  The reference program computes the specification.

  The reference is read one operation at a time through the stage functions `val_main_vN` of the
  generated reading module, always at an index spelt from literal coordinates.  The road has four
  legs:

  * a projection with bias (a contraction over the input columns, then the bias broadcast along the
    batch and sequence axes) is `Spec.lin768` / `Spec.lin192`; regrouping the columns as
    (head, coordinate) and exchanging the head and sequence axes reads it at column
    `64·h + d` (resp. `16·h + d`), because the row-major position of (n, s, h, d) in
    [8,1024,12,64] is that of (n, s, 64h+d) in [8,1024,768];
  * the two scaled score contractions, added, are `Spec.comb`: the divisor is the host square root of
    the constant 64 (resp. 16), that is 8 (resp. 4), and division by a nonzero real is multiplication
    by its reciprocal on every extended real;
  * the shifted softmax: the max-reduce over the key axis is a fold of `max` from `-∞` over the 1024
    keys (read by hand from the library's single-axis fold lemma), the guard `max(-∞, ·)` is the
    identity, the sum-reduce starts from the zero word, and the two broadcasts put the row's value
    back at every key;
  * the two weighted averages contract the key axis against the value projections, and undoing the
    head split sends column `o` to head `o / 64`, coordinate `o % 64` (resp. 16).

  The six projections are three pairs of literally the same operations applied to different arguments,
  so one is read and the others are it by definition.
-/
import proofs.«153588_j55336358642313_2_alg».proof.Proof.Spec
import proofs.«153588_j55336358642313_2_alg».proof.Proof.Gen.ReferenceIdeal.Read

noncomputable section

namespace Cert.RefSpec

open Cert.ReferenceIdeal Cert.ReferenceIdeal.Gen Cert.ReferenceIdeal.Read Idealize.ShloMosaic Idealize.ShloMosaic.ValueIdx Cert.Spec

abbrev HidT := (⟨S8x1024x768, .f32⟩ : BufTy).Contents (Elt Ideal)
abbrev LayT := (⟨S8x1024x192, .f32⟩ : BufTy).Contents (Elt Ideal)
abbrev W768T := (⟨S768x768, .f32⟩ : BufTy).Contents (Elt Ideal)
abbrev B768T := (⟨S768, .f32⟩ : BufTy).Contents (Elt Ideal)
abbrev W192T := (⟨S192x192, .f32⟩ : BufTy).Contents (Elt Ideal)
abbrev B192T := (⟨S192, .f32⟩ : BufTy).Contents (Elt Ideal)

/-- A hidden-stream array, curried. -/
local notation "⟪" x "⟫ₕ" => (fun (a : Fin 8) (b : Fin 1024) (c : Fin 768) => x (ix3 a b c))
/-- A layout-stream array, curried. -/
local notation "⟪" x "⟫ₗ" => (fun (a : Fin 8) (b : Fin 1024) (c : Fin 192) => x (ix3 a b c))
/-- A 768 × 768 weight, curried. -/
local notation "⟪" x "⟫ₘ" => (fun (a : Fin 768) (c : Fin 768) => x (ix2 a c))
/-- A 192 × 192 weight, curried. -/
local notation "⟪" x "⟫ₙ" => (fun (a : Fin 192) (c : Fin 192) => x (ix2 a c))
/-- A 768 bias, curried. -/
local notation "⟪" x "⟫ᵤ" => (fun (a : Fin 768) => x (ix1 a))
/-- A 192 bias, curried. -/
local notation "⟪" x "⟫ᵥ" => (fun (a : Fin 192) => x (ix1 a))

/-! ## The projections -/

/-! ### The hidden stream: 768 columns, heads of 64 -/

theorem lidx_v0_at (n : Fin 8) (s : Fin 1024) (o k : Fin 768) : lidx_main_v0 (ix3 n s o) k = ix3 n s k :=
  funext fun a => by match a with | ⟨0, _⟩ => rfl | ⟨1, _⟩ => rfl | ⟨2, _⟩ => rfl

theorem ridx_v0_at (n : Fin 8) (s : Fin 1024) (o k : Fin 768) : ridx_main_v0 (ix3 n s o) k = ix2 o k :=
  funext fun a => by match a with | ⟨0, _⟩ => rfl | ⟨1, _⟩ => rfl

theorem bias_idx_v2_at (n : Fin 8) (s : Fin 1024) (o : Fin 768) : idx_main_v1 (idx_main_v2 (ix3 n s o)) = ix1 o :=
  funext fun a => by match a with | ⟨0, _⟩ => rfl

/-- The contraction over the input columns plus the broadcast bias is the affine projection. -/
theorem v3_at (x : HidT) (w : W768T) (b : B768T) (n : Fin 8) (s : Fin 1024) (o : Fin 768) :
    val_main_v3 (F := Ideal) x w b (ix3 n s o) = lin768 ⟪x⟫ₕ ⟪w⟫ₘ ⟪b⟫ᵤ n s o := by
  rw [val_main_v3_apply, val_main_v0_apply, val_main_v2_apply, val_main_v1_apply, bias_idx_v2_at]
  simp only [lidx_v0_at, ridx_v0_at]
  rfl

/-- Row-major position: (n, s, h, d) in [8,1024,12,64] sits where (n, s, 64h+d) does in [8,1024,768]. -/
theorem idx_v4_v5_at (n : Fin 8) (h : Fin 12) (s : Fin 1024) (d : Fin 64) :
    idx_main_v4 (idx_main_v5 (ix4 n h s d)) = ix3 n s (headCol64 h d) :=
  funext fun a => Fin.ext (by
    have hn := n.isLt; have hh := h.isLt; have hs := s.isLt; have hd := d.isLt
    match a with
    | ⟨0, _⟩ => show (((n.val * 1024 + s.val) * 12 + h.val) * 64 + d.val) / 786432 = n.val; omega
    | ⟨1, _⟩ => show (((n.val * 1024 + s.val) * 12 + h.val) * 64 + d.val) / 768 % 1024 = s.val; omega
    | ⟨2, _⟩ => show (((n.val * 1024 + s.val) * 12 + h.val) * 64 + d.val) % 768 = 64 * h.val + d.val; omega)

/-- The head-split, head-major view of a hidden projection at (n, h, s, d) is the projection at column 64h+d. -/
theorem v5_at (x : HidT) (w : W768T) (b : B768T) (n : Fin 8) (h : Fin 12) (s : Fin 1024) (d : Fin 64) :
    val_main_v5 (F := Ideal) x w b (ix4 n h s d) = lin768 ⟪x⟫ₕ ⟪w⟫ₘ ⟪b⟫ᵤ n s (headCol64 h d) := by
  rw [val_main_v5_apply, val_main_v4_apply, idx_v4_v5_at]
  exact v3_at x w b n s (headCol64 h d)

/-- The key projection is the same operations on the key weights. -/
theorem v11_at (x : HidT) (w : W768T) (b : B768T) (n : Fin 8) (h : Fin 12) (s : Fin 1024) (d : Fin 64) :
    val_main_v11 (F := Ideal) x w b (ix4 n h s d) = lin768 ⟪x⟫ₕ ⟪w⟫ₘ ⟪b⟫ᵤ n s (headCol64 h d) :=
  v5_at x w b n h s d

/-- The value projection likewise. -/
theorem v17_at (x : HidT) (w : W768T) (b : B768T) (n : Fin 8) (h : Fin 12) (s : Fin 1024) (d : Fin 64) :
    val_main_v17 (F := Ideal) x w b (ix4 n h s d) = lin768 ⟪x⟫ₕ ⟪w⟫ₘ ⟪b⟫ᵤ n s (headCol64 h d) :=
  v5_at x w b n h s d

/-! ### The layout stream: 192 columns, heads of 16 -/

theorem lidx_v18_at (n : Fin 8) (s : Fin 1024) (o k : Fin 192) : lidx_main_v18 (ix3 n s o) k = ix3 n s k :=
  funext fun a => by match a with | ⟨0, _⟩ => rfl | ⟨1, _⟩ => rfl | ⟨2, _⟩ => rfl

theorem ridx_v18_at (n : Fin 8) (s : Fin 1024) (o k : Fin 192) : ridx_main_v18 (ix3 n s o) k = ix2 o k :=
  funext fun a => by match a with | ⟨0, _⟩ => rfl | ⟨1, _⟩ => rfl

theorem bias_idx_v20_at (n : Fin 8) (s : Fin 1024) (o : Fin 192) : idx_main_v19 (idx_main_v20 (ix3 n s o)) = ix1 o :=
  funext fun a => by match a with | ⟨0, _⟩ => rfl

theorem v21_at (x : LayT) (w : W192T) (b : B192T) (n : Fin 8) (s : Fin 1024) (o : Fin 192) :
    val_main_v21 (F := Ideal) x w b (ix3 n s o) = lin192 ⟪x⟫ₗ ⟪w⟫ₙ ⟪b⟫ᵥ n s o := by
  rw [val_main_v21_apply, val_main_v18_apply, val_main_v20_apply, val_main_v19_apply, bias_idx_v20_at]
  simp only [lidx_v18_at, ridx_v18_at]
  rfl

/-- Row-major position: (n, s, h, d) in [8,1024,12,16] sits where (n, s, 16h+d) does in [8,1024,192]. -/
theorem idx_v22_v23_at (n : Fin 8) (h : Fin 12) (s : Fin 1024) (d : Fin 16) :
    idx_main_v22 (idx_main_v23 (ix4 n h s d)) = ix3 n s (headCol16 h d) :=
  funext fun a => Fin.ext (by
    have hn := n.isLt; have hh := h.isLt; have hs := s.isLt; have hd := d.isLt
    match a with
    | ⟨0, _⟩ => show (((n.val * 1024 + s.val) * 12 + h.val) * 16 + d.val) / 196608 = n.val; omega
    | ⟨1, _⟩ => show (((n.val * 1024 + s.val) * 12 + h.val) * 16 + d.val) / 192 % 1024 = s.val; omega
    | ⟨2, _⟩ => show (((n.val * 1024 + s.val) * 12 + h.val) * 16 + d.val) % 192 = 16 * h.val + d.val; omega)

theorem v23_at (x : LayT) (w : W192T) (b : B192T) (n : Fin 8) (h : Fin 12) (s : Fin 1024) (d : Fin 16) :
    val_main_v23 (F := Ideal) x w b (ix4 n h s d) = lin192 ⟪x⟫ₗ ⟪w⟫ₙ ⟪b⟫ᵥ n s (headCol16 h d) := by
  rw [val_main_v23_apply, val_main_v22_apply, idx_v22_v23_at]
  exact v21_at x w b n s (headCol16 h d)

theorem v29_at (x : LayT) (w : W192T) (b : B192T) (n : Fin 8) (h : Fin 12) (s : Fin 1024) (d : Fin 16) :
    val_main_v29 (F := Ideal) x w b (ix4 n h s d) = lin192 ⟪x⟫ₗ ⟪w⟫ₙ ⟪b⟫ᵥ n s (headCol16 h d) :=
  v23_at x w b n h s d

theorem v35_at (x : LayT) (w : W192T) (b : B192T) (n : Fin 8) (h : Fin 12) (s : Fin 1024) (d : Fin 16) :
    val_main_v35 (F := Ideal) x w b (ix4 n h s d) = lin192 ⟪x⟫ₗ ⟪w⟫ₙ ⟪b⟫ᵥ n s (headCol16 h d) :=
  v23_at x w b n h s d

/-! ## The scores -/

theorem lidx_v36_at (n : Fin 8) (h : Fin 12) (q k : Fin 1024) (d : Fin 64) : lidx_main_v36 (ix4 n h q k) d = ix4 n h q d :=
  funext fun a => by match a with | ⟨0, _⟩ => rfl | ⟨1, _⟩ => rfl | ⟨2, _⟩ => rfl | ⟨3, _⟩ => rfl

theorem ridx_v36_at (n : Fin 8) (h : Fin 12) (q k : Fin 1024) (d : Fin 64) : ridx_main_v36 (ix4 n h q k) d = ix4 n h k d :=
  funext fun a => by match a with | ⟨0, _⟩ => rfl | ⟨1, _⟩ => rfl | ⟨2, _⟩ => rfl | ⟨3, _⟩ => rfl

theorem lidx_v40_at (n : Fin 8) (h : Fin 12) (q k : Fin 1024) (d : Fin 16) : lidx_main_v40 (ix4 n h q k) d = ix4 n h q d :=
  funext fun a => by match a with | ⟨0, _⟩ => rfl | ⟨1, _⟩ => rfl | ⟨2, _⟩ => rfl | ⟨3, _⟩ => rfl

theorem ridx_v40_at (n : Fin 8) (h : Fin 12) (q k : Fin 1024) (d : Fin 16) : ridx_main_v40 (ix4 n h q k) d = ix4 n h k d :=
  funext fun a => by match a with | ⟨0, _⟩ => rfl | ⟨1, _⟩ => rfl | ⟨2, _⟩ => rfl | ⟨3, _⟩ => rfl

section Softmax

variable (x0 : HidT) (x1 : LayT) (x2 : W768T) (x3 : B768T) (x4 : W768T) (x5 : B768T)
  (x8 : W192T) (x9 : B192T) (x10 : W192T) (x11 : B192T)

/-- The specification's combined scores of these arguments. -/
local notation "cS" => combSpec ⟪x0⟫ₕ ⟪x1⟫ₗ ⟪x2⟫ₘ ⟪x3⟫ᵤ ⟪x4⟫ₘ ⟪x5⟫ᵤ ⟪x8⟫ₙ ⟪x9⟫ᵥ ⟪x10⟫ₙ ⟪x11⟫ᵥ

/-- The two contractions over a head's columns, each divided by the root of its width, added. -/
theorem v44_at (n : Fin 8) (h : Fin 12) (q k : Fin 1024) :
    val_main_v44 (F := Ideal) x0 x1 x2 x3 x4 x5 x8 x9 x10 x11 (ix4 n h q k) = cS n h q k := by
  rw [val_main_v44_apply, val_main_v39_apply, val_main_v43_apply, val_main_v36_apply, val_main_v40_apply,
    val_main_v38_apply, val_main_v42_apply, val_main_v37_apply, val_main_v41_apply, val_main_cst_apply,
    val_main_cst_0_apply, hostDivf_hostSqrt_64, hostDivf_hostSqrt_16]
  simp only [lidx_v36_at, ridx_v36_at, lidx_v40_at, ridx_v40_at, v5_at, v11_at, v23_at, v29_at]
  rfl

/-! ## The softmax -/

/-- The reduced index (n, h, q) with key `k` put back is (n, h, q, k). -/
theorem lift_key_at (hR : S8x12x1024x1024.Reduces [3] S8x12x1024) (n : Fin 8) (h : Fin 12) (q : Fin 1024)
    (k : Fin (S8x12x1024x1024.size 3)) : hR.lift (ix3 n h q) k = ix4 n h q (⟨k.val, k.isLt⟩ : Fin 1024) := by
  funext c; apply Fin.ext
  fin_cases c <;> rfl

/-- The max-reduce over the key axis from `-∞` is the fold of `max` from `⊥` over the 1024 keys. -/
theorem v45_at (n : Fin 8) (h : Fin 12) (q : Fin 1024) :
    val_main_v45 (F := Ideal) x0 x1 x2 x3 x4 x5 x8 x9 x10 x11 (ix3 n h q)
      = (Finset.univ : Finset (Fin 1024)).fold max ⊥
          (fun k => val_main_v44 (F := Ideal) x0 x1 x2 x3 x4 x5 x8 x9 x10 x11 (ix4 n h q k)) := by
  unfold val_main_v45
  generalize (val_main_v44 (F := Ideal) x0 x1 x2 x3 x4 x5 x8 x9 x10 x11 : FVec Ideal S8x12x1024x1024 .f32) = y
  have hR : S8x12x1024x1024.Reduces [3] S8x12x1024 := by decide
  refine (Host.reduce_eq_fold_single (α := Ideal .f32) (FloatOps.maximumf (F := Ideal) (φ := .f32)) y
    (val_main_cst_1 (F := Ideal)) reducesTo_S8x12x1024x1024_S8x12x1024_d3 hR h_S_ (ix3 n h q)).trans ?_
  have hf : (y ∘ hR.lift (ix3 n h q)) = fun k : Fin 1024 => y (ix4 n h q k) :=
    funext fun k => congrArg y (lift_key_at hR n h q k)
  show Finset.fold max (Ideal.ofBits .f32 0xFF800000#32) (y ∘ hR.lift (ix3 n h q)) (Finset.univ : Finset (Fin 1024)) = _
  rw [ofBits_neg_inf]
  exact congrArg (fun f => Finset.fold max (⊥ : EReal) f (Finset.univ : Finset (Fin 1024))) hf

/-- The guarded row maximum is the specification's. -/
theorem v47_at (n : Fin 8) (h : Fin 12) (q : Fin 1024) :
    val_main_v47 (F := Ideal) x0 x1 x2 x3 x4 x5 x8 x9 x10 x11 (ix3 n h q) = rowMax cS n h q := by
  rw [val_main_v47_apply, val_main_v46_apply, val_main_cst_2_apply, maximumf_neg_inf, v45_at]
  unfold rowMax
  simp only [v44_at]

theorem idx_v48_v49_at (n : Fin 8) (h : Fin 12) (q k : Fin 1024) : idx_main_v48 (idx_main_v49 (ix4 n h q k)) = ix3 n h q :=
  funext fun a => by match a with | ⟨0, _⟩ => rfl | ⟨1, _⟩ => rfl | ⟨2, _⟩ => rfl

/-- The shifted exponential. -/
theorem v51_at (n : Fin 8) (h : Fin 12) (q k : Fin 1024) :
    val_main_v51 (F := Ideal) x0 x1 x2 x3 x4 x5 x8 x9 x10 x11 (ix4 n h q k) = pexp cS n h q k := by
  rw [val_main_v51_apply, val_main_v50_apply, val_main_v49_apply, val_main_v48_apply, idx_v48_v49_at, v47_at, v44_at]
  rfl

theorem idx_v52_at (n : Fin 8) (h : Fin 12) (q k : Fin 1024) : idx_main_v52 (ix3 n h q) k = ix4 n h q k :=
  funext fun a => by match a with | ⟨0, _⟩ => rfl | ⟨1, _⟩ => rfl | ⟨2, _⟩ => rfl | ⟨3, _⟩ => rfl

/-- The row sum, started from the zero word. -/
theorem v52_at (n : Fin 8) (h : Fin 12) (q : Fin 1024) :
    val_main_v52 (F := Ideal) x0 x1 x2 x3 x4 x5 x8 x9 x10 x11 (ix3 n h q) = den cS n h q := by
  rw [val_main_v52_apply, val_main_cst_3_apply]
  simp only [idx_v52_at, v51_at]
  exact zero_word_add _

theorem idx_v53_v54_at (n : Fin 8) (h : Fin 12) (q k : Fin 1024) : idx_main_v53 (idx_main_v54 (ix4 n h q k)) = ix3 n h q :=
  funext fun a => by match a with | ⟨0, _⟩ => rfl | ⟨1, _⟩ => rfl | ⟨2, _⟩ => rfl

/-- The softmax weights. -/
theorem v55_at (n : Fin 8) (h : Fin 12) (q k : Fin 1024) :
    val_main_v55 (F := Ideal) x0 x1 x2 x3 x4 x5 x8 x9 x10 x11 (ix4 n h q k)
      = probSpec ⟪x0⟫ₕ ⟪x1⟫ₗ ⟪x2⟫ₘ ⟪x3⟫ᵤ ⟪x4⟫ₘ ⟪x5⟫ᵤ ⟪x8⟫ₙ ⟪x9⟫ᵥ ⟪x10⟫ₙ ⟪x11⟫ᵥ n h q k := by
  rw [val_main_v55_apply, val_main_v54_apply, val_main_v53_apply, idx_v53_v54_at, v52_at, v51_at]
  rfl

end Softmax

/-! ## The two results -/

theorem lidx_v56_at (n : Fin 8) (h : Fin 12) (q : Fin 1024) (d : Fin 64) (k : Fin 1024) : lidx_main_v56 (ix4 n h q d) k = ix4 n h q k :=
  funext fun a => by match a with | ⟨0, _⟩ => rfl | ⟨1, _⟩ => rfl | ⟨2, _⟩ => rfl | ⟨3, _⟩ => rfl

theorem ridx_v56_at (n : Fin 8) (h : Fin 12) (q : Fin 1024) (d : Fin 64) (k : Fin 1024) : ridx_main_v56 (ix4 n h q d) k = ix4 n h k d :=
  funext fun a => by match a with | ⟨0, _⟩ => rfl | ⟨1, _⟩ => rfl | ⟨2, _⟩ => rfl | ⟨3, _⟩ => rfl

theorem lidx_v57_at (n : Fin 8) (h : Fin 12) (q : Fin 1024) (d : Fin 16) (k : Fin 1024) : lidx_main_v57 (ix4 n h q d) k = ix4 n h q k :=
  funext fun a => by match a with | ⟨0, _⟩ => rfl | ⟨1, _⟩ => rfl | ⟨2, _⟩ => rfl | ⟨3, _⟩ => rfl

theorem ridx_v57_at (n : Fin 8) (h : Fin 12) (q : Fin 1024) (d : Fin 16) (k : Fin 1024) : ridx_main_v57 (ix4 n h q d) k = ix4 n h k d :=
  funext fun a => by match a with | ⟨0, _⟩ => rfl | ⟨1, _⟩ => rfl | ⟨2, _⟩ => rfl | ⟨3, _⟩ => rfl

/-- Undoing the head split: column `o` of [8,1024,768] is head `o / 64`, coordinate `o % 64`. -/
theorem idx_v58_v59_at (n : Fin 8) (q : Fin 1024) (o : Fin 768) :
    idx_main_v58 (idx_main_v59 (ix3 n q o)) = ix4 n (headOf64 o) q (dimOf64 o) :=
  funext fun a => Fin.ext (by
    have hn := n.isLt; have hq := q.isLt; have ho := o.isLt
    match a with
    | ⟨0, _⟩ => show ((n.val * 1024 + q.val) * 768 + o.val) / 786432 = n.val; omega
    | ⟨1, _⟩ => show ((n.val * 1024 + q.val) * 768 + o.val) / 64 % 12 = o.val / 64; omega
    | ⟨2, _⟩ => show ((n.val * 1024 + q.val) * 768 + o.val) / 768 % 1024 = q.val; omega
    | ⟨3, _⟩ => show ((n.val * 1024 + q.val) * 768 + o.val) % 64 = o.val % 64; omega)

/-- Undoing the head split: column `o` of [8,1024,192] is head `o / 16`, coordinate `o % 16`. -/
theorem idx_v60_v61_at (n : Fin 8) (q : Fin 1024) (o : Fin 192) :
    idx_main_v60 (idx_main_v61 (ix3 n q o)) = ix4 n (headOf16 o) q (dimOf16 o) :=
  funext fun a => Fin.ext (by
    have hn := n.isLt; have hq := q.isLt; have ho := o.isLt
    match a with
    | ⟨0, _⟩ => show ((n.val * 1024 + q.val) * 192 + o.val) / 196608 = n.val; omega
    | ⟨1, _⟩ => show ((n.val * 1024 + q.val) * 192 + o.val) / 16 % 12 = o.val / 16; omega
    | ⟨2, _⟩ => show ((n.val * 1024 + q.val) * 192 + o.val) / 192 % 1024 = q.val; omega
    | ⟨3, _⟩ => show ((n.val * 1024 + q.val) * 192 + o.val) % 16 = o.val % 16; omega)

section Results

variable (x0 : HidT) (x1 : LayT) (x2 : W768T) (x3 : B768T) (x4 : W768T) (x5 : B768T) (x6 : W768T) (x7 : B768T)
  (x8 : W192T) (x9 : B192T) (x10 : W192T) (x11 : B192T) (x12 : W192T) (x13 : B192T)

/-- The hidden-stream result of the reference at (n, q, o). -/
theorem ref_ctx_at (n : Fin 8) (q : Fin 1024) (o : Fin 768) :
    val_main_v59 (F := Ideal) x0 x1 x2 x3 x4 x5 x6 x7 x8 x9 x10 x11 (ix3 n q o)
      = ctxSpec ⟪x0⟫ₕ ⟪x1⟫ₗ ⟪x2⟫ₘ ⟪x3⟫ᵤ ⟪x4⟫ₘ ⟪x5⟫ᵤ ⟪x6⟫ₘ ⟪x7⟫ᵤ ⟪x8⟫ₙ ⟪x9⟫ᵥ ⟪x10⟫ₙ ⟪x11⟫ᵥ n q o := by
  rw [val_main_v59_apply, val_main_v58_apply, idx_v58_v59_at, val_main_v56_apply]
  simp only [lidx_v56_at, ridx_v56_at, v55_at, v17_at, headCol64_headOf_dimOf]
  rfl

/-- The layout-stream result of the reference at (n, q, o). -/
theorem ref_lctx_at (n : Fin 8) (q : Fin 1024) (o : Fin 192) :
    val_main_v61 (F := Ideal) x0 x1 x2 x3 x4 x5 x8 x9 x10 x11 x12 x13 (ix3 n q o)
      = lctxSpec ⟪x0⟫ₕ ⟪x1⟫ₗ ⟪x2⟫ₘ ⟪x3⟫ᵤ ⟪x4⟫ₘ ⟪x5⟫ᵤ ⟪x8⟫ₙ ⟪x9⟫ᵥ ⟪x10⟫ₙ ⟪x11⟫ᵥ ⟪x12⟫ₙ ⟪x13⟫ᵥ n q o := by
  rw [val_main_v61_apply, val_main_v60_apply, idx_v60_v61_at, val_main_v57_apply]
  simp only [lidx_v57_at, ridx_v57_at, v55_at, v35_at, headCol16_headOf_dimOf]
  rfl

/-- **The reference's hidden-stream result is the specification.** -/
theorem ref_ctx :
    val_main_v59 (F := Ideal) x0 x1 x2 x3 x4 x5 x6 x7 x8 x9 x10 x11
      = fun i => ctxSpec (fun a b c => x0 (ix3 a b c)) (fun a b c => x1 (ix3 a b c))
          (fun a b => x2 (ix2 a b)) (fun a => x3 (ix1 a)) (fun a b => x4 (ix2 a b)) (fun a => x5 (ix1 a))
          (fun a b => x6 (ix2 a b)) (fun a => x7 (ix1 a)) (fun a b => x8 (ix2 a b)) (fun a => x9 (ix1 a))
          (fun a b => x10 (ix2 a b)) (fun a => x11 (ix1 a)) (i 0) (i 1) (i 2) := by
  funext i
  obtain ⟨n, q, o, rfl⟩ : ∃ (n : Fin 8) (q : Fin 1024) (o : Fin 768), i = ix3 n q o := ⟨i 0, i 1, i 2, eq_ix3 i⟩
  exact ref_ctx_at x0 x1 x2 x3 x4 x5 x6 x7 x8 x9 x10 x11 n q o

/-- **The reference's layout-stream result is the specification.** -/
theorem ref_lctx :
    val_main_v61 (F := Ideal) x0 x1 x2 x3 x4 x5 x8 x9 x10 x11 x12 x13
      = fun i => lctxSpec (fun a b c => x0 (ix3 a b c)) (fun a b c => x1 (ix3 a b c))
          (fun a b => x2 (ix2 a b)) (fun a => x3 (ix1 a)) (fun a b => x4 (ix2 a b)) (fun a => x5 (ix1 a))
          (fun a b => x8 (ix2 a b)) (fun a => x9 (ix1 a)) (fun a b => x10 (ix2 a b)) (fun a => x11 (ix1 a))
          (fun a b => x12 (ix2 a b)) (fun a => x13 (ix1 a)) (i 0) (i 1) (i 2) := by
  funext i
  obtain ⟨n, q, o, rfl⟩ : ∃ (n : Fin 8) (q : Fin 1024) (o : Fin 192), i = ix3 n q o := ⟨i 0, i 1, i 2, eq_ix3 i⟩
  exact ref_lctx_at x0 x1 x2 x3 x4 x5 x8 x9 x10 x11 x12 x13 n q o

end Results

end Cert.RefSpec

end
-- ==== Proof.Algebraic.lean ====
/-
  The two idealized programs compute one function of the arguments.

  The kernel's run ends with each result array at SOME contents its write-backs may have left; any such contents are the
  specification of the launch arguments (the attention layer written index by index over the extended reals). The
  reference's run ends with each result at its operations' composed term, which is the same specification of its own
  arguments; and the two programs' arguments agree. The specification is the common value.
-/
import proofs.«153588_j55336358642313_2_alg».proof.Defs
import proofs.«153588_j55336358642313_2_alg».proof.Proof.Gen.Pre_finite_inputs
import proofs.«153588_j55336358642313_2_alg».proof.Proof.KernelIdeal.Frame
import proofs.«153588_j55336358642313_2_alg».proof.Proof.KernelIdeal.AttnSpec
import proofs.«153588_j55336358642313_2_alg».proof.Proof.KernelIdeal.AttnSpecL
import proofs.«153588_j55336358642313_2_alg».proof.Proof.RefSpec

set_option maxRecDepth 16384

noncomputable section

namespace Cert.Proof.Algebraic

open Idealize.ShloMosaic Idealize.ShloMosaic.TcCoe Idealize.SL.Sem
open Cert.KernelIdeal Cert.KernelIdeal.Gen Cert.KernelIdeal.Hand Cert.KernelIdeal.HandValue

/-- The context result, as the specification of the kernel's launch arguments. -/
def ctxOf (m : (ℓ : Loc nD τ sig) → Buf (Elt Ideal) ℓ) (c : Dev nD) : Buf (Elt Ideal) ((c.tc : Thread nD τ).loc main_v12_0) :=
  (fun i => Cert.Spec.ctxSpec (argX m c) (argL m c) (argQW m c) (argQB m c) (argKW m c) (argKB m c) (argVW m c) (argVB m c) (argLQW m c) (argLQB m c) (argLKW m c) (argLKB m c) (i 0) (i 1) (i 2) : S8x1024x768.Idx → EReal)

/-- The layout-context result, likewise. -/
def lctxOf (m : (ℓ : Loc nD τ sig) → Buf (Elt Ideal) ℓ) (c : Dev nD) : Buf (Elt Ideal) ((c.tc : Thread nD τ).loc main_v12_1) :=
  (fun i => Cert.Spec.lctxSpec (argX m c) (argL m c) (argQW m c) (argQB m c) (argKW m c) (argKB m c) (argLQW m c) (argLQB m c) (argLKW m c) (argLKB m c) (argLVW m c) (argLVB m c) (i 0) (i 1) (i 2) : S8x1024x192.Idx → EReal)

set_option maxHeartbeats 1000000 in
theorem algebraic : Cert.algebraic_KernelIdeal_ReferenceIdeal := by
  intro m ρ m' ρ' _ hagree
  refine ⟨ctxOf m, lctxOf m, ?_, ?_⟩
  · refine (θ_run Cert.KernelIdeal.defs _ _).mono (fun r h c => ?_) (Cert.KernelIdeal.Hand.run_all (F := Ideal) m ρ)
    have hs := h c
    obtain ⟨F4, F5, h4, h5, hb⟩ := hs
    refine ⟨?_, ?_, final_args m ρ c r.2 (h c)⟩
    · exact (hb (Proc.devRef .tc main_v12_0) (mem_uc main_v12_0 (by decide))).trans
        ((W6_v12_0 m ρ c F4 F5).trans (kernel_ctx m ρ c F4 h4))
    · exact (hb (Proc.devRef .tc main_v12_1) (mem_uc main_v12_1 (by decide))).trans
        ((W6_v12_1 m ρ c F4 F5).trans (kernel_lctx m ρ c F5 h5))
  · refine (θ_run Cert.ReferenceIdeal.defs _ _).mono (fun r h c => ⟨?_, ?_, (h c).2.2⟩)
      (Cert.ReferenceIdeal.Value.run (F := Ideal) m' ρ')
    · obtain ⟨a0, a1, a2, a3, a4, a5, a6, a7, a8, a9, a10, a11, a12, a13⟩ := hagree c
      rw [(h c).1, Cert.ReferenceIdeal.Read.val_main_v59_eq, Cert.RefSpec.ref_ctx, a0, a1, a2, a3, a4, a5, a6, a7, a8, a9, a10, a11]
      rfl
    · obtain ⟨a0, a1, a2, a3, a4, a5, a6, a7, a8, a9, a10, a11, a12, a13⟩ := hagree c
      rw [(h c).2.1, Cert.ReferenceIdeal.Read.val_main_v61_eq, Cert.RefSpec.ref_lctx, a0, a1, a2, a3, a4, a5, a8, a9, a10, a11, a12, a13]
      rfl

end Cert.Proof.Algebraic

end
-- ==== Proof.lean ====
/-
  A dual-stream attention layer: a text stream (hidden size 768) and a layout stream (192), twelve heads of sizes 64
  and 16, both streams weighted by ONE softmax of the sum of their scaled scores. The kernel fuses the three text
  projections into one matrix product and the three layout projections into another (two kernel regions), and computes
  the attention two heads at a time over a grid of batch entries and head pairs (a third region), reading the heads'
  columns straight out of the fused projections and writing the results' columns in place; the reference projects,
  splits heads, takes the softmax and the two weighted sums over whole arrays.

  At the exact instance both are the same function of the fourteen arguments, index by index: the kernel's scales 1/8
  and 1/4 are the reference's quotients by the square roots of 64 and 16; the maximum with minus infinity is the
  maximum; a change of float format is the identity; and the fused products read at a head's columns are the separate
  projections. No finiteness of the inputs is used.

  The three frames: the reference is a straight line of host operations; the kernel's program is followed item by item
  (three host stretches, three regions), every unscoped buffer named between items, each region's body run once at a
  symbolic grid point from whatever its staging buffers may hold there. The idealization rewrote no operation.
-/
import proofs.«153588_j55336358642313_2_alg».proof.Defs
import proofs.«153588_j55336358642313_2_alg».proof.Proof.Gen.Kernel
import proofs.«153588_j55336358642313_2_alg».proof.Proof.Gen.Kernel.Skeleton
import proofs.«153588_j55336358642313_2_alg».proof.Proof.Gen.Kernel.Launch
import proofs.«153588_j55336358642313_2_alg».proof.Proof.Gen.Kernel.Regions
import proofs.«153588_j55336358642313_2_alg».proof.Proof.Gen.Kernel.Points
import proofs.«153588_j55336358642313_2_alg».proof.Proof.Gen.KernelIdeal
import proofs.«153588_j55336358642313_2_alg».proof.Proof.Gen.KernelIdeal.Skeleton
import proofs.«153588_j55336358642313_2_alg».proof.Proof.Gen.KernelIdeal.Launch
import proofs.«153588_j55336358642313_2_alg».proof.Proof.Gen.KernelIdeal.Regions
import proofs.«153588_j55336358642313_2_alg».proof.Proof.Gen.KernelIdeal.Points
import proofs.«153588_j55336358642313_2_alg».proof.Proof.Gen.ReferenceIdeal
import proofs.«153588_j55336358642313_2_alg».proof.Proof.Gen.Pre_finite_inputs
import proofs.«153588_j55336358642313_2_alg».proof.Proof.RefFrame
import proofs.«153588_j55336358642313_2_alg».proof.Proof.Kernel.Frame
import proofs.«153588_j55336358642313_2_alg».proof.Proof.KernelIdeal.Frame
import proofs.«153588_j55336358642313_2_alg».proof.Proof.Algebraic

noncomputable section

namespace Cert.Proof

open Idealize.ShloMosaic Idealize.SL.Sem

/-- The word-level kernel runs to the end, faults nowhere, and leaves its arguments as launched. -/
theorem frame_kernel : Cert.frame_Kernel := fun m ρ _ => Cert.Kernel.Hand.frame_all (F := Bits) m ρ

/-- So does the kernel read at the exact instance. -/
theorem frame_kernelIdeal : Cert.frame_KernelIdeal := fun m ρ _ => Cert.KernelIdeal.Hand.frame_all (F := Ideal) m ρ

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.RefFrame.frame_ri, trivial, Cert.Proof.Algebraic.algebraic⟩

end Cert.Proof

end
